-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v48_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v48_0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S2048x512 : Shape := ⟨2, ![2048, 512]⟩
abbrev S2048 : Shape := ⟨1, ![2048]⟩
abbrev S2048x2048 : Shape := ⟨2, ![2048, 2048]⟩
abbrev S512x2048 : Shape := ⟨2, ![512, 2048]⟩
abbrev S512 : Shape := ⟨1, ![512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S2048x512 : S_.BroadcastsInDim S2048x512 (![] : Fin 0 → Fin S2048x512.rank)
  reducesTo_S2048x512_S_d0_1 : S2048x512.ReducesTo [0, 1] S_
  bcast_S_S2048 : S_.BroadcastsInDim S2048 (![] : Fin 0 → Fin S2048.rank)
  reducesTo_S2048_S_d0 : S2048.ReducesTo [0] S_
  bcast_S_S2048x2048 : S_.BroadcastsInDim S2048x2048 (![] : Fin 0 → Fin S2048x2048.rank)
  reducesTo_S2048x2048_S_d0_1 : S2048x2048.ReducesTo [0, 1] S_
  bcast_S_S512x2048 : S_.BroadcastsInDim S512x2048 (![] : Fin 0 → Fin S512x2048.rank)
  reducesTo_S512x2048_S_d0_1 : S512x2048.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S2048 .f32) (main_arg5 : FVec F S512x2048 .f32) (main_arg6 : FVec F S512 .f32) (main_v13 : IVec S_ 1) (main_v16 : IVec S2048x2048 1) : IVec S_ 1 :=
  let main_c_5 : IVec S_ 1 := constantI S_ 1 1#1
  let main_v17 : IVec S_ 1 := (fun x v => Host.reduce IntOp.andi x v reducesTo_S2048x2048_S_d0_1 h_S_) main_v16 main_c_5
  let main_v18 : IVec S_ 1 := andi main_v13 main_v17
  let main_v19 : FVec F S2048 .f32 := Host.absf main_arg4
  let main_cst_6 : FVec F S_ .f32 := constant S_ .f32 0x7F800000#32
  let main_v20 : FVec F S2048 .f32 := broadcastInDim S2048 ![] bcast_S_S2048 main_cst_6
  let main_v21 : IVec S2048 1 := cmpf .olt main_v19 main_v20
  let main_c_7 : IVec S_ 1 := constantI S_ 1 1#1
  let main_v22 : IVec S_ 1 := (fun x v => Host.reduce IntOp.andi x v reducesTo_S2048_S_d0 h_S_) main_v21 main_c_7
  let main_v23 : IVec S_ 1 := andi main_v18 main_v22
  let main_v24 : FVec F S512x2048 .f32 := Host.absf main_arg5
  let main_cst_8 : FVec F S_ .f32 := constant S_ .f32 0x7F800000#32
  let main_v25 : FVec F S512x2048 .f32 := broadcastInDim S512x2048 ![] bcast_S_S512x2048 main_cst_8
  let main_v26 : IVec S512x2048 1 := cmpf .olt main_v24 main_v25
  let main_c_9 : IVec S_ 1 := constantI S_ 1 1#1
  let main_v27 : IVec S_ 1 := (fun x v => Host.reduce IntOp.andi x v reducesTo_S512x2048_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  main_v33

def fn {F : FTy → Type} [FloatOps F] (main_arg0 : FVec F S16384x512 .f32) (main_arg1 : FVec F S2048x512 .f32) (main_arg2 : FVec F S2048 .f32) (main_arg3 : FVec F S2048x2048 .f32) (main_arg4 : FVec F S2048 .f32) (main_arg5 : FVec F S512x2048 .f32) (main_arg6 : FVec F S512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S2048x512 .f32 := Host.absf main_arg1
  let main_cst_0 : FVec F S_ .f32 := constant S_ .f32 0x7F800000#32
  let main_v5 : FVec F S2048x512 .f32 := broadcastInDim S2048x512 ![] bcast_S_S2048x512 main_cst_0
  let main_v6 : IVec S2048x512 1 := cmpf .olt main_v4 main_v5
  let main_c_1 : IVec S_ 1 := constantI S_ 1 1#1
  let main_v7 : IVec S_ 1 := (fun x v => Host.reduce IntOp.andi x v reducesTo_S2048x512_S_d0_1 h_S_) main_v6 main_c_1
  let main_v8 : IVec S_ 1 := andi main_v3 main_v7
  let main_v9 : FVec F S2048 .f32 := Host.absf main_arg2
  let main_cst_2 : FVec F S_ .f32 := constant S_ .f32 0x7F800000#32
  let main_v10 : FVec F S2048 .f32 := broadcastInDim S2048 ![] bcast_S_S2048 main_cst_2
  let main_v11 : IVec S2048 1 := cmpf .olt main_v9 main_v10
  let main_c_3 : IVec S_ 1 := constantI S_ 1 1#1
  let main_v12 : IVec S_ 1 := (fun x v => Host.reduce IntOp.andi x v reducesTo_S2048_S_d0 h_S_) main_v11 main_c_3
  let main_v13 : IVec S_ 1 := andi main_v8 main_v12
  let main_v14 : FVec F S2048x2048 .f32 := Host.absf main_arg3
  let main_cst_4 : FVec F S_ .f32 := constant S_ .f32 0x7F800000#32
  let main_v15 : FVec F S2048x2048 .f32 := broadcastInDim S2048x2048 ![] bcast_S_S2048x2048 main_cst_4
  let main_v16 : IVec S2048x2048 1 := cmpf .olt main_v14 main_v15
  fn_part1 (F := F) main_arg4 main_arg5 main_arg6 main_v13 main_v16
-- ==== Kernel.lean ====
abbrev S16384x512 : Shape := ⟨2, ![16384, 512]⟩
abbrev S2048x512 : Shape := ⟨2, ![2048, 512]⟩
abbrev S2048 : Shape := ⟨1, ![2048]⟩
abbrev S2048x2048 : Shape := ⟨2, ![2048, 2048]⟩
abbrev S512x2048 : Shape := ⟨2, ![512, 2048]⟩
abbrev S512 : Shape := ⟨1, ![512]⟩
abbrev S_ : Shape := ⟨0, ![]⟩
abbrev S1x1 : Shape := ⟨2, ![1, 1]⟩
abbrev S1x2048 : Shape := ⟨2, ![1, 2048]⟩
abbrev S16384x2048 : Shape := ⟨2, ![16384, 2048]⟩
abbrev S64x512 : Shape := ⟨2, ![64, 512]⟩
abbrev S512x512 : Shape := ⟨2, ![512, 512]⟩
abbrev S1x512 : Shape := ⟨2, ![1, 512]⟩
abbrev S8x128 : Shape := ⟨2, ![8, 128]⟩
abbrev S2048x1 : Shape := ⟨2, ![2048, 1]⟩
abbrev S1 : Shape := ⟨1, ![1]⟩
abbrev S256x512 : Shape := ⟨2, ![256, 512]⟩
abbrev S512x1 : Shape := ⟨2, ![512, 1]⟩
abbrev S512x128 : Shape := ⟨2, ![512, 128]⟩
abbrev S256x2048 : Shape := ⟨2, ![256, 2048]⟩
abbrev S256 : Shape := ⟨1, ![256]⟩
abbrev S256x1 : Shape := ⟨2, ![256, 1]⟩

abbrev nBuf : Space → Nat
  | .hbm => 98
  | .vmem => 34
  | .smem => 0
  | _ => 0

abbrev bufTy : (tb : Table) → Fin (tcTables nBuf tb) → BufTy
  | .hbm, ⟨0, _⟩ => ⟨S16384x512, .f32⟩
  | .hbm, ⟨1, _⟩ => ⟨S2048x512, .f32⟩
  | .hbm, ⟨2, _⟩ => ⟨S2048, .f32⟩
  | .hbm, ⟨3, _⟩ => ⟨S2048x2048, .f32⟩
  | .hbm, ⟨4, _⟩ => ⟨S2048, .f32⟩
  | .hbm, ⟨5, _⟩ => ⟨S512x2048, .f32⟩
  | .hbm, ⟨6, _⟩ => ⟨S512, .f32⟩
  | .hbm, ⟨7, _⟩ => ⟨S16384x512, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S1x1, .f32⟩
  | .hbm, ⟨15, _⟩ => ⟨S2048x512, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S1x1, .f32⟩
  | .hbm, ⟨23, _⟩ => ⟨S2048x512, .f32⟩
  | .hbm, ⟨24, _⟩ => ⟨S2048x512, .f32⟩
  | .hbm, ⟨25, _⟩ => ⟨S2048x512, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S2048x512, .f32⟩
  | .hbm, ⟨30, _⟩ => ⟨S2048x512, .f32⟩
  | .hbm, ⟨31, _⟩ => ⟨S_, .f32⟩
  | .hbm, ⟨32, _⟩ => ⟨S2048x512, .f32⟩
  | .hbm, ⟨33, _⟩ => ⟨S2048x512, .f32⟩
  | .hbm, ⟨34, _⟩ => ⟨S2048x512, .bf16⟩
  | .hbm, ⟨35, _⟩ => ⟨S1x2048, .f32⟩
  | .hbm, ⟨36, _⟩ => ⟨S16384x2048, .f32⟩
  | .hbm, ⟨37, _⟩ => ⟨S64x512, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S1x1, .f32⟩
  | .hbm, ⟨45, _⟩ => ⟨S2048x2048, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S1x1, .f32⟩
  | .hbm, ⟨53, _⟩ => ⟨S2048x2048, .f32⟩
  | .hbm, ⟨54, _⟩ => ⟨S2048x2048, .f32⟩
  | .hbm, ⟨55, _⟩ => ⟨S2048x2048, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S2048x2048, .f32⟩
  | .hbm, ⟨60, _⟩ => ⟨S2048x2048, .f32⟩
  | .hbm, ⟨61, _⟩ => ⟨S_, .f32⟩
  | .hbm, ⟨62, _⟩ => ⟨S2048x2048, .f32⟩
  | .hbm, ⟨63, _⟩ => ⟨S2048x2048, .f32⟩
  | .hbm, ⟨64, _⟩ => ⟨S2048x2048, .bf16⟩
  | .hbm, ⟨65, _⟩ => ⟨S1x2048, .f32⟩
  | .hbm, ⟨66, _⟩ => ⟨S16384x2048, .f32⟩
  | .hbm, ⟨67, _⟩ => ⟨S256x512, .f32⟩
  | .hbm, ⟨68, _⟩ => ⟨S_, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S_, .f32⟩
  | .hbm, ⟨74, _⟩ => ⟨S1x1, .f32⟩
  | .hbm, ⟨75, _⟩ => ⟨S512x2048, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S1x1, .f32⟩
  | .hbm, ⟨83, _⟩ => ⟨S512x2048, .f32⟩
  | .hbm, ⟨84, _⟩ => ⟨S512x2048, .f32⟩
  | .hbm, ⟨85, _⟩ => ⟨S512x2048, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S512x2048, .f32⟩
  | .hbm, ⟨90, _⟩ => ⟨S512x2048, .f32⟩
  | .hbm, ⟨91, _⟩ => ⟨S_, .f32⟩
  | .hbm, ⟨92, _⟩ => ⟨S512x2048, .f32⟩
  | .hbm, ⟨93, _⟩ => ⟨S512x2048, .f32⟩
  | .hbm, ⟨94, _⟩ => ⟨S512x2048, .bf16⟩
  | .hbm, ⟨95, _⟩ => ⟨S1x512, .f32⟩
  | .hbm, ⟨96, _⟩ => ⟨S16384x512, .f32⟩
  | .hbm, ⟨97, _⟩ => ⟨S512x128, .f32⟩
  | .local _ .vmem, ⟨0, _⟩ => ⟨S2048x512, .f32⟩
  | .local _ .vmem, ⟨1, _⟩ => ⟨S2048x512, .f32⟩
  | .local _ .vmem, ⟨2, _⟩ => ⟨S512x512, .bf16⟩
  | .local _ .vmem, ⟨3, _⟩ => ⟨S512x512, .bf16⟩
  | .local _ .vmem, ⟨4, _⟩ => ⟨S1x512, .f32⟩
  | .local _ .vmem, ⟨5, _⟩ => ⟨S1x512, .f32⟩
  | .local _ .vmem, ⟨6, _⟩ => ⟨S1x1, .f32⟩
  | .local _ .vmem, ⟨7, _⟩ => ⟨S1x1, .f32⟩
  | .local _ .vmem, ⟨8, _⟩ => ⟨S2048x512, .f32⟩
  | .local _ .vmem, ⟨9, _⟩ => ⟨S2048x512, .f32⟩
  | .local _ .vmem, ⟨10, _⟩ => ⟨S8x128, .f32⟩
  | .local _ .vmem, ⟨11, _⟩ => ⟨S8x128, .f32⟩
  | .local _ .vmem, ⟨12, _⟩ => ⟨S512x2048, .f32⟩
  | .local _ .vmem, ⟨13, _⟩ => ⟨S512x2048, .f32⟩
  | .local _ .vmem, ⟨14, _⟩ => ⟨S512x2048, .bf16⟩
  | .local _ .vmem, ⟨15, _⟩ => ⟨S512x2048, .bf16⟩
  | .local _ .vmem, ⟨16, _⟩ => ⟨S1x512, .f32⟩
  | .local _ .vmem, ⟨17, _⟩ => ⟨S1x512, .f32⟩
  | .local _ .vmem, ⟨18, _⟩ => ⟨S1x1, .f32⟩
  | .local _ .vmem, ⟨19, _⟩ => ⟨S1x1, .f32⟩
  | .local _ .vmem, ⟨20, _⟩ => ⟨S512x512, .f32⟩
  | .local _ .vmem, ⟨21, _⟩ => ⟨S512x512, .f32⟩
  | .local _ .vmem, ⟨22, _⟩ => ⟨S8x128, .f32⟩
  | .local _ .vmem, ⟨23, _⟩ => ⟨S8x128, .f32⟩
  | .local _ .vmem, ⟨24, _⟩ => ⟨S256x2048, .f32⟩
  | .local _ .vmem, ⟨25, _⟩ => ⟨S256x2048, .f32⟩
  | .local _ .vmem, ⟨26, _⟩ => ⟨S512x2048, .bf16⟩
  | .local _ .vmem, ⟨27, _⟩ => ⟨S1x512, .f32⟩
  | .local _ .vmem, ⟨28, _⟩ => ⟨S1x1, .f32⟩
  | .local _ .vmem, ⟨29, _⟩ => ⟨S1x1, .f32⟩
  | .local _ .vmem, ⟨30, _⟩ => ⟨S256x512, .f32⟩
  | .local _ .vmem, ⟨31, _⟩ => ⟨S256x512, .f32⟩
  | .local _ .vmem, ⟨32, _⟩ => ⟨S8x128, .f32⟩
  | .local _ .vmem, ⟨33, _⟩ => ⟨S8x128, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_2 : Ref sig .tc := ⟨.hbm, 16, rfl⟩
abbrev main_v6 : Ref sig .tc := ⟨.hbm, 17, rfl⟩
abbrev main_cst_3 : Ref sig .tc := ⟨.hbm, 18, rfl⟩
abbrev main_v7 : Ref sig .tc := ⟨.hbm, 19, rfl⟩
abbrev main_cst_4 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_cst_5 : Ref sig .tc := ⟨.hbm, 26, rfl⟩
abbrev main_cst_6 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_call1_v3 : Ref sig .tc := ⟨.hbm, 31, rfl⟩
abbrev main_call1_v4 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16_0 : Ref sig .tc := ⟨.hbm, 36, rfl⟩
abbrev main_v16_1 : Ref sig .tc := ⟨.hbm, 37, rfl⟩
abbrev main_cst_7 : Ref sig .tc := ⟨.hbm, 38, rfl⟩
abbrev main_v17 : Ref sig .tc := ⟨.hbm, 39, rfl⟩
abbrev main_cst_8 : Ref sig .tc := ⟨.hbm, 40, rfl⟩
abbrev main_v18 : Ref sig .tc := ⟨.hbm, 41, rfl⟩
abbrev main_cst_9 : Ref sig .tc := ⟨.hbm, 42, rfl⟩
abbrev main_v19 : Ref sig .tc := ⟨.hbm, 43, rfl⟩
abbrev main_v20 : Ref sig .tc := ⟨.hbm, 44, rfl⟩
abbrev main_v21 : Ref sig .tc := ⟨.hbm, 45, rfl⟩
abbrev main_cst_10 : Ref sig .tc := ⟨.hbm, 46, rfl⟩
abbrev main_v22 : Ref sig .tc := ⟨.hbm, 47, rfl⟩
abbrev main_cst_11 : Ref sig .tc := ⟨.hbm, 48, rfl⟩
abbrev main_v23 : Ref sig .tc := ⟨.hbm, 49, rfl⟩
abbrev main_cst_12 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_13 : Ref sig .tc := ⟨.hbm, 56, rfl⟩
abbrev main_cst_14 : Ref sig .tc := ⟨.hbm, 57, rfl⟩
abbrev main_call3_v0 : Ref sig .tc := ⟨.hbm, 58, rfl⟩
abbrev main_call3_v1 : Ref sig .tc := ⟨.hbm, 59, rfl⟩
abbrev main_call3_v2 : Ref sig .tc := ⟨.hbm, 60, rfl⟩
abbrev main_call3_v3 : Ref sig .tc := ⟨.hbm, 61, rfl⟩
abbrev main_call3_v4 : Ref sig .tc := ⟨.hbm, 62, rfl⟩
abbrev main_v29 : Ref sig .tc := ⟨.hbm, 63, rfl⟩
abbrev main_v30 : Ref sig .tc := ⟨.hbm, 64, rfl⟩
abbrev main_v31 : Ref sig .tc := ⟨.hbm, 65, rfl⟩
abbrev main_v32_0 : Ref sig .tc := ⟨.hbm, 66, rfl⟩
abbrev main_v32_1 : Ref sig .tc := ⟨.hbm, 67, rfl⟩
abbrev main_cst_15 : Ref sig .tc := ⟨.hbm, 68, rfl⟩
abbrev main_v33 : Ref sig .tc := ⟨.hbm, 69, rfl⟩
abbrev main_cst_16 : Ref sig .tc := ⟨.hbm, 70, rfl⟩
abbrev main_v34 : Ref sig .tc := ⟨.hbm, 71, rfl⟩
abbrev main_cst_17 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_cst_18 : Ref sig .tc := ⟨.hbm, 76, rfl⟩
abbrev main_v38 : Ref sig .tc := ⟨.hbm, 77, rfl⟩
abbrev main_cst_19 : Ref sig .tc := ⟨.hbm, 78, rfl⟩
abbrev main_v39 : Ref sig .tc := ⟨.hbm, 79, rfl⟩
abbrev main_cst_20 : Ref sig .tc := ⟨.hbm, 80, rfl⟩
abbrev main_v40 : Ref sig .tc := ⟨.hbm, 81, rfl⟩
abbrev main_v41 : Ref sig .tc := ⟨.hbm, 82, rfl⟩
abbrev main_v42 : Ref sig .tc := ⟨.hbm, 83, rfl⟩
abbrev main_v43 : Ref sig .tc := ⟨.hbm, 84, rfl⟩
abbrev main_v44 : Ref sig .tc := ⟨.hbm, 85, rfl⟩
abbrev main_cst_21 : Ref sig .tc := ⟨.hbm, 86, rfl⟩
abbrev main_cst_22 : Ref sig .tc := ⟨.hbm, 87, rfl⟩
abbrev main_call5_v0 : Ref sig .tc := ⟨.hbm, 88, rfl⟩
abbrev main_call5_v1 : Ref sig .tc := ⟨.hbm, 89, rfl⟩
abbrev main_call5_v2 : Ref sig .tc := ⟨.hbm, 90, rfl⟩
abbrev main_call5_v3 : Ref sig .tc := ⟨.hbm, 91, rfl⟩
abbrev main_call5_v4 : Ref sig .tc := ⟨.hbm, 92, rfl⟩
abbrev main_v45 : Ref sig .tc := ⟨.hbm, 93, rfl⟩
abbrev main_v46 : Ref sig .tc := ⟨.hbm, 94, rfl⟩
abbrev main_v47 : Ref sig .tc := ⟨.hbm, 95, rfl⟩
abbrev main_v48_0 : Ref sig .tc := ⟨.hbm, 96, rfl⟩
abbrev main_v48_1 : Ref sig .tc := ⟨.hbm, 97, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg5_1 : Ref sig .tc := ⟨.vmem, 31, rfl⟩
abbrev cc2_stg6_0 : Ref sig .tc := ⟨.vmem, 32, rfl⟩
abbrev cc2_stg6_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem5_1 : DmaSem sig := 21
abbrev cc1_sem6_0 : DmaSem sig := 22
abbrev cc1_sem6_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem5_1 : DmaSem sig := 31
abbrev cc2_sem6_0 : DmaSem sig := 32
abbrev cc2_sem6_1 : DmaSem sig := 33

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S2048x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev grid1 : Pipeline.Grid := ⟨2, ![32, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x2048 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S1x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 2 → Memref sig .tc .vmem S512x512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S8x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨2, ![64, 1], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc2_transform_6 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S256x2048 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 1 → Memref sig .tc .vmem S512x2048 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, true]

abbrev stage2_2 : Fin 1 → Memref sig .tc .vmem S1x512 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, true]

abbrev stage2_3 : Fin 1 → Memref sig .tc .vmem S1x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false, false]

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S256x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S8x128 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

class Facts₀ : Prop where
  reducesTo_S16384x512_S_d0_1 : S16384x512.ReducesTo [0, 1] S_
  h_S_ : 0 < S_.numel
  shapeCasts_S_S1x1 : S_.ShapeCasts S1x1
  reducesTo_S2048x512_S_d0_1 : S2048x512.ReducesTo [0, 1] S_
  bcast_S1x1_S2048x512_0_1 : S1x1.BroadcastsInDim S2048x512 (![0, 1] : Fin 2 → Fin S2048x512.rank)
  bcast_S_S2048x512 : S_.BroadcastsInDim S2048x512 (![] : Fin 0 → Fin S2048x512.rank)
  bitsLt_bf16_f32 : FTy.bits .bf16 < FTy.bits .f32
  shapeCasts_S2048_S1x2048 : S2048.ShapeCasts S1x2048
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S2048x512_S2048x512_0_0 : ∀ a, (![0, 0] : Fin 2 → Nat) a + S2048x512.size a ≤ S2048x512.size a
  h_S2048x512 : 0 < S2048x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2048x512 : S1x512.Broadcasts S2048x512
  reduces_S2048x512_S2048 : S2048x512.Reduces [1] S2048
  shapeCasts_S2048_S2048x1 : S2048.ShapeCasts S2048x1
  reduces_S2048x1_S1 : S2048x1.Reduces [0] S1
  shapeCasts_S1_S1x1 : S1.ShapeCasts S1x1
  shapeCasts_S1x1_S1x1 : S1x1.ShapeCasts S1x1
  broadcasts_S1x1_S8x128 : S1x1.Broadcasts S8x128
  inb_S8x128_S8x128_0_0 : ∀ a, (![0, 0] : Fin 2 → Nat) a + S8x128.size a ≤ S8x128.size a
  h_S8x128 : 0 < S8x128.numel
  reducesTo_S64x512_S_d0_1 : S64x512.ReducesTo [0, 1] S_
  reducesTo_S2048x2048_S_d0_1 : S2048x2048.ReducesTo [0, 1] S_
  bcast_S1x1_S2048x2048_0_1 : S1x1.BroadcastsInDim S2048x2048 (![0, 1] : Fin 2 → Fin S2048x2048.rank)
  bcast_S_S2048x2048 : S_.BroadcastsInDim S2048x2048 (![] : Fin 0 → Fin S2048x2048.rank)
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  broadcasts_S1x512_S512x512 : S1x512.Broadcasts S512x512
  reduces_S512x512_S512 : S512x512.Reduces [1] S512
  shapeCasts_S512_S512x1 : S512.ShapeCasts S512x1
  reduces_S512x1_S1 : S512x1.Reduces [0] S1
  reducesTo_S256x512_S_d0_1 : S256x512.ReducesTo [0, 1] S_
  reducesTo_S512x2048_S_d0_1 : S512x2048.ReducesTo [0, 1] S_
  bcast_S1x1_S512x2048_0_1 : S1x1.BroadcastsInDim S512x2048 (![0, 1] : Fin 2 → Fin S512x2048.rank)
  bcast_S_S512x2048 : S_.BroadcastsInDim S512x2048 (![] : Fin 0 → Fin S512x2048.rank)
  shapeCasts_S512_S1x512 : S512.ShapeCasts S1x512
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  broadcasts_S1x512_S256x512 : S1x512.Broadcasts S256x512
  inb_S256x512_S256x512_0_0 : ∀ a, (![0, 0] : Fin 2 → Nat) a + S256x512.size a ≤ S256x512.size a
  h_S256x512 : 0 < S256x512.numel
  reduces_S256x512_S256 : S256x512.Reduces [1] S256
  shapeCasts_S256_S256x1 : S256.ShapeCasts S256x1
  reduces_S256x1_S1 : S256x1.Reduces [0] S1
  dot_S2048x512_S512x512_S2048x512_1_1_0_0_n_n_wf : DotDims.WF S2048x512 S512x512 S2048x512 [1] [1] [0] [0] [] []
  dot_S512x2048_S512x2048_S512x512_1_1_0_0_n_n_wf : DotDims.WF S512x2048 S512x2048 S512x512 [1] [1] [0] [0] [] []
  dot_S256x2048_S512x2048_S256x512_1_1_0_0_n_n_wf : DotDims.WF S256x2048 S512x2048 S256x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S16384x512.size a
  hwx0_0 : ∀ i : grid0.Coords, EltTy.bits .f32 = 32 ∨ (Rect.block (s := S16384x512) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S2048x512.size a
  hwx0_1 : ∀ i : grid0.Coords, EltTy.bits .bf16 = 32 ∨ (Rect.block (s := S2048x512) S512x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x2048.size a
  hwx0_2 : ∀ i : grid0.Coords, EltTy.bits .f32 = 32 ∨ (Rect.block (s := S1x2048) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1.size a ≤ S1x1.size a
  hwx0_3 : ∀ i : grid0.Coords, EltTy.bits .f32 = 32 ∨ (Rect.block (s := S1x1) S1x1.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1.size a ≤ S1x1.size a
  hwx0_4 : ∀ i : grid0.Coords, EltTy.bits .f32 = 32 ∨ (Rect.block (s := S1x1) S1x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x512.size a ≤ S16384x2048.size a
  hwx0_5 : ∀ i : grid0.Coords, EltTy.bits .f32 = 32 ∨ (Rect.block (s := S16384x2048) S2048x512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S8x128.size a ≤ S64x512.size a
  hwx0_6 : ∀ i : grid0.Coords, EltTy.bits .f32 = 32 ∨ (Rect.block (s := S64x512) S8x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S16384x2048.size a
  hwx1_0 : ∀ i : grid1.Coords, EltTy.bits .f32 = 32 ∨ (Rect.block (s := S16384x2048) S512x2048.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x2048.size a ≤ S2048x2048.size a
  hwx1_1 : ∀ i : grid1.Coords, EltTy.bits .bf16 = 32 ∨ (Rect.block (s := S2048x2048) S512x2048.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x2048.size a
  hwx1_2 : ∀ i : grid1.Coords, EltTy.bits .f32 = 32 ∨ (Rect.block (s := S1x2048) S1x512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1.size a ≤ S1x1.size a
  hwx1_4 : ∀ i : grid1.Coords, EltTy.bits .f32 = 32 ∨ (Rect.block (s := S1x1) S1x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512x512.size a ≤ S16384x2048.size a
  hwx1_5 : ∀ i : grid1.Coords, EltTy.bits .f32 = 32 ∨ (Rect.block (s := S16384x2048) S512x512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S8x128.size a ≤ S256x512.size a
  hwx1_6 : ∀ i : grid1.Coords, EltTy.bits .f32 = 32 ∨ (Rect.block (s := S256x512) S8x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x2048.size a ≤ S16384x2048.size a
  hwx2_0 : ∀ i : grid2.Coords, EltTy.bits .f32 = 32 ∨ (Rect.block (s := S16384x2048) S256x2048.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S512x2048.size a ≤ S512x2048.size a
  hwx2_1 : ∀ i : grid2.Coords, EltTy.bits .bf16 = 32 ∨ (Rect.block (s := S512x2048) S512x2048.size (cc2_transform_1 i) (hinb2_1 i)).WholeWords (EltTy.packing .bf16)
  hstage2_2 : ∀ j, (stage2_2 j).IsWhole
  nbuf2_2 : grid2.bufCount reads2_2 false = 1
  hreads2_2 : ∀ i i' : grid2.Coords, (∀ a, reads2_2 a = true → i a = i' a) → cc2_transform_2 i = cc2_transform_2 i'
  hinb2_2 : ∀ (i : grid2.Coords) a, (cc2_transform_2 i a + 1) * S1x512.size a ≤ S1x512.size a
  hwx2_2 : ∀ i : grid2.Coords, EltTy.bits .f32 = 32 ∨ (Rect.block (s := S1x512) S1x512.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x1.size a ≤ S1x1.size a
  hwx2_3 : ∀ i : grid2.Coords, EltTy.bits .f32 = 32 ∨ (Rect.block (s := S1x1) S1x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x1.size a ≤ S1x1.size a
  hwx2_4 : ∀ i : grid2.Coords, EltTy.bits .f32 = 32 ∨ (Rect.block (s := S1x1) S1x1.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S256x512.size a ≤ S16384x512.size a
  hwx2_5 : ∀ i : grid2.Coords, EltTy.bits .f32 = 32 ∨ (Rect.block (s := S16384x512) S256x512.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S8x128.size a ≤ S512x128.size a
  hwx2_6 : ∀ i : grid2.Coords, EltTy.bits .f32 = 32 ∨ (Rect.block (s := S512x128) S8x128.size (cc2_transform_6 i) (hinb2_6 i)).WholeWords (EltTy.packing .f32)

variable [Facts₀]

def dot_S2048x512_S512x512_S2048x512_1_1_0_0_n_n : DotDims S2048x512 S512x512 S2048x512 where
  lhsContracting := [1]
  rhsContracting := [1]
  lhsNonContracting := [0]
  rhsNonContracting := [0]
  lhsBatch := []
  rhsBatch := []
  wf := dot_S2048x512_S512x512_S2048x512_1_1_0_0_n_n_wf
def dot_S512x2048_S512x2048_S512x512_1_1_0_0_n_n : DotDims S512x2048 S512x2048 S512x512 where
  lhsContracting := [1]
  rhsContracting := [1]
  lhsNonContracting := [0]
  rhsNonContracting := [0]
  lhsBatch := []
  rhsBatch := []
  wf := dot_S512x2048_S512x2048_S512x512_1_1_0_0_n_n_wf
def dot_S256x2048_S512x2048_S256x512_1_1_0_0_n_n : DotDims S256x2048 S512x2048 S256x512 where
  lhsContracting := [1]
  rhsContracting := [1]
  lhsNonContracting := [0]
  rhsNonContracting := [0]
  lhsBatch := []
  rhsBatch := []
  wf := dot_S256x2048_S512x2048_S256x512_1_1_0_0_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v14) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v16_0) S2048x512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v16_1) S8x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v16_0) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v30) S512x2048.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v31) S1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v20) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S1x1.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v32_0) S512x512.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v32_1) S8x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v32_0) S256x2048.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v46) S512x2048.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v47) S1x512.size cc2_transform_2 reads2_2 false false 1 stage2_2 sem2_2
    hrank2 hreads2_2 hinb2_2 nbuf2_2 (Memref.isWhole_whole _) hwx2_2 hstage2_2

abbrev win2_3 : Pipeline.Window sig grid2 :=
  Pipeline.Window.ofSpec (Memref.whole main_v36) S1x1.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v41) S1x1.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v48_0) S256x512.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v48_1) S8x128.size cc2_transform_6 reads2_6 true false 2 stage2_6 sem2_6
    hrank2 hreads2_6 hinb2_6 nbuf2_6 (Memref.isWhole_whole _) hwx2_6 hstage2_6

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== ReferenceIdeal.lean ====
abbrev S16384x512 : Shape := ⟨2, ![16384, 512]⟩
abbrev S2048x512 : Shape := ⟨2, ![2048, 512]⟩
abbrev S2048 : Shape := ⟨1, ![2048]⟩
abbrev S2048x2048 : Shape := ⟨2, ![2048, 2048]⟩
abbrev S512x2048 : Shape := ⟨2, ![512, 2048]⟩
abbrev S512 : Shape := ⟨1, ![512]⟩
abbrev S_ : Shape := ⟨0, ![]⟩
abbrev S16384x2048 : Shape := ⟨2, ![16384, 2048]⟩
abbrev S1x2048 : Shape := ⟨2, ![1, 2048]⟩
abbrev S1x512 : Shape := ⟨2, ![1, 512]⟩

abbrev nBuf : Space → Nat
  | .hbm => 151
  | .vmem => 0
  | .smem => 0
  | _ => 0

abbrev hbmTy0_0 (i : Nat) : BufTy := match i % 128 with
  | 0 => ⟨S16384x512, .f32⟩
  | 1 => ⟨S2048x512, .f32⟩
  | 2 => ⟨S2048, .f32⟩
  | 3 => ⟨S2048x2048, .f32⟩
  | 4 => ⟨S2048, .f32⟩
  | 5 => ⟨S512x2048, .f32⟩
  | 6 => ⟨S512, .f32⟩
  | 7 => ⟨S16384x512, .f32⟩
  | 8 => ⟨S_, .f32⟩
  | 9 => ⟨S_, .f32⟩
  | 10 => ⟨S_, .f32⟩
  | 11 => ⟨S_, .f32⟩
  | 12 => ⟨S_, .f32⟩
  | 13 => ⟨S_, .f32⟩
  | 14 => ⟨S16384x512, .f32⟩
  | 15 => ⟨S16384x512, .f32⟩
  | 16 => ⟨S16384x512, .f32⟩
  | 17 => ⟨S_, .f32⟩
  | 18 => ⟨S_, .f32⟩
  | 19 => ⟨S_, .f32⟩
  | 20 => ⟨S16384x512, .f32⟩
  | 21 => ⟨S16384x512, .f32⟩
  | 22 => ⟨S_, .f32⟩
  | 23 => ⟨S16384x512, .f32⟩
  | 24 => ⟨S16384x512, .f32⟩
  | 25 => ⟨S16384x512, .f32⟩
  | 26 => ⟨S16384x512, .f32⟩
  | 27 => ⟨S16384x512, .f32⟩
  | 28 => ⟨S16384x512, .f32⟩
  | 29 => ⟨S2048x512, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S2048x512, .f32⟩
  | 37 => ⟨S2048x512, .f32⟩
  | 38 => ⟨S2048x512, .f32⟩
  | 39 => ⟨S_, .f32⟩
  | 40 => ⟨S_, .f32⟩
  | 41 => ⟨S_, .f32⟩
  | 42 => ⟨S2048x512, .f32⟩
  | 43 => ⟨S2048x512, .f32⟩
  | 44 => ⟨S_, .f32⟩
  | 45 => ⟨S2048x512, .f32⟩
  | 46 => ⟨S2048x512, .f32⟩
  | 47 => ⟨S2048x512, .f32⟩
  | 48 => ⟨S2048x512, .f32⟩
  | 49 => ⟨S2048x512, .f32⟩
  | 50 => ⟨S2048x512, .f32⟩
  | 51 => ⟨S16384x2048, .f32⟩
  | 52 => ⟨S1x2048, .f32⟩
  | 53 => ⟨S16384x2048, .f32⟩
  | 54 => ⟨S16384x2048, .f32⟩
  | 55 => ⟨S16384x2048, .f32⟩
  | 56 => ⟨S_, .f32⟩
  | 57 => ⟨S_, .f32⟩
  | 58 => ⟨S_, .f32⟩
  | 59 => ⟨S_, .f32⟩
  | 60 => ⟨S_, .f32⟩
  | 61 => ⟨S_, .f32⟩
  | 62 => ⟨S16384x2048, .f32⟩
  | 63 => ⟨S16384x2048, .f32⟩
  | 64 => ⟨S16384x2048, .f32⟩
  | 65 => ⟨S_, .f32⟩
  | 66 => ⟨S_, .f32⟩
  | 67 => ⟨S_, .f32⟩
  | 68 => ⟨S16384x2048, .f32⟩
  | 69 => ⟨S16384x2048, .f32⟩
  | 70 => ⟨S_, .f32⟩
  | 71 => ⟨S16384x2048, .f32⟩
  | 72 => ⟨S16384x2048, .f32⟩
  | 73 => ⟨S16384x2048, .f32⟩
  | 74 => ⟨S16384x2048, .f32⟩
  | 75 => ⟨S16384x2048, .f32⟩
  | 76 => ⟨S16384x2048, .f32⟩
  | 77 => ⟨S2048x2048, .f32⟩
  | 78 => ⟨S_, .f32⟩
  | 79 => ⟨S_, .f32⟩
  | 80 => ⟨S_, .f32⟩
  | 81 => ⟨S_, .f32⟩
  | 82 => ⟨S_, .f32⟩
  | 83 => ⟨S_, .f32⟩
  | 84 => ⟨S2048x2048, .f32⟩
  | 85 => ⟨S2048x2048, .f32⟩
  | 86 => ⟨S2048x2048, .f32⟩
  | 87 => ⟨S_, .f32⟩
  | 88 => ⟨S_, .f32⟩
  | 89 => ⟨S_, .f32⟩
  | 90 => ⟨S2048x2048, .f32⟩
  | 91 => ⟨S2048x2048, .f32⟩
  | 92 => ⟨S_, .f32⟩
  | 93 => ⟨S2048x2048, .f32⟩
  | 94 => ⟨S2048x2048, .f32⟩
  | 95 => ⟨S2048x2048, .f32⟩
  | 96 => ⟨S2048x2048, .f32⟩
  | 97 => ⟨S2048x2048, .f32⟩
  | 98 => ⟨S2048x2048, .f32⟩
  | 99 => ⟨S16384x2048, .f32⟩
  | 100 => ⟨S1x2048, .f32⟩
  | 101 => ⟨S16384x2048, .f32⟩
  | 102 => ⟨S16384x2048, .f32⟩
  | 103 => ⟨S16384x2048, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S16384x2048, .f32⟩
  | 111 => ⟨S16384x2048, .f32⟩
  | 112 => ⟨S16384x2048, .f32⟩
  | 113 => ⟨S_, .f32⟩
  | 114 => ⟨S_, .f32⟩
  | 115 => ⟨S_, .f32⟩
  | 116 => ⟨S16384x2048, .f32⟩
  | 117 => ⟨S16384x2048, .f32⟩
  | 118 => ⟨S_, .f32⟩
  | 119 => ⟨S16384x2048, .f32⟩
  | 120 => ⟨S16384x2048, .f32⟩
  | 121 => ⟨S16384x2048, .f32⟩
  | 122 => ⟨S16384x2048, .f32⟩
  | 123 => ⟨S16384x2048, .f32⟩
  | 124 => ⟨S16384x2048, .f32⟩
  | 125 => ⟨S512x2048, .f32⟩
  | 126 => ⟨S_, .f32⟩
  | 127 => ⟨S_, .f32⟩
  | _ => ⟨S16384x512, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S512x2048, .f32⟩
  | 5 => ⟨S512x2048, .f32⟩
  | 6 => ⟨S512x2048, .f32⟩
  | 7 => ⟨S_, .f32⟩
  | 8 => ⟨S_, .f32⟩
  | 9 => ⟨S_, .f32⟩
  | 10 => ⟨S512x2048, .f32⟩
  | 11 => ⟨S512x2048, .f32⟩
  | 12 => ⟨S_, .f32⟩
  | 13 => ⟨S512x2048, .f32⟩
  | 14 => ⟨S512x2048, .f32⟩
  | 15 => ⟨S512x2048, .f32⟩
  | 16 => ⟨S512x2048, .f32⟩
  | 17 => ⟨S512x2048, .f32⟩
  | 18 => ⟨S512x2048, .f32⟩
  | 19 => ⟨S16384x512, .f32⟩
  | 20 => ⟨S1x512, .f32⟩
  | 21 => ⟨S16384x512, .f32⟩
  | 22 => ⟨S16384x512, .f32⟩
  | _ => ⟨S16384x512, .f32⟩

abbrev hbmTy (i : Nat) : BufTy := match i / 128 with
  | 0 => hbmTy0_0 i
  | 1 => hbmTy0_1 i
  | _ => ⟨S16384x512, .f32⟩

abbrev bufTy : (tb : Table) → Fin (tcTables nBuf tb) → BufTy
  | .hbm, ⟨i, _⟩ => hbmTy i
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_cst_0 : Ref sig .tc := ⟨.hbm, 10, rfl⟩
abbrev main_v2 : Ref sig .tc := ⟨.hbm, 11, rfl⟩
abbrev main_cst_1 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_cst_3 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst_4 : Ref sig .tc := ⟨.hbm, 30, rfl⟩
abbrev main_v13 : Ref sig .tc := ⟨.hbm, 31, rfl⟩
abbrev main_cst_5 : Ref sig .tc := ⟨.hbm, 32, rfl⟩
abbrev main_v14 : Ref sig .tc := ⟨.hbm, 33, rfl⟩
abbrev main_cst_6 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_7 : Ref sig .tc := ⟨.hbm, 39, rfl⟩
abbrev main_cst_8 : Ref sig .tc := ⟨.hbm, 40, rfl⟩
abbrev main_call3_v0 : Ref sig .tc := ⟨.hbm, 41, rfl⟩
abbrev main_call3_v1 : Ref sig .tc := ⟨.hbm, 42, rfl⟩
abbrev main_call3_v2 : Ref sig .tc := ⟨.hbm, 43, rfl⟩
abbrev main_call3_v3 : Ref sig .tc := ⟨.hbm, 44, rfl⟩
abbrev main_call3_v4 : Ref sig .tc := ⟨.hbm, 45, rfl⟩
abbrev main_v19 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_9 : Ref sig .tc := ⟨.hbm, 56, rfl⟩
abbrev main_v29 : Ref sig .tc := ⟨.hbm, 57, rfl⟩
abbrev main_cst_10 : Ref sig .tc := ⟨.hbm, 58, rfl⟩
abbrev main_v30 : Ref sig .tc := ⟨.hbm, 59, rfl⟩
abbrev main_cst_11 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_cst_12 : Ref sig .tc := ⟨.hbm, 65, rfl⟩
abbrev main_cst_13 : Ref sig .tc := ⟨.hbm, 66, rfl⟩
abbrev main_call5_v0 : Ref sig .tc := ⟨.hbm, 67, rfl⟩
abbrev main_call5_v1 : Ref sig .tc := ⟨.hbm, 68, rfl⟩
abbrev main_call5_v2 : Ref sig .tc := ⟨.hbm, 69, rfl⟩
abbrev main_call5_v3 : Ref sig .tc := ⟨.hbm, 70, rfl⟩
abbrev main_call5_v4 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_cst_14 : Ref sig .tc := ⟨.hbm, 78, rfl⟩
abbrev main_v41 : Ref sig .tc := ⟨.hbm, 79, rfl⟩
abbrev main_cst_15 : Ref sig .tc := ⟨.hbm, 80, rfl⟩
abbrev main_v42 : Ref sig .tc := ⟨.hbm, 81, rfl⟩
abbrev main_cst_16 : Ref sig .tc := ⟨.hbm, 82, rfl⟩
abbrev main_v43 : Ref sig .tc := ⟨.hbm, 83, rfl⟩
abbrev main_v44 : Ref sig .tc := ⟨.hbm, 84, rfl⟩
abbrev main_v45 : Ref sig .tc := ⟨.hbm, 85, rfl⟩
abbrev main_v46 : Ref sig .tc := ⟨.hbm, 86, rfl⟩
abbrev main_cst_17 : Ref sig .tc := ⟨.hbm, 87, rfl⟩
abbrev main_cst_18 : Ref sig .tc := ⟨.hbm, 88, rfl⟩
abbrev main_call7_v0 : Ref sig .tc := ⟨.hbm, 89, rfl⟩
abbrev main_call7_v1 : Ref sig .tc := ⟨.hbm, 90, rfl⟩
abbrev main_call7_v2 : Ref sig .tc := ⟨.hbm, 91, rfl⟩
abbrev main_call7_v3 : Ref sig .tc := ⟨.hbm, 92, rfl⟩
abbrev main_call7_v4 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_cst_19 : Ref sig .tc := ⟨.hbm, 104, rfl⟩
abbrev main_v57 : Ref sig .tc := ⟨.hbm, 105, rfl⟩
abbrev main_cst_20 : Ref sig .tc := ⟨.hbm, 106, rfl⟩
abbrev main_v58 : Ref sig .tc := ⟨.hbm, 107, rfl⟩
abbrev main_cst_21 : Ref sig .tc := ⟨.hbm, 108, rfl⟩
abbrev main_v59 : Ref sig .tc := ⟨.hbm, 109, rfl⟩
abbrev main_v60 : Ref sig .tc := ⟨.hbm, 110, rfl⟩
abbrev main_v61 : Ref sig .tc := ⟨.hbm, 111, rfl⟩
abbrev main_v62 : Ref sig .tc := ⟨.hbm, 112, rfl⟩
abbrev main_cst_22 : Ref sig .tc := ⟨.hbm, 113, rfl⟩
abbrev main_cst_23 : Ref sig .tc := ⟨.hbm, 114, rfl⟩
abbrev main_call9_v0 : Ref sig .tc := ⟨.hbm, 115, rfl⟩
abbrev main_call9_v1 : Ref sig .tc := ⟨.hbm, 116, rfl⟩
abbrev main_call9_v2 : Ref sig .tc := ⟨.hbm, 117, rfl⟩
abbrev main_call9_v3 : Ref sig .tc := ⟨.hbm, 118, rfl⟩
abbrev main_call9_v4 : Ref sig .tc := ⟨.hbm, 119, rfl⟩
abbrev main_v63 : Ref sig .tc := ⟨.hbm, 120, rfl⟩
abbrev main_v64 : Ref sig .tc := ⟨.hbm, 121, rfl⟩
abbrev main_v65 : Ref sig .tc := ⟨.hbm, 122, rfl⟩
abbrev main_v66 : Ref sig .tc := ⟨.hbm, 123, rfl⟩
abbrev main_v67 : Ref sig .tc := ⟨.hbm, 124, rfl⟩
abbrev main_v68 : Ref sig .tc := ⟨.hbm, 125, rfl⟩
abbrev main_cst_24 : Ref sig .tc := ⟨.hbm, 126, rfl⟩
abbrev main_v69 : Ref sig .tc := ⟨.hbm, 127, rfl⟩
abbrev main_cst_25 : Ref sig .tc := ⟨.hbm, 128, rfl⟩
abbrev main_v70 : Ref sig .tc := ⟨.hbm, 129, rfl⟩
abbrev main_cst_26 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_cst_27 : Ref sig .tc := ⟨.hbm, 135, rfl⟩
abbrev main_cst_28 : Ref sig .tc := ⟨.hbm, 136, rfl⟩
abbrev main_call11_v0 : Ref sig .tc := ⟨.hbm, 137, rfl⟩
abbrev main_call11_v1 : Ref sig .tc := ⟨.hbm, 138, rfl⟩
abbrev main_call11_v2 : Ref sig .tc := ⟨.hbm, 139, rfl⟩
abbrev main_call11_v3 : Ref sig .tc := ⟨.hbm, 140, rfl⟩
abbrev main_call11_v4 : Ref sig .tc := ⟨.hbm, 141, rfl⟩
abbrev main_v75 : Ref sig .tc := ⟨.hbm, 142, rfl⟩
abbrev main_v76 : Ref sig .tc := ⟨.hbm, 143, rfl⟩
abbrev main_v77 : Ref sig .tc := ⟨.hbm, 144, rfl⟩
abbrev main_v78 : Ref sig .tc := ⟨.hbm, 145, rfl⟩
abbrev main_v79 : Ref sig .tc := ⟨.hbm, 146, rfl⟩
abbrev main_v80 : Ref sig .tc := ⟨.hbm, 147, rfl⟩
abbrev main_v81 : Ref sig .tc := ⟨.hbm, 148, rfl⟩
abbrev main_v82 : Ref sig .tc := ⟨.hbm, 149, rfl⟩
abbrev main_v83 : Ref sig .tc := ⟨.hbm, 150, rfl⟩

abbrev nD : Nat := 1
abbrev τ : Topo := Topo.v7x

variable {F : FTy → Type} [FloatOps F]

class Facts₀ : Prop where
  reducesTo_S16384x512_S_d0_1 : S16384x512.ReducesTo [0, 1] S_
  h_S_ : 0 < S_.numel
  bcast_S_S16384x512 : S_.BroadcastsInDim S16384x512 (![] : Fin 0 → Fin S16384x512.rank)
  reducesTo_S2048x512_S_d0_1 : S2048x512.ReducesTo [0, 1] S_
  bcast_S_S2048x512 : S_.BroadcastsInDim S2048x512 (![] : Fin 0 → Fin S2048x512.rank)
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  reducesTo_S16384x2048_S_d0_1 : S16384x2048.ReducesTo [0, 1] S_
  bcast_S_S16384x2048 : S_.BroadcastsInDim S16384x2048 (![] : Fin 0 → Fin S16384x2048.rank)
  reducesTo_S2048x2048_S_d0_1 : S2048x2048.ReducesTo [0, 1] S_
  bcast_S_S2048x2048 : S_.BroadcastsInDim S2048x2048 (![] : Fin 0 → Fin S2048x2048.rank)
  reducesTo_S512x2048_S_d0_1 : S512x2048.ReducesTo [0, 1] S_
  bcast_S_S512x2048 : S_.BroadcastsInDim S512x2048 (![] : Fin 0 → Fin S512x2048.rank)
  bcast_S512_S1x512_1 : S512.BroadcastsInDim S1x512 (![1] : Fin 1 → Fin S1x512.rank)
  bcast_S1x512_S16384x512_0_1 : S1x512.BroadcastsInDim S16384x512 (![0, 1] : Fin 2 → Fin S16384x512.rank)
  dot_S16384x512_S2048x512_S16384x2048_1_1_0_0_n_n_wf : DotDims.WF S16384x512 S2048x512 S16384x2048 [1] [1] [0] [0] [] []
  dot_S16384x2048_S2048x2048_S16384x2048_1_1_0_0_n_n_wf : DotDims.WF S16384x2048 S2048x2048 S16384x2048 [1] [1] [0] [0] [] []
  dot_S16384x2048_S512x2048_S16384x512_1_1_0_0_n_n_wf : DotDims.WF S16384x2048 S512x2048 S16384x512 [1] [1] [0] [0] [] []

variable [Facts₀]

def dot_S16384x512_S2048x512_S16384x2048_1_1_0_0_n_n : DotDims S16384x512 S2048x512 S16384x2048 where
  lhsContracting := [1]
  rhsContracting := [1]
  lhsNonContracting := [0]
  rhsNonContracting := [0]
  lhsBatch := []
  rhsBatch := []
  wf := dot_S16384x512_S2048x512_S16384x2048_1_1_0_0_n_n_wf
def dot_S16384x2048_S2048x2048_S16384x2048_1_1_0_0_n_n : DotDims S16384x2048 S2048x2048 S16384x2048 where
  lhsContracting := [1]
  rhsContracting := [1]
  lhsNonContracting := [0]
  rhsNonContracting := [0]
  lhsBatch := []
  rhsBatch := []
  wf := dot_S16384x2048_S2048x2048_S16384x2048_1_1_0_0_n_n_wf
def dot_S16384x2048_S512x2048_S16384x512_1_1_0_0_n_n : DotDims S16384x2048 S512x2048 S16384x512 where
  lhsContracting := [1]
  rhsContracting := [1]
  lhsNonContracting := [0]
  rhsNonContracting := [0]
  lhsBatch := []
  rhsBatch := []
  wf := dot_S16384x2048_S512x2048_S16384x512_1_1_0_0_n_n_wf

class Facts : Prop extends Facts₀ where

variable [Facts]
-- ==== Proof.KerRun.lean ====
/-
  The idealized kernel program's run, with its result named.

  @main is three kernel regions among stretches of host operations. Every weakly fair execution from a memory with zero
  counters terminates without a fault; in the final state the result array holds what the fold of the program's
  segments over the launch memory leaves in it, and the seven argument arrays are as launched. The contents at each
  segment boundary are the fold `W0 … W18`: a stretch of host operations applies them to the contents before it, a
  region leaves in each of its arrays what its grid points' write-backs leave and every other buffer as it was.
-/
import proofs.«109104_j3513283248696_2_alg».proof.Proof.Gen.KernelIdeal.Frame

set_option maxRecDepth 16384

noncomputable section

namespace Cert.KernelIdeal.KV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the result array at the last boundary's contents, the arguments as launched. -/
theorem run_out : θ_run defs (onTc (τ := τ) (main (F := F))) ⟨m, fun _ => 0, ρ⟩ (fun r => ∀ c : Dev nD,
      r.2.mem ((c.tc : Thread nD τ).loc main_v48_0) = W18 m ρ c (Proc.devRef .tc main_v48_0)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W18 m ρ c b)
    (hfin := fun c s' => by
      iintro ⟨⟨Hh, -⟩, HSI⟩
      unfold StableHlo.held
      imodintro
      iapply (pointsTo_read_all (Pipeline.ucRefs τ sig) (fun b => (((c : Thread nD τ)).1, b)) (W18 m ρ c) s')
      isplitl [Hh] <;> iassumption)
    (hQ := fun s h c =>
      ⟨h c _ (mem_uc main_v48_0 (by decide)),
       (h c _ (mem_uc main_arg0 (by decide))).trans (W18_main_arg0 m ρ c),
       (h c _ (mem_uc main_arg1 (by decide))).trans (W18_main_arg1 m ρ c),
       (h c _ (mem_uc main_arg2 (by decide))).trans (W18_main_arg2 m ρ c),
       (h c _ (mem_uc main_arg3 (by decide))).trans (W18_main_arg3 m ρ c),
       (h c _ (mem_uc main_arg4 (by decide))).trans (W18_main_arg4 m ρ c),
       (h c _ (mem_uc main_arg5 (by decide))).trans (W18_main_arg5 m ρ c),
       (h c _ (mem_uc main_arg6 (by decide))).trans (W18_main_arg6 m ρ c)⟩)

end Cert.KernelIdeal.KV

end
-- ==== Proof.LibDotRows.lean ====
/-
  The host's contraction of two arrays on their last axes, entry by entry.

  For an `M × K` array `l` and an `N × K` array `r`, the contraction whose dimension numbers name the LAST axis of
  each operand as the contracted one, the first axis of each as the free one, and no batch axis, is the `M × N` array
  of the inner products of the rows: entry `(p, q)` is `∑ k, l (p, k) · r (q, k)`. At the ideal values the host's
  contraction is a plain sum over the contraction's index set of the products of the two operands' entries; that index
  set has one axis of extent `K`, so the sum is re-indexed by `k : Fin K`, and at the `k`-th contraction index the left
  operand is read at `(p, k)` and the right operand at `(q, k)`.
-/
import Idealize.ShloMosaic.Lib.ValueIdx
import Idealize.ShloMosaic.PureOps.Ideal.Laws

noncomputable section

open scoped BigOperators

namespace Cert.Lib.DotRows

open Idealize.ShloMosaic Idealize.ShloMosaic.ValueIdx

variable {M K N : Nat}

/-- The left operand's index at result entry `(p, q)` and contraction coordinate `k` is `(p, k)`. -/
theorem lhsIdx_rows (w : DotDims.WF ⟨2, ![M, K]⟩ ⟨2, ![N, K]⟩ ⟨2, ![M, N]⟩ [1] [1] [0] [0] [] [])
    (p : Fin M) (q : Fin N) (k : Fin K) :
    (⟨[1], [1], [0], [0], [], [], w⟩ : DotDims ⟨2, ![M, K]⟩ ⟨2, ![N, K]⟩ ⟨2, ![M, N]⟩).lhsIdx (ix2 p q)
      ((contrEquiv1 _ K rfl rfl).symm k) = ix2 p k := by
  have ck := contrEquiv1_symm_val (⟨[1], [1], [0], [0], [], [], w⟩ : DotDims ⟨2, ![M, K]⟩ ⟨2, ![N, K]⟩ ⟨2, ![M, N]⟩) K rfl rfl k
  funext ax; apply Fin.ext
  match ax with
  | ⟨0, _⟩ => simp [DotDims.lhsIdx]; rfl
  | ⟨1, _⟩ => simp [DotDims.lhsIdx]; exact ck

/-- The right operand's index at result entry `(p, q)` and contraction coordinate `k` is `(q, k)`. -/
theorem rhsIdx_rows (w : DotDims.WF ⟨2, ![M, K]⟩ ⟨2, ![N, K]⟩ ⟨2, ![M, N]⟩ [1] [1] [0] [0] [] [])
    (p : Fin M) (q : Fin N) (k : Fin K) :
    (⟨[1], [1], [0], [0], [], [], w⟩ : DotDims ⟨2, ![M, K]⟩ ⟨2, ![N, K]⟩ ⟨2, ![M, N]⟩).rhsIdx (ix2 p q)
      ((contrEquiv1 _ K rfl rfl).symm k) = ix2 q k := by
  have ck := contrEquiv1_symm_val (⟨[1], [1], [0], [0], [], [], w⟩ : DotDims ⟨2, ![M, K]⟩ ⟨2, ![N, K]⟩ ⟨2, ![M, N]⟩) K rfl rfl k
  funext ax; apply Fin.ext
  match ax with
  | ⟨0, _⟩ => simp [DotDims.rhsIdx]; rfl
  | ⟨1, _⟩ => simp [DotDims.rhsIdx]; exact ck

/-- The host's contraction of an `M × K` array with an `N × K` array, each on its last axis (contracting axes `[1]` and
    `[1]`, free axes `[0]` and `[0]`, no batch axis; any proof `w` that these dimension numbers are well formed), read at
    entry `(p, q)` at the ideal values: the inner product of row `p` of the left operand with row `q` of the right one. -/
theorem dotGeneral_rows_apply {φ₁ φ₂ : FTy}
    (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂)
    (p : Fin M) (q : Fin N) :
    Host.dotGeneral (⟨[1], [1], [0], [0], [], [], w⟩ : DotDims ⟨2, ![M, K]⟩ ⟨2, ![N, K]⟩ ⟨2, ![M, N]⟩) prec l r (ix2 p q)
      = ∑ k : Fin K, l (ix2 p k) * r (ix2 q k) := by
  show FloatOps.dotGeneral _ prec _ l r (ix2 p q) = _
  rw [Ideal.dotGeneral_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun k _ => ?_
  rw [lhsIdx_rows w p q k, rhsIdx_rows w p q k]

/-- The same for the library's record of these dimension numbers. -/
theorem dotGeneral_transposedRhs_apply {φ₁ φ₂ : FTy} (prec : Option ContractPrecision)
    (l : FVec Ideal ⟨2, ![M, K]⟩ φ₁) (r : FVec Ideal ⟨2, ![N, K]⟩ φ₂) (p : Fin M) (q : Fin N) :
    Host.dotGeneral (DotDims.transposedRhs M K N) prec l r (ix2 p q) = ∑ k : Fin K, l (ix2 p k) * r (ix2 q k) :=
  dotGeneral_rows_apply (DotDims.transposedRhs M K N).wf prec l r p q

end Cert.Lib.DotRows

end
-- ==== Proof.LibBlockOps.lean ====
/-
  Rank-two blocks read at an entry, at the ideal values.

  * The product into zero of an `M × K` array with an `N × K` array, each contracted on its last axis: entry `(p, q)` is
    the inner product of row `p` of the first with row `q` of the second.
  * The same product plus a `1 × N` bias row repeated down the rows: a linear layer whose weight is stored output-major.
  * A reduction along the lanes of an `M × N` array: row `p`'s maximum is the fold of `max` over its `N` entries, its
    sum their sum.
  * `M` row values set up as an `M × 1` column and repeated along `N` lanes: entry `(p, q)` is row `p`'s value.
-/
import Idealize.ShloMosaic.Lib.ValueIdx
import Idealize.ShloMosaic.Lib.ValueLayout
import Idealize.ShloMosaic.Lib.Pipeline.Value
import Idealize.ShloMosaic.PureOps.Ideal.Laws
import proofs.«109104_j3513283248696_2_alg».proof.Proof.LibDotRows

noncomputable section

open scoped BigOperators

namespace Cert.Lib.BlockOps

open Idealize.ShloMosaic Idealize.ShloMosaic.ValueIdx

variable {M K N : Nat}

/-- The product of two arrays given by rows, at entry `(p, q)`: the inner product of the two rows. -/
theorem matmul_rows_apply {φ₁ φ₂ : FTy} (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂) (p : Fin M) (q : Fin N) :
    FloatOps.matmul (⟨[1], [1], [0], [0], [], [], w⟩ : DotDims ⟨2, ![M, K]⟩ ⟨2, ![N, K]⟩ ⟨2, ![M, N]⟩) prec l r
        (constant ⟨2, ![M, N]⟩ .f32 0x00000000#32) (ix2 p q)
      = ∑ k : Fin K, l (ix2 p k) * r (ix2 q k) := by
  rw [Ideal.matmul_constant_zero_apply,
    ← Equiv.sum_comp (contrEquiv1 (⟨[1], [1], [0], [0], [], [], w⟩ : DotDims ⟨2, ![M, K]⟩ ⟨2, ![N, K]⟩ ⟨2, ![M, N]⟩) K rfl rfl).symm]
  refine Finset.sum_congr rfl fun k _ => ?_
  rw [Cert.Lib.DotRows.lhsIdx_rows w p q k, Cert.Lib.DotRows.rhsIdx_rows w p q k]

/-- A linear layer with the weight stored output-major, at entry `(p, q)`: `∑ k, l (p, k) · r (q, k) + b q`. -/
theorem linRows_apply {φ₁ φ₂ : FTy} (w : DotDims.WF ⟨2, ![M, K]⟩ ⟨2, ![N, K]⟩ ⟨2, ![M, N]⟩ [1] [1] [0] [0] [] [])
    (prec : Option ContractPrecision) (l : FVec Ideal ⟨2, ![M, K]⟩ φ₁) (r : FVec Ideal ⟨2, ![N, K]⟩ φ₂)
    (b : FVec Ideal ⟨2, ![1, N]⟩ .f32) (hc : (⟨2, ![1, N]⟩ : Shape).ShapeCasts ⟨2, ![1, N]⟩)
    (hb : (⟨2, ![1, N]⟩ : Shape).Broadcasts ⟨2, ![M, N]⟩) (p : Fin M) (q : Fin N) :
    addf (FloatOps.matmul (⟨[1], [1], [0], [0], [], [], w⟩ : DotDims ⟨2, ![M, K]⟩ ⟨2, ![N, K]⟩ ⟨2, ![M, N]⟩) prec l r
          (constant ⟨2, ![M, N]⟩ .f32 0x00000000#32))
        (broadcastTo ⟨2, ![M, N]⟩ (shapeCast ⟨2, ![1, N]⟩ b hc) hb) (ix2 p q)
      = (∑ k : Fin K, l (ix2 p k) * r (ix2 q k)) + b (ix2 (0 : Fin 1) q) := by
  rw [addf_apply, matmul_rows_apply, shapeCast_self, broadcastTo_1b_ab_apply]

/-- Over row `p`, the index with `k` put on the lane axis is `(p, k)`. -/
theorem lift_row (h : (⟨2, ![M, N]⟩ : Shape).Reduces [1] ⟨1, ![M]⟩) (p : Fin M) (k : Fin N) :
    h.lift (ix1 p) k = ix2 p k := by
  funext a
  apply Fin.ext
  match a with
  | ⟨0, _⟩ => rfl
  | ⟨1, _⟩ => rfl

/-- A row's maximum: the fold of `max`, from the seed's value, over the row's entries. -/
theorem rowMax_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.maximumf.neutral φ hφ) (p : Fin M) :
    multiReduction .maximumf [1] ⟨1, ![M]⟩ src acc h hφ hacc (ix1 p)
      = (Finset.univ : Finset (Fin N)).fold max (FloatOps.ofBits φ acc) (fun k => src (ix2 p k)) := by
  rw [Ideal.multiReduction_maximumf_single]
  exact congrArg (fun f => (Finset.univ : Finset (Fin N)).fold max (FloatOps.ofBits φ acc) f)
    (funext fun k => congrArg src (lift_row h p k))

/-- A row's sum. -/
theorem rowSum_apply {φ : FTy} (src : FVec Ideal ⟨2, ![M, N]⟩ φ) (acc : BitVec φ.bits)
    (h : (⟨2, ![M, N]⟩ : Shape).Reduces [1] ⟨1, ![M]⟩) (hφ : FKind.Formats φ) (hacc : acc = FKind.add.neutral φ hφ) (p : Fin M) :
    multiReduction .add [1] ⟨1, ![M]⟩ src acc h hφ hacc (ix1 p) = ∑ k : Fin N, src (ix2 p k) := by
  rw [Ideal.multiReduction_add_single]
  exact Finset.sum_congr rfl fun k _ => congrArg src (lift_row h p k)

/-- `M` row values as an `M × 1` column repeated along `N` lanes: at `(p, q)`, row `p`'s value. -/
theorem colSpread_apply {α : Type} (v : (⟨1, ![M]⟩ : Shape).Idx → α) (hc : (⟨1, ![M]⟩ : Shape).ShapeCasts ⟨2, ![M, 1]⟩)
    (hb : (⟨2, ![M, 1]⟩ : Shape).Broadcasts ⟨2, ![M, N]⟩) (p : Fin M) (q : Fin N) :
    broadcastTo ⟨2, ![M, N]⟩ (shapeCast ⟨2, ![M, 1]⟩ v hc) hb (ix2 p q) = v (ix1 p) := by
  refine (broadcastTo_apply _ hb (ix2 p q) (ix2 p (0 : Fin 1)) (fun a => ?_)).trans ?_
  · match a with
    | ⟨0, _⟩ =>
      show p.val = if M = 1 then 0 else p.val
      split
      · have := p.isLt; omega
      · rfl
    | ⟨1, _⟩ => exact (if_pos rfl).symm
  · refine shapeCast_apply v hc (ix2 p (0 : Fin 1)) (ix1 p) ?_
    rw [Shape.rowMajor_val_one, Shape.rowMajor_val_two]
    show p.val = p.val * 1 + 0
    omega

end Cert.Lib.BlockOps

end
-- ==== Proof.LibColMax.lean ====
/-
  General facts about maxima taken down the rows of an array, and a vector re-read as a matrix, at an index.

  * The maximum down the rows of an `M × N` array gives, at column `q`, the greatest of the column's entries and the
    starting value: the fold of `max` from the starting value over the `M` row coordinates (`colMax_apply`, and
    `colMax_f32` for a printed f32 reduction from the word of −∞).
  * A vector of `n = a·b` entries re-read as an `a × b` matrix keeps every entry's row-major position: entry `(i, j)`
    of the matrix is entry `i·b + j` of the vector (`vecSplit_apply`).
  * The host's reduction of an `A × B × C × D` array over its second axis with a commutative and associative operation
    gives, at `(a, c, d)`, the fold of the operation from the initial value over the `B` entries `(a, k, c, d)`
    (`hostFoldSecond_apply`).
-/
import Idealize.ShloMosaic.Lib.ValueIdx
import Idealize.ShloMosaic.Lib.Pipeline.Value
import Idealize.ShloMosaic.PureOps.Ideal.Laws

noncomputable section

open scoped BigOperators

namespace Cert.Lib.ColMax

open Idealize.ShloMosaic Idealize.ShloMosaic.ValueIdx

variable {M N : Nat}

/-- The column index `q` with row `k` put back is `(k, q)`. -/
theorem lift_row (h : (⟨2, ![M, N]⟩ : Shape).Reduces [0] ⟨1, ![N]⟩) (q : Fin N) (k : Fin M) :
    h.lift (ix1 q) k = ix2 k q := by
  funext a
  apply Fin.ext
  match a with
  | ⟨0, _⟩ => rfl
  | ⟨1, _⟩ => rfl

/-- The maximum down the rows, at column `q`: the greatest of the column's entries and the starting value. -/
theorem colMax_apply {φ : FTy} (src : FVec Ideal ⟨2, ![M, N]⟩ φ) (acc : BitVec φ.bits)
    (h : (⟨2, ![M, N]⟩ : Shape).Reduces [0] ⟨1, ![N]⟩) (hφ : FKind.Formats φ) (hacc : acc = FKind.maximumf.neutral φ hφ)
    (q : Fin N) :
    multiReduction .maximumf [0] ⟨1, ![N]⟩ src acc h hφ hacc (ix1 q)
      = (Finset.univ : Finset (Fin M)).fold max (Ideal.ofBits φ acc) fun k => src (ix2 k q) := by
  rw [Ideal.multiReduction_maximumf_single]
  have hf : (src ∘ h.lift (ix1 q)) = fun k : Fin M => src (ix2 k q) := funext fun (k : Fin M) => congrArg src (lift_row h q k)
  exact congrArg (fun f => Finset.fold max (Ideal.ofBits φ acc) f (Finset.univ : Finset (Fin M))) hf

/-- The maximum down the rows of an f32 array, from the word of −∞ (the accumulator hypothesis typed as a printed
    reduction carries it). -/
theorem colMax_f32 (src : FVec Ideal ⟨2, ![M, N]⟩ .f32) (h : (⟨2, ![M, N]⟩ : Shape).Reduces [0] ⟨1, ![N]⟩)
    (hφ : FKind.Formats .f32) (hacc : (0xFF800000#32 : BitVec 32) = 0xFF800000#32) (q : Fin N) :
    multiReduction .maximumf [0] ⟨1, ![N]⟩ src 0xFF800000#32 h hφ hacc (ix1 q)
      = (Finset.univ : Finset (Fin M)).fold max (Ideal.ofBits .f32 0xFF800000#32) fun k => src (ix2 k q) :=
  colMax_apply src _ h hφ hacc q

/-- A vector of `n` entries re-read as an `a × b` matrix: entry `(i, j)` is entry `k = i·b + j` of the vector. -/
theorem vecSplit_apply {α : Type} {a b n : ℕ} (v : (⟨1, ![n]⟩ : Shape).Idx → α)
    (h : (⟨1, ![n]⟩ : Shape).ShapeCasts ⟨2, ![a, b]⟩) (i : Fin a) (j : Fin b) (k : Fin n) (hk : k.val = i.val * b + j.val) :
    shapeCast ⟨2, ![a, b]⟩ v h (ix2 i j) = v (ix1 k) :=
  shapeCast_apply v h (ix2 i j) (ix1 k) (by
    rw [Shape.rowMajor_val_one, Shape.rowMajor_val_two]
    exact hk)

/-- With the second coordinate `k` put back, the reduced index `(a, c, d)` is `(a, k, c, d)`. -/
theorem lift_second {A B C D : Nat} (h : (⟨4, ![A, B, C, D]⟩ : Shape).Reduces [1] ⟨3, ![A, C, D]⟩)
    (a : Fin A) (c : Fin C) (d : Fin D) (k : Fin B) :
    h.lift (ix3 a c d) k = ix4 a k c d := by
  funext ax
  apply Fin.ext
  match ax with
  | ⟨0, _⟩ => rfl
  | ⟨1, _⟩ => rfl
  | ⟨2, _⟩ => rfl
  | ⟨3, _⟩ => rfl

/-- The host's reduction over the second axis of a rank-four array, with a commutative and associative operation, at
    `(a, c, d)`: the fold of the operation from the initial value over the entries `(a, k, c, d)`. -/
theorem hostFoldSecond_apply {α : Type} {A B C D : Nat} {u : Shape} (f : α → α → α) [Std.Commutative f] [Std.Associative f]
    (x : (⟨4, ![A, B, C, D]⟩ : Shape).Idx → α) (init : u.Idx → α)
    (h' : (⟨4, ![A, B, C, D]⟩ : Shape).ReducesTo [1] ⟨3, ![A, C, D]⟩) (h : (⟨4, ![A, B, C, D]⟩ : Shape).Reduces [1] ⟨3, ![A, C, D]⟩)
    (hu : 0 < u.numel) (a : Fin A) (c : Fin C) (d : Fin D) :
    Host.reduce f x init h' hu (ix3 a c d)
      = (Finset.univ : Finset (Fin B)).fold f (init (Shape.Idx.first hu)) fun k => x (ix4 a k c d) := by
  rw [Host.reduce_eq_fold_single f x init h' h hu]
  have hf : (x ∘ h.lift (ix3 a c d)) = fun k : Fin B => x (ix4 a k c d) :=
    funext fun (k : Fin B) => congrArg x (lift_second h a c d k)
  exact congrArg (fun g => Finset.fold f (init (Shape.Idx.first hu)) g (Finset.univ : Finset (Fin B))) hf

end Cert.Lib.ColMax

end
-- ==== Proof.LibColumn.lean ====
/-
  General facts about a column of row values, read at an entry.

  * A vector of length `M` viewed as an `M × 1` column reads, at `(p, 0)`, the vector at `p` (`col_apply`).
  * An `M × 1` column repeated along `N` lanes reads, at `(p, q)`, the column at `(p, 0)` (`colBroadcast_apply`).
  * Summing an `M × 1` column down its rows gives, at the one entry, the sum of the column's entries (`colSum_apply`).
-/
import Idealize.ShloMosaic.Lib.ValueIdx
import Idealize.ShloMosaic.Lib.Pipeline.Value
import Idealize.ShloMosaic.PureOps.Ideal.Laws

noncomputable section

open scoped BigOperators

namespace Cert.Lib.Column

open Idealize.ShloMosaic Idealize.ShloMosaic.ValueIdx

variable {α : Type} {M N : Nat}

/-- A vector of length `M` viewed as an `M × 1` column: at `(p, 0)`, the vector at `p`. -/
theorem col_apply (v : (⟨1, ![M]⟩ : Shape).Idx → α) (hc : (⟨1, ![M]⟩ : Shape).ShapeCasts ⟨2, ![M, 1]⟩) (p : Fin M) :
    shapeCast ⟨2, ![M, 1]⟩ v hc (ix2 p (0 : Fin 1)) = v (ix1 p) := by
  refine shapeCast_apply v hc (ix2 p (0 : Fin 1)) (ix1 p) ?_
  rw [Shape.rowMajor_val_one, Shape.rowMajor_val_two]
  show p.val = p.val * 1 + 0
  omega

/-- An `M × 1` column repeated along `N` lanes: at `(p, q)`, the column at `(p, 0)`. -/
theorem colBroadcast_apply (v : (⟨2, ![M, 1]⟩ : Shape).Idx → α) (hb : (⟨2, ![M, 1]⟩ : Shape).Broadcasts ⟨2, ![M, N]⟩)
    (p : Fin M) (q : Fin N) :
    broadcastTo ⟨2, ![M, N]⟩ v hb (ix2 p q) = v (ix2 p (0 : Fin 1)) := by
  refine broadcastTo_apply _ hb (ix2 p q) (ix2 p (0 : Fin 1)) (fun a => ?_)
  match a with
  | ⟨0, _⟩ =>
    show p.val = if M = 1 then 0 else p.val
    split
    · have := p.isLt; omega
    · rfl
  | ⟨1, _⟩ => exact (if_pos rfl).symm

/-- Over the one entry of the result, the index with `k` put on the row axis is `(k, 0)`. -/
theorem lift_col (h : (⟨2, ![M, 1]⟩ : Shape).Reduces [0] ⟨1, ![1]⟩) (k : Fin M) :
    h.lift (ix1 (0 : Fin 1)) k = ix2 k (0 : Fin 1) := by
  funext a
  apply Fin.ext
  match a with
  | ⟨0, _⟩ => rfl
  | ⟨1, _⟩ => rfl

/-- The sum of an `M × 1` column down its rows. -/
theorem colSum_apply {φ : FTy} (src : FVec Ideal ⟨2, ![M, 1]⟩ φ) (acc : BitVec φ.bits)
    (h : (⟨2, ![M, 1]⟩ : Shape).Reduces [0] ⟨1, ![1]⟩) (hφ : FKind.Formats φ) (hacc : acc = FKind.add.neutral φ hφ) :
    multiReduction .add [0] ⟨1, ![1]⟩ src acc h hφ hacc (ix1 (0 : Fin 1)) = ∑ k : Fin M, src (ix2 k (0 : Fin 1)) := by
  rw [Ideal.multiReduction_add_single]
  exact Finset.sum_congr rfl fun k _ => congrArg src (lift_col h k)

end Cert.Lib.Column

end
-- ==== Proof.LibUnitSpread.lean ====
/-
  A single row of lanes, or a single number, repeated over a block, read at an entry.

  * A [1, 1, C] array repeated over an [A, B, C] block reads, at (r, p, q), its entry (0, 0, q) (spread_lane).
  * A [1, 1] array repeated over an [A, B] block reads, at (r, p), its one entry (0, 0) (spread_one).
-/
import Idealize.ShloMosaic.Lib.ValueIdx
import Idealize.ShloMosaic.Lib.Pipeline.Value

noncomputable section

namespace Cert.Lib.UnitSpread

open Idealize.ShloMosaic Idealize.ShloMosaic.ValueIdx

variable {α : Type} {A B C : Nat}

/-- A [1, 1, C] array repeated along both leading axes: entry (r, p, q) is the array's entry (0, 0, q). -/
theorem spread_lane (v : (⟨3, ![1, 1, C]⟩ : Shape).Idx → α) (h : (⟨3, ![1, 1, C]⟩ : Shape).Broadcasts ⟨3, ![A, B, C]⟩)
    (r : Fin A) (p : Fin B) (q : Fin C) :
    broadcastTo ⟨3, ![A, B, C]⟩ v h (ix3 r p q) = v (ix3 (0 : Fin 1) (0 : Fin 1) q) :=
  broadcastTo_apply v h (ix3 r p q) (ix3 (0 : Fin 1) (0 : Fin 1) q) (fun a => match a with
    | ⟨0, _⟩ => by show 0 = if (1 : Nat) = 1 then 0 else r.val; rw [if_pos rfl]
    | ⟨1, _⟩ => by show 0 = if (1 : Nat) = 1 then 0 else p.val; rw [if_pos rfl]
    | ⟨2, _⟩ => by
        show q.val = if C = 1 then 0 else q.val
        split
        · have := q.isLt; omega
        · rfl)

/-- A [1, 1] array repeated over an [A, B] block: every entry is the array's one entry. -/
theorem spread_one (v : (⟨2, ![1, 1]⟩ : Shape).Idx → α) (h : (⟨2, ![1, 1]⟩ : Shape).Broadcasts ⟨2, ![A, B]⟩)
    (r : Fin A) (p : Fin B) : broadcastTo ⟨2, ![A, B]⟩ v h (ix2 r p) = v (ix2 (0 : Fin 1) (0 : Fin 1)) :=
  broadcastTo_apply v h (ix2 r p) (ix2 (0 : Fin 1) (0 : Fin 1)) (fun a => match a with
    | ⟨0, _⟩ => by show 0 = if (1 : Nat) = 1 then 0 else r.val; rw [if_pos rfl]
    | ⟨1, _⟩ => by show 0 = if (1 : Nat) = 1 then 0 else p.val; rw [if_pos rfl])

end Cert.Lib.UnitSpread

end
-- ==== Proof.LibQuantLaw.lean ====
/-
  A symmetric eight-bit quantised linear layer on the extended reals, in two arrangements, and the law that joins them.

  A value `v` is given the code `min 127 (max (-128) (round (v / s)))` for a scale `s`; the scale of an array is
  `max (m / 127) eps` with `m` the greatest absolute value among its entries (a fold of `max` from the word of −∞).

  * The first arrangement replaces every entry `v` of the activations and of the weights by `v + (code v s · s − v)`
    and then takes the inner products of the rows, plus a bias.
  * The second takes the inner products of the rows of CODES, multiplies the result once by the product of the two
    scales, and adds the bias.

  For real entries and real scales `v + (c·s − v) = c·s`, every code is a real in `[-128, 127]` whatever its argument,
  and `∑ (a·s)(b·t) = (∑ a·b)·(s·t)` over the reals: the two arrangements agree (`layer_law`), and the result is again
  real when the bias is (`kerLayer_real`), so the law can be used layer after layer. On the extended reals themselves
  the law fails at the infinities, which is why the entries are asked to be real.

  The greatest absolute value of an array can be taken tile by tile: a fold of `max` over values each of which is below
  the whole fold, and which between them dominate every entry, is the whole fold (`fold_max_eq_of_tiles`).
-/
import Idealize.ShloMosaic.PureOps.Ideal
import Idealize.ShloMosaic.PureOps.Ideal.Laws
import Mathlib.Algebra.BigOperators.Fin
import Mathlib.Tactic.Linarith

noncomputable section

open scoped BigOperators

namespace Cert.QNet

open Idealize.ShloMosaic

/-- The word of −∞, the seed of every maximum here. -/
def ninf : EReal := Ideal.ofBits .f32 0xFF800000#32
/-- The word of 127. -/
def c127 : EReal := Ideal.ofBits .f32 0x42FE0000#32
/-- The word of −128. -/
def cLo : EReal := Ideal.ofBits .f32 0xC3000000#32
/-- The word of the smallest scale allowed (about 1e-8). -/
def cEps : EReal := Ideal.ofBits .f32 0x322BCC77#32

theorem ninf_eq : ninf = ⊥ := by
  unfold ninf; simp [Ideal.ofBits, Ideal.ieee]

theorem c127_eq : c127 = ((127 : ℝ) : EReal) := by
  unfold c127; simp [Ideal.ofBits, Ideal.ieee, -EReal.coe_mul]; norm_num

theorem cLo_eq : cLo = ((-128 : ℝ) : EReal) := by
  unfold cLo; simp [Ideal.ofBits, Ideal.ieee, -EReal.coe_mul]; norm_num

theorem cEps_real : ∃ r : ℝ, cEps = (r : EReal) := by
  unfold cEps Ideal.ofBits Ideal.ieee
  simp only []
  rw [if_neg (by decide)]
  split <;> exact ⟨_, rfl⟩

/-- Rounding to the nearest integer, ties to even; the infinities are fixed. -/
def rnd (v : EReal) : EReal := Ideal.liftRound Ideal.roundHalfEven v

/-- The code of `v` at scale `s`. -/
def code (v s : EReal) : EReal := min c127 (max cLo (rnd (Ideal.div v s)))

/-- The scale that goes with a greatest absolute value `m`. -/
def scaleOf (m : EReal) : EReal := max (Ideal.div m c127) cEps

/-- The greatest absolute value among the entries of a finite family (and the seed). -/
def absMax {ι : Type} [Fintype ι] (a : ι → EReal) : EReal :=
  (Finset.univ : Finset ι).fold max ninf fun i => max (a i) (-(a i))

/-- Quantise and dequantise, spelt as a correction added to the value. -/
def fq (v s : EReal) : EReal := v + (code v s * s - v)

variable {ι κ ν : Type} [Fintype ι] [Fintype κ] [Fintype ν]

/-- First arrangement: inner products of the corrected rows, plus the bias. -/
def refLayer (x : ι → κ → EReal) (w : ν → κ → EReal) (b : ν → EReal) (sx sw : EReal) : ι → ν → EReal :=
  fun p q => (∑ k, fq (x p k) sx * fq (w q k) sw) + b q

/-- Second arrangement: inner products of codes, rescaled once, plus the bias. -/
def kerLayer (x : ι → κ → EReal) (wc : ν → κ → EReal) (b : ν → EReal) (sx sw : EReal) : ι → ν → EReal :=
  fun p q => (∑ k, code (x p k) sx * wc q k) * (sx * sw) + b q

/-- A code is a real number, whatever is coded. -/
theorem code_real (v s : EReal) : ∃ r : ℝ, code v s = (r : EReal) := by
  have h1 : cLo ≤ max cLo (rnd (Ideal.div v s)) := le_max_left _ _
  have hlo : cLo ≤ code v s := le_min (by rw [cLo_eq, c127_eq]; exact_mod_cast (by norm_num : (-128 : ℝ) ≤ 127)) h1
  have hhi : code v s ≤ c127 := min_le_left _ _
  have hb : code v s ≠ ⊥ := fun e => by rw [e, cLo_eq] at hlo; exact absurd hlo (by simp)
  have ht : code v s ≠ ⊤ := fun e => by rw [e, c127_eq] at hhi; exact absurd hhi (by simp)
  exact ⟨(code v s).toReal, (EReal.coe_toReal ht hb).symm⟩

/-- The scale of a greatest absolute value that is not +∞ is real. -/
theorem scale_real (m : EReal) (hm : m ≠ ⊤) : ∃ r : ℝ, scaleOf m = (r : EReal) := by
  obtain ⟨e, he⟩ := cEps_real
  unfold scaleOf
  rw [c127_eq, Ideal.div_coe (by norm_num : (127 : ℝ) ≠ 0), he]
  induction m using EReal.rec with
  | bot => rw [EReal.bot_mul_coe_of_pos (by norm_num)]; exact ⟨e, by simp⟩
  | coe r => rw [← EReal.coe_mul]; exact ⟨max (r * (1 / 127)) e, (EReal.coe_strictMono.monotone.map_max).symm ▸ rfl⟩
  | top => exact absurd rfl hm

/-- The greatest absolute value of real entries is not +∞. -/
theorem absMax_ne_top (a : ι → EReal) (h : ∀ i, ∃ r : ℝ, a i = (r : EReal)) : absMax a ≠ ⊤ := by
  refine ne_of_lt ?_
  unfold absMax
  rw [Finset.fold_max_lt]
  refine ⟨by rw [ninf_eq]; exact bot_lt_top, fun i _ => ?_⟩
  obtain ⟨r, hr⟩ := h i
  rw [hr, ← EReal.coe_neg]
  exact max_lt (EReal.coe_lt_top _) (EReal.coe_lt_top _)

/-- For a real value and a real scale the corrected value is the code times the scale. -/
theorem fq_real (v s : ℝ) : fq (v : EReal) (s : EReal) = code (v : EReal) (s : EReal) * (s : EReal) := by
  obtain ⟨c, hc⟩ := code_real (v : EReal) (s : EReal)
  unfold fq
  rw [hc, ← EReal.coe_mul, ← EReal.coe_sub, ← EReal.coe_add]
  exact congrArg _ (by ring)

/-- THE LAW: on real entries and real scales the two arrangements agree, the second one taking the weights' codes. -/
theorem layer_law (x : ι → κ → EReal) (w : ν → κ → EReal) (b : ν → EReal) (sx sw : EReal)
    (hx : ∀ p k, ∃ r : ℝ, x p k = (r : EReal)) (hw : ∀ q k, ∃ r : ℝ, w q k = (r : EReal))
    (hsx : ∃ r : ℝ, sx = (r : EReal)) (hsw : ∃ r : ℝ, sw = (r : EReal)) :
    refLayer x w b sx sw = kerLayer x (fun q k => code (w q k) sw) b sx sw := by
  obtain ⟨s, rfl⟩ := hsx
  obtain ⟨t, rfl⟩ := hsw
  choose xr hxr using hx
  choose wr hwr using hw
  choose cx hcx using fun p k => code_real (x p k) (s : EReal)
  choose cw hcw using fun q k => code_real (w q k) (t : EReal)
  funext p q
  unfold refLayer kerLayer
  refine congrArg (· + b q) ?_
  have hl : ∀ k, fq (x p k) (s : EReal) * fq (w q k) (t : EReal) = ((cx p k * s * (cw q k * t) : ℝ) : EReal) := fun k => by
    have e1 : fq (x p k) (s : EReal) = ((cx p k * s : ℝ) : EReal) := by
      rw [hxr p k, fq_real, ← hxr p k, hcx p k, ← EReal.coe_mul]
    have e2 : fq (w q k) (t : EReal) = ((cw q k * t : ℝ) : EReal) := by
      rw [hwr q k, fq_real, ← hwr q k, hcw q k, ← EReal.coe_mul]
    rw [e1, e2, ← EReal.coe_mul]
  have hr : ∀ k, code (x p k) (s : EReal) * code (w q k) (t : EReal) = ((cx p k * cw q k : ℝ) : EReal) := fun k => by
    rw [hcx p k, hcw q k, ← EReal.coe_mul]
  have coe_sum : ∀ f : κ → ℝ, ((∑ k, f k : ℝ) : EReal) = ∑ k, (f k : EReal) := fun f => by
    classical
    refine Finset.induction_on (Finset.univ : Finset κ) (by simp) ?_
    intro a S ha ih
    rw [Finset.sum_insert ha, Finset.sum_insert ha, EReal.coe_add, ih]
  rw [Finset.sum_congr rfl fun k _ => hl k, Finset.sum_congr rfl fun k _ => hr k, ← coe_sum, ← coe_sum,
    ← EReal.coe_mul, ← EReal.coe_mul]
  refine congrArg _ ?_
  rw [Finset.sum_mul]
  exact Finset.sum_congr rfl fun k _ => by ring

/-- The second arrangement on real codes, real scales and a real bias gives reals. -/
theorem kerLayer_real (x : ι → κ → EReal) (wc : ν → κ → EReal) (b : ν → EReal) (sx sw : EReal)
    (hwc : ∀ q k, ∃ r : ℝ, wc q k = (r : EReal)) (hb : ∀ q, ∃ r : ℝ, b q = (r : EReal))
    (hsx : ∃ r : ℝ, sx = (r : EReal)) (hsw : ∃ r : ℝ, sw = (r : EReal)) (p : ι) (q : ν) :
    ∃ r : ℝ, kerLayer x wc b sx sw p q = (r : EReal) := by
  obtain ⟨s, rfl⟩ := hsx
  obtain ⟨t, rfl⟩ := hsw
  choose wr hwr using hwc
  obtain ⟨br, hbr⟩ := hb q
  choose cx hcx using fun k => code_real (x p k) (s : EReal)
  have coe_sum : ∀ f : κ → ℝ, ((∑ k, f k : ℝ) : EReal) = ∑ k, (f k : EReal) := fun f => by
    classical
    refine Finset.induction_on (Finset.univ : Finset κ) (by simp) ?_
    intro a S ha ih
    rw [Finset.sum_insert ha, Finset.sum_insert ha, EReal.coe_add, ih]
  refine ⟨(∑ k, cx k * wr q k) * (s * t) + br, ?_⟩
  unfold kerLayer
  rw [Finset.sum_congr rfl fun k _ => by rw [hcx k, hwr q k, ← EReal.coe_mul], ← coe_sum, hbr, ← EReal.coe_mul, ← EReal.coe_mul,
    ← EReal.coe_add]

/-- A maximum taken tile by tile: if every tile's value is below the fold over all entries, and every entry is below
    some tile's value, the fold over the tiles' values is the fold over the entries. -/
theorem fold_max_eq_of_tiles {τ : Type} [Fintype τ] (b : EReal) (f : ι → EReal) (g : τ → EReal)
    (hle : ∀ t, g t ≤ (Finset.univ : Finset ι).fold max b f) (hge : ∀ i, ∃ t, f i ≤ g t) :
    (Finset.univ : Finset τ).fold max b g = (Finset.univ : Finset ι).fold max b f := by
  refine le_antisymm ?_ ?_
  · rw [Finset.fold_max_le]
    exact ⟨(Finset.le_fold_max _).2 (Or.inl le_rfl), fun t _ => hle t⟩
  · rw [Finset.fold_max_le]
    refine ⟨(Finset.le_fold_max _).2 (Or.inl le_rfl), fun i _ => ?_⟩
    obtain ⟨t, ht⟩ := hge i
    exact (Finset.le_fold_max _).2 (Or.inr ⟨t, Finset.mem_univ _, ht⟩)

end Cert.QNet

end
-- ==== Proof.LibQuantNet.lean ====
/-
  The three-layer quantised network on arrays of literal shapes, in the two arrangements of the layer, and the
  theorem that they compute one array when every input entry is real.

  An array's scale is `scaleOf` of the greatest absolute value of its entries; a weight array's codes are its entries'
  codes at the array's own scale. One layer takes activations `X : M × K`, weights `W : N × K` and a bias of `N`
  entries to an `M × N` array. In the first arrangement the layer corrects activations and weights to `v + (c·s − v)`
  and takes inner products of rows; in the second it takes inner products of the activations' codes with the weights'
  codes and multiplies once by the product of the two scales. The second arrangement's result has real entries, so the
  layers can be chained: after each layer the activations are real again, their scale is real, and the law applies.
-/
import Idealize.ShloMosaic.Lib.ValueIdx
import proofs.«109104_j3513283248696_2_alg».proof.Proof.LibQuantLaw

noncomputable section

open scoped BigOperators

namespace Cert.QNet

open Idealize.ShloMosaic Idealize.ShloMosaic.ValueIdx

variable {M K N : ℕ}

/-- An `M × K` array of extended reals. -/
abbrev Arr (M K : ℕ) : Type := (⟨2, ![M, K]⟩ : Shape).Idx → EReal
/-- A vector of `N` extended reals. -/
abbrev Row (N : ℕ) : Type := (⟨1, ![N]⟩ : Shape).Idx → EReal

/-- An array's scale: from the greatest absolute value among all its entries. -/
def scaleArr (X : Arr M K) : EReal := scaleOf (absMax X)

/-- A weight array's codes, at the array's own scale. -/
def codeArr (W : Arr N K) : Arr N K := fun i => code (W i) (scaleArr W)

/-- One layer, first arrangement. -/
def refL (X : Arr M K) (W : Arr N K) (b : Fin N → EReal) : Arr M N :=
  fun i => refLayer (fun (p : Fin M) (k : Fin K) => X (ix2 p k)) (fun (q : Fin N) (k : Fin K) => W (ix2 q k)) b
    (scaleArr X) (scaleArr W) (i 0) (i 1)

/-- One layer, second arrangement, on given codes and scales. -/
def kerL (X : Arr M K) (Wc : Arr N K) (b : Fin N → EReal) (sx sw : EReal) : Arr M N :=
  fun i => kerLayer (fun (p : Fin M) (k : Fin K) => X (ix2 p k)) (fun (q : Fin N) (k : Fin K) => Wc (ix2 q k)) b sx sw (i 0) (i 1)

theorem refL_apply (X : Arr M K) (W : Arr N K) (b : Fin N → EReal) (p : Fin M) (q : Fin N) :
    refL X W b (ix2 p q) = (∑ k : Fin K, fq (X (ix2 p k)) (scaleArr X) * fq (W (ix2 q k)) (scaleArr W)) + b q := rfl

theorem kerL_apply (X : Arr M K) (Wc : Arr N K) (b : Fin N → EReal) (sx sw : EReal) (p : Fin M) (q : Fin N) :
    kerL X Wc b sx sw (ix2 p q) = (∑ k : Fin K, code (X (ix2 p k)) sx * Wc (ix2 q k)) * (sx * sw) + b q := rfl

/-- The scale of an array of real entries is real. -/
theorem scaleArr_real (X : Arr M K) (hX : ∀ i, ∃ r : ℝ, X i = (r : EReal)) : ∃ r : ℝ, scaleArr X = (r : EReal) :=
  scale_real _ (absMax_ne_top X hX)

/-- On real activations and weights the two arrangements of a layer agree. -/
theorem refL_eq_kerL (X : Arr M K) (W : Arr N K) (b : Fin N → EReal)
    (hX : ∀ i, ∃ r : ℝ, X i = (r : EReal)) (hW : ∀ i, ∃ r : ℝ, W i = (r : EReal)) :
    refL X W b = kerL X (codeArr W) b (scaleArr X) (scaleArr W) := by
  funext i
  exact congrFun (congrFun (layer_law (fun (p : Fin M) (k : Fin K) => X (ix2 p k)) (fun (q : Fin N) (k : Fin K) => W (ix2 q k)) b
    (scaleArr X) (scaleArr W) (fun p k => hX _) (fun q k => hW _) (scaleArr_real X hX) (scaleArr_real W hW)) (i 0)) (i 1)

/-- The second arrangement's entries are real when the bias and the scales are. -/
theorem kerL_real (X : Arr M K) (W : Arr N K) (b : Fin N → EReal) (sx : EReal)
    (hb : ∀ q, ∃ r : ℝ, b q = (r : EReal)) (hsx : ∃ r : ℝ, sx = (r : EReal)) (hW : ∀ i, ∃ r : ℝ, W i = (r : EReal)) (i) :
    ∃ r : ℝ, kerL X (codeArr W) b sx (scaleArr W) i = (r : EReal) :=
  kerLayer_real _ _ b sx (scaleArr W) (fun q k => code_real _ _) hb hsx (scaleArr_real W hW) (i 0) (i 1)

/-- The network, first arrangement in every layer. -/
def refNet (x : Arr 16384 512) (W1 : Arr 2048 512) (b1 : Row 2048) (W2 : Arr 2048 2048) (b2 : Row 2048)
    (W3 : Arr 512 2048) (b3 : Row 512) : Arr 16384 512 :=
  refL (refL (refL x W1 fun q => b1 (ix1 q)) W2 fun q => b2 (ix1 q)) W3 fun q => b3 (ix1 q)

/-- The first two layers' activations, second arrangement. -/
def kerY1 (x : Arr 16384 512) (W1 : Arr 2048 512) (b1 : Row 2048) : Arr 16384 2048 :=
  kerL x (codeArr W1) (fun q => b1 (ix1 q)) (scaleArr x) (scaleArr W1)
def kerY2 (x : Arr 16384 512) (W1 : Arr 2048 512) (b1 : Row 2048) (W2 : Arr 2048 2048) (b2 : Row 2048) : Arr 16384 2048 :=
  kerL (kerY1 x W1 b1) (codeArr W2) (fun q => b2 (ix1 q)) (scaleArr (kerY1 x W1 b1)) (scaleArr W2)

/-- The network, second arrangement in every layer. -/
def kerNet (x : Arr 16384 512) (W1 : Arr 2048 512) (b1 : Row 2048) (W2 : Arr 2048 2048) (b2 : Row 2048)
    (W3 : Arr 512 2048) (b3 : Row 512) : Arr 16384 512 :=
  kerL (kerY2 x W1 b1 W2 b2) (codeArr W3) (fun q => b3 (ix1 q)) (scaleArr (kerY2 x W1 b1 W2 b2)) (scaleArr W3)

/-- With every input entry real, the two networks compute the same array. -/
theorem net_eq (x : Arr 16384 512) (W1 : Arr 2048 512) (b1 : Row 2048) (W2 : Arr 2048 2048) (b2 : Row 2048)
    (W3 : Arr 512 2048) (b3 : Row 512)
    (hx : ∀ i, ∃ r : ℝ, x i = (r : EReal)) (hW1 : ∀ i, ∃ r : ℝ, W1 i = (r : EReal)) (hb1 : ∀ i, ∃ r : ℝ, b1 i = (r : EReal))
    (hW2 : ∀ i, ∃ r : ℝ, W2 i = (r : EReal)) (hb2 : ∀ i, ∃ r : ℝ, b2 i = (r : EReal))
    (hW3 : ∀ i, ∃ r : ℝ, W3 i = (r : EReal)) :
    refNet x W1 b1 W2 b2 W3 b3 = kerNet x W1 b1 W2 b2 W3 b3 := by
  have e1 : refL x W1 (fun q => b1 (ix1 q)) = kerY1 x W1 b1 := refL_eq_kerL x W1 _ hx hW1
  have r1 : ∀ i, ∃ r : ℝ, kerY1 x W1 b1 i = (r : EReal) :=
    kerL_real x W1 _ _ (fun q => hb1 _) (scaleArr_real x hx) hW1
  have e2 : refL (kerY1 x W1 b1) W2 (fun q => b2 (ix1 q)) = kerY2 x W1 b1 W2 b2 := refL_eq_kerL _ W2 _ r1 hW2
  have r2 : ∀ i, ∃ r : ℝ, kerY2 x W1 b1 W2 b2 i = (r : EReal) :=
    kerL_real _ W2 _ _ (fun q => hb2 _) (scaleArr_real _ r1) hW2
  unfold refNet kerNet
  rw [e1, e2]
  exact refL_eq_kerL _ W3 _ r2 hW3

end Cert.QNet

end
-- ==== Proof.LibQuantBody.lean ====
/-
  One grid point of a quantised linear layer, entry by entry, at the ideal values — for blocks of any extents.

  The body holds a block `x` of `M × K` activations, a block `wc` of `N × K` weight codes, a `1 × N` bias row and the
  two scales as `1 × 1` arrays. It codes the activations (`min 127 (max (-128) (round (x / s)))`), multiplies the codes
  with the weight codes row against row, rescales by `s · sw` and adds the bias row down the rows:

      out (p, q) = (∑ k, code (x (p, k)) s · wc (q, k)) · (s · sw) + b (0, q)        (`layer_entry`).

  It then takes the greatest absolute value of the block it has just computed, first along each row, then down the
  column of row maxima, and repeats that one number over a small tile: every entry of the tile is the fold of `max`
  from −∞ over the rows of the fold of `max` from −∞ over the row's absolute values (`tile_entry`).
-/
import Idealize.ShloMosaic.Lib.ValueIdx
import Idealize.ShloMosaic.Lib.ValueLayout
import Idealize.ShloMosaic.Lib.Pipeline.Value
import Idealize.ShloMosaic.PureOps.Ideal.Laws
import proofs.«109104_j3513283248696_2_alg».proof.Proof.LibBlockOps
import proofs.«109104_j3513283248696_2_alg».proof.Proof.LibColMax
import proofs.«109104_j3513283248696_2_alg».proof.Proof.LibColumn
import proofs.«109104_j3513283248696_2_alg».proof.Proof.LibUnitSpread
import proofs.«109104_j3513283248696_2_alg».proof.Proof.LibQuantNet

noncomputable section

open scoped BigOperators

namespace Cert.QBody

open Idealize.ShloMosaic Idealize.ShloMosaic.ValueIdx Cert.QNet

variable {M K N A B : ℕ}

/-- The number a `1 × 1` array holds. -/
theorem extract_unit {α : Type} (v : (⟨2, ![1, 1]⟩ : Shape).Idx → α) (h : ∀ a, (![0, 0] : Fin 2 → ℕ) a < (⟨2, ![1, 1]⟩ : Shape).size a) :
    extractAt ![0, 0] v h = v (ix2 (0 : Fin 1) (0 : Fin 1)) :=
  congrArg v (funext fun a => by match a with | ⟨0, _⟩ => rfl | ⟨1, _⟩ => rfl)

/-- The activations' codes as the body spells them, at an entry. -/
theorem codes_apply (x : FVec Ideal ⟨2, ![M, K]⟩ .f32) (s : Ideal .f32) (hb : FTy.bf16.bits < FTy.f32.bits)
    (i : (⟨2, ![M, K]⟩ : Shape).Idx) :
    truncf .bf16 (minimumf (broadcast ⟨2, ![M, K]⟩ (Scalar.ofBits .f32 0x42FE0000#32))
      (maximumf (broadcast ⟨2, ![M, K]⟩ (Scalar.ofBits .f32 0xC3000000#32)) (roundeven (divf x (broadcast ⟨2, ![M, K]⟩ s))))) hb i
      = code (x i) s := rfl

/-- One entry of the block the body stores. -/
theorem layer_entry (w : DotDims.WF ⟨2, ![M, K]⟩ ⟨2, ![N, K]⟩ ⟨2, ![M, N]⟩ [1] [1] [0] [0] [] [])
    (x : FVec Ideal ⟨2, ![M, K]⟩ .f32) (wc : FVec Ideal ⟨2, ![N, K]⟩ .bf16) (b : FVec Ideal ⟨2, ![1, N]⟩ .f32) (s sw : Ideal .f32)
    (hb : FTy.bf16.bits < FTy.f32.bits) (hc : (⟨2, ![1, N]⟩ : Shape).ShapeCasts ⟨2, ![1, N]⟩)
    (hbr : (⟨2, ![1, N]⟩ : Shape).Broadcasts ⟨2, ![M, N]⟩) (p : Fin M) (q : Fin N) :
    addf (mulf (FloatOps.matmul (⟨[1], [1], [0], [0], [], [], w⟩ : DotDims ⟨2, ![M, K]⟩ ⟨2, ![N, K]⟩ ⟨2, ![M, N]⟩) none
            (truncf .bf16 (minimumf (broadcast ⟨2, ![M, K]⟩ (Scalar.ofBits .f32 0x42FE0000#32))
              (maximumf (broadcast ⟨2, ![M, K]⟩ (Scalar.ofBits .f32 0xC3000000#32)) (roundeven (divf x (broadcast ⟨2, ![M, K]⟩ s))))) hb)
            wc (constant ⟨2, ![M, N]⟩ .f32 0x00000000#32))
          (broadcast ⟨2, ![M, N]⟩ (Scalar.mulf s sw)))
        (broadcastTo ⟨2, ![M, N]⟩ (shapeCast ⟨2, ![1, N]⟩ b hc) hbr) (ix2 p q)
      = (∑ k : Fin K, code (x (ix2 p k)) s * wc (ix2 q k)) * (s * sw) + b (ix2 (0 : Fin 1) q) := by
  rw [addf_apply, mulf_apply, broadcast_apply, Cert.Lib.BlockOps.matmul_rows_apply, shapeCast_self, broadcastTo_1b_ab_apply]
  rfl

/-- The greatest absolute value of an `M × N` block, rows first. -/
def blockAbsMax (Y : Arr M N) : EReal :=
  (Finset.univ : Finset (Fin M)).fold max ninf fun p =>
    (Finset.univ : Finset (Fin N)).fold max ninf fun q => max (Y (ix2 p q)) (-(Y (ix2 p q)))

/-- A row's greatest absolute value, the accumulator typed as a printed reduction carries it. -/
theorem rowMax_f32 (src : FVec Ideal ⟨2, ![M, N]⟩ .f32) (h : (⟨2, ![M, N]⟩ : Shape).Reduces [1] ⟨1, ![M]⟩)
    (hφ : FKind.Formats .f32) (hacc : (0xFF800000#32 : BitVec 32) = 0xFF800000#32) (p : Fin M) :
    multiReduction .maximumf [1] ⟨1, ![M]⟩ src 0xFF800000#32 h hφ hacc (ix1 p)
      = (Finset.univ : Finset (Fin N)).fold max ninf fun k => src (ix2 p k) :=
  Cert.Lib.BlockOps.rowMax_apply src _ h hφ hacc p

/-- Every entry of the tile is the block's greatest absolute value. -/
theorem tile_entry (Y : FVec Ideal ⟨2, ![M, N]⟩ .f32)
    (h1 : (⟨2, ![M, N]⟩ : Shape).Reduces [1] ⟨1, ![M]⟩) (hφ1 : FKind.Formats .f32) (ha1 : (0xFF800000#32 : BitVec 32) = 0xFF800000#32)
    (hc1 : (⟨1, ![M]⟩ : Shape).ShapeCasts ⟨2, ![M, 1]⟩)
    (h0 : (⟨2, ![M, 1]⟩ : Shape).Reduces [0] ⟨1, ![1]⟩) (hφ0 : FKind.Formats .f32) (ha0 : (0xFF800000#32 : BitVec 32) = 0xFF800000#32)
    (hc2 : (⟨1, ![1]⟩ : Shape).ShapeCasts ⟨2, ![1, 1]⟩) (hc3 : (⟨2, ![1, 1]⟩ : Shape).ShapeCasts ⟨2, ![1, 1]⟩)
    (hbr : (⟨2, ![1, 1]⟩ : Shape).Broadcasts ⟨2, ![A, B]⟩) (r : Fin A) (l : Fin B) :
    broadcastTo ⟨2, ![A, B]⟩ (shapeCast ⟨2, ![1, 1]⟩ (shapeCast ⟨2, ![1, 1]⟩
        (multiReduction .maximumf [0] ⟨1, ![1]⟩
          (shapeCast ⟨2, ![M, 1]⟩ (multiReduction .maximumf [1] ⟨1, ![M]⟩ (absf Y) 0xFF800000#32 h1 hφ1 ha1) hc1)
          0xFF800000#32 h0 hφ0 ha0) hc2) hc3) hbr (ix2 r l)
      = blockAbsMax Y := by
  rw [Cert.Lib.UnitSpread.spread_one, shapeCast_self, Cert.Lib.Column.col_apply]
  refine (Cert.Lib.ColMax.colMax_f32 _ h0 hφ0 ha0 (0 : Fin 1)).trans ?_
  unfold blockAbsMax
  refine congrArg (fun f => Finset.fold max ninf f (Finset.univ : Finset (Fin M))) (funext fun p => ?_)
  rw [Cert.Lib.Column.col_apply]
  exact rowMax_f32 (absf Y) h1 hφ1 ha1 p

/-- Two blocks with the same entries have the same greatest absolute value. -/
theorem blockAbsMax_congr (f g : Arr M N) (h : ∀ (p : Fin M) (q : Fin N), f (ix2 p q) = g (ix2 p q)) :
    blockAbsMax f = blockAbsMax g := by
  unfold blockAbsMax
  refine congrArg (fun u => Finset.fold max ninf u (Finset.univ : Finset (Fin M))) (funext fun p => ?_)
  refine congrArg (fun u => Finset.fold max ninf u (Finset.univ : Finset (Fin N))) (funext fun q => ?_)
  rw [h p q]

/-- The greatest absolute value of an array, taken tile by tile: if every entry of `T` is the greatest absolute value of
    a block of `Y` (rows `fr r ·`, columns `gc l ·`) and the blocks between them meet every entry of `Y`, the fold of
    `max` over `T` is the greatest absolute value of `Y`. -/
theorem tiles_fold {Mt Nt Ta Tb bm bn : ℕ} (Y : Arr Mt Nt) (T : Arr Ta Tb)
    (fr : Fin Ta → Fin bm → Fin Mt) (gc : Fin Tb → Fin bn → Fin Nt)
    (hT : ∀ (r : Fin Ta) (l : Fin Tb), T (ix2 r l)
      = blockAbsMax (M := bm) (N := bn) (fun j => Y (ix2 (fr r (j 0)) (gc l (j 1)))))
    (hcov : ∀ (P : Fin Mt) (Q : Fin Nt), ∃ (r : Fin Ta) (l : Fin Tb) (p : Fin bm) (q : Fin bn), fr r p = P ∧ gc l q = Q) :
    (Finset.univ : Finset (⟨2, ![Ta, Tb]⟩ : Shape).Idx).fold max ninf T = absMax Y := by
  unfold absMax
  refine fold_max_eq_of_tiles ninf (fun i => max (Y i) (-(Y i))) T (fun t => ?_) (fun i => ?_)
  · obtain ⟨r, l, rfl⟩ : ∃ (r : Fin Ta) (l : Fin Tb), t = ix2 r l := ⟨t 0, t 1, eq_ix2 t⟩
    rw [hT]
    unfold blockAbsMax
    rw [Finset.fold_max_le]
    refine ⟨(Finset.le_fold_max _).2 (Or.inl le_rfl), fun p _ => ?_⟩
    rw [Finset.fold_max_le]
    refine ⟨(Finset.le_fold_max _).2 (Or.inl le_rfl), fun q _ => ?_⟩
    exact (Finset.le_fold_max _).2 (Or.inr ⟨ix2 (fr r p) (gc l q), Finset.mem_univ _, le_rfl⟩)
  · obtain ⟨P, Q, rfl⟩ : ∃ (P : Fin Mt) (Q : Fin Nt), i = ix2 P Q := ⟨i 0, i 1, eq_ix2 i⟩
    obtain ⟨r, l, p, q, hp, hq⟩ := hcov P Q
    refine ⟨ix2 r l, ?_⟩
    rw [hT]
    unfold blockAbsMax
    refine (Finset.le_fold_max _).2 (Or.inr ⟨p, Finset.mem_univ _, (Finset.le_fold_max _).2 (Or.inr ⟨q, Finset.mem_univ _, ?_⟩)⟩)
    show max (Y (ix2 P Q)) (-(Y (ix2 P Q))) ≤ max (Y (ix2 (fr r p) (gc l q))) (-(Y (ix2 (fr r p) (gc l q))))
    rw [hp, hq]

end Cert.QBody

end
-- ==== Proof.KerR0.lean ====
/-
  Region 0 (the first layer), at the ideal values: what its two output arrays hold when the region ends, as functions of
  the arrays the region finds.

  The grid is 8 × 4. At point (i, j) the body holds rows 2048·i … of the activations, rows 512·j … of the weight codes,
  columns 512·j … of the bias row and the two scales, stores block (i, j) of the layer's output and fills tile (i, j)
  (8 × 128) of the second output with that block's greatest absolute value. The blocks tile the arrays, so the first
  output array ends as the layer's `M × N` result (`kerL`) and every entry (r, l) of the second as the greatest
  absolute value of block (r / 8, l / 128) of that result.
-/
import proofs.«109104_j3513283248696_2_alg».proof.Proof.Gen.KernelIdeal.Frame
import proofs.«109104_j3513283248696_2_alg».proof.Proof.LibQuantBody

set_option maxRecDepth 16384

noncomputable section

open scoped BigOperators

namespace Cert.KernelIdeal.KV

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.QNet Cert.QBody

variable (V : (c : Dev nD) → (b : Ref sig .tc) → Buf (Elt Ideal) ((c : Thread nD τ).loc b))

theorem hz0 : (![0, 0] : Fin 2 → Nat) = fun _ => 0 := funext fun a => by fin_cases a <;> rfl

/-- The block the body stores, entry (p, q), from what it loads. -/
theorem pay1_0 (v0 v2 : Vec Ideal S1x1 .f32) (v4 : Vec Ideal S2048x512 .f32) (v13 : Vec Ideal S512x512 .bf16) (v19 : Vec Ideal S1x512 .f32)
    (p : Fin 2048) (q : Fin 512) :
    k0_pay1 v0 v2 v4 v13 v19 (ix2 p q)
      = (∑ k : Fin 512, code (v4 (ix2 p k)) (v0 (ix2 (0 : Fin 1) (0 : Fin 1))) * v13 (ix2 q k))
          * (v0 (ix2 (0 : Fin 1) (0 : Fin 1)) * v2 (ix2 (0 : Fin 1) (0 : Fin 1))) + v19 (ix2 (0 : Fin 1) q) := by
  unfold k0_pay1
  rw [shapeCast_self v13, extract_unit v0, extract_unit v2]
  exact layer_entry _ v4 v13 v19 _ _ _ _ _ p q

/-- The tile the body stores: every entry is the stored block's greatest absolute value. -/
theorem pay2_0 (v0 v2 : Vec Ideal S1x1 .f32) (v4 : Vec Ideal S2048x512 .f32) (v13 : Vec Ideal S512x512 .bf16) (v19 : Vec Ideal S1x512 .f32)
    (r : Fin 8) (l : Fin 128) :
    k0_pay2 v0 v2 v4 v13 v19 (ix2 r l) = blockAbsMax (k0_pay1 v0 v2 v4 v13 v19) := by
  unfold k0_pay2
  exact tile_entry _ _ _ _ _ _ _ _ _ _ _ r l

/-- The layer's result, from the arrays the region finds. -/
def Y0 (c : Dev nD) : Arr 16384 2048 :=
  kerL (V c main_arg0) (V c main_v14) (fun q => V c main_v15 (ix2 (0 : Fin 1) q))
    (V c main_v4 (ix2 (0 : Fin 1) (0 : Fin 1))) (V c main_v9 (ix2 (0 : Fin 1) (0 : Fin 1)))

/-- The printed index maps over the grid: which block of each array a point holds. -/
theorem idx_facts0 : ∀ t : Fin cfg0.N, win0_0.index t (0 : Fin 2) = win0_5.index t (0 : Fin 2)
    ∧ win0_0.index t (1 : Fin 2) = 0
    ∧ win0_1.index t (0 : Fin 2) = win0_5.index t (1 : Fin 2)
    ∧ win0_1.index t (1 : Fin 2) = 0
    ∧ win0_2.index t (0 : Fin 2) = 0
    ∧ win0_2.index t (1 : Fin 2) = win0_5.index t (1 : Fin 2)
    ∧ win0_3.index t (0 : Fin 2) = 0 ∧ win0_3.index t (1 : Fin 2) = 0
    ∧ win0_4.index t (0 : Fin 2) = 0 ∧ win0_4.index t (1 : Fin 2) = 0
    ∧ win0_6.index t (0 : Fin 2) = win0_5.index t (0 : Fin 2)
    ∧ win0_6.index t (1 : Fin 2) = win0_5.index t (1 : Fin 2)
    ∧ win0_5.index t (0 : Fin 2) ≤ 7 ∧ win0_5.index t (1 : Fin 2) ≤ 3 :=
  (by decide +kernel : ∀ t : Fin grid0.N, _)

/-- Every block of the output is some point's. -/
theorem idx_onto0 : ∀ (q0 : Fin 8) (q1 : Fin 4), ∃ t : Fin cfg0.N, win0_5.index t = ![q0.val, q1.val] :=
  (by decide +kernel : ∀ (q0 : Fin 8) (q1 : Fin 4), ∃ t : Fin grid0.N, win0_5.index t = ![q0.val, q1.val])

/-! ## Each input block, read where the output block's rectangle says -/

theorem read0_0 (c : Dev nD) (t : Fin cfg0.N) (p : Fin 2048) (k : Fin 512) (P : Fin 16384)
    (hP : P.val = win0_5.index t (0 : Fin 2) * 2048 + p.val) :
    iblk0 V c 0 t (ix2 p k) = V c main_arg0 (ix2 P k) := by
  obtain ⟨e0, e1, -⟩ := idx_facts0 t
  show V c main_arg0 (((cfg0.win 0).blk t).view.emb (ix2 p k)) = V c main_arg0 (ix2 P k)
  refine congrArg _ (funext fun a => Fin.ext ?_)
  match a with
  | ⟨0, _⟩ => show win0_0.index t (0 : Fin 2) * 2048 + 1 * p.val = P.val; omega
  | ⟨1, _⟩ => show win0_0.index t (1 : Fin 2) * 512 + 1 * k.val = k.val; omega

theorem read0_1 (c : Dev nD) (t : Fin cfg0.N) (q : Fin 512) (k : Fin 512) (Q : Fin 2048)
    (hQ : Q.val = win0_5.index t (1 : Fin 2) * 512 + q.val) :
    iblk0 V c 1 t (ix2 q k) = V c main_v14 (ix2 Q k) := by
  obtain ⟨-, -, e2, e3, -⟩ := idx_facts0 t
  show V c main_v14 (((cfg0.win 1).blk t).view.emb (ix2 q k)) = V c main_v14 (ix2 Q k)
  refine congrArg _ (funext fun a => Fin.ext ?_)
  match a with
  | ⟨0, _⟩ => show win0_1.index t (0 : Fin 2) * 512 + 1 * q.val = Q.val; omega
  | ⟨1, _⟩ => show win0_1.index t (1 : Fin 2) * 512 + 1 * k.val = k.val; omega

theorem read0_2 (c : Dev nD) (t : Fin cfg0.N) (q : Fin 512) (Q : Fin 2048)
    (hQ : Q.val = win0_5.index t (1 : Fin 2) * 512 + q.val) :
    iblk0 V c 2 t (ix2 (0 : Fin 1) q) = V c main_v15 (ix2 (0 : Fin 1) Q) := by
  obtain ⟨-, -, -, -, e4, e5, -⟩ := idx_facts0 t
  show V c main_v15 (((cfg0.win 2).blk t).view.emb (ix2 (0 : Fin 1) q)) = V c main_v15 (ix2 (0 : Fin 1) Q)
  refine congrArg _ (funext fun a => Fin.ext ?_)
  match a with
  | ⟨0, _⟩ => show win0_2.index t (0 : Fin 2) * 1 + 1 * 0 = 0; omega
  | ⟨1, _⟩ => show win0_2.index t (1 : Fin 2) * 512 + 1 * q.val = Q.val; omega

theorem read0_3 (c : Dev nD) (t : Fin cfg0.N) :
    iblk0 V c 3 t (ix2 (0 : Fin 1) (0 : Fin 1)) = V c main_v4 (ix2 (0 : Fin 1) (0 : Fin 1)) := by
  obtain ⟨-, -, -, -, -, -, e6, e7, -⟩ := idx_facts0 t
  show V c main_v4 (((cfg0.win 3).blk t).view.emb (ix2 (0 : Fin 1) (0 : Fin 1))) = V c main_v4 (ix2 (0 : Fin 1) (0 : Fin 1))
  refine congrArg _ (funext fun a => Fin.ext ?_)
  match a with
  | ⟨0, _⟩ => show win0_3.index t (0 : Fin 2) * 1 + 1 * 0 = 0; omega
  | ⟨1, _⟩ => show win0_3.index t (1 : Fin 2) * 1 + 1 * 0 = 0; omega

theorem read0_4 (c : Dev nD) (t : Fin cfg0.N) :
    iblk0 V c 4 t (ix2 (0 : Fin 1) (0 : Fin 1)) = V c main_v9 (ix2 (0 : Fin 1) (0 : Fin 1)) := by
  obtain ⟨-, -, -, -, -, -, -, -, e8, e9, -⟩ := idx_facts0 t
  show V c main_v9 (((cfg0.win 4).blk t).view.emb (ix2 (0 : Fin 1) (0 : Fin 1))) = V c main_v9 (ix2 (0 : Fin 1) (0 : Fin 1))
  refine congrArg _ (funext fun a => Fin.ext ?_)
  match a with
  | ⟨0, _⟩ => show win0_4.index t (0 : Fin 2) * 1 + 1 * 0 = 0; omega
  | ⟨1, _⟩ => show win0_4.index t (1 : Fin 2) * 1 + 1 * 0 = 0; omega

/-- Where entry (p, q) of point `t`'s output block sits in the output array. -/
theorem emb0_5 (t : Fin cfg0.N) (p : Fin 2048) (q : Fin 512) (P : Fin 16384) (Q : Fin 2048)
    (hP : P.val = win0_5.index t (0 : Fin 2) * 2048 + p.val) (hQ : Q.val = win0_5.index t (1 : Fin 2) * 512 + q.val) :
    ((cfg0.win 5).blk t).view.emb (ix2 p q) = ix2 P Q := by
  funext a; apply Fin.ext
  match a with
  | ⟨0, _⟩ => show win0_5.index t (0 : Fin 2) * 2048 + 1 * p.val = P.val; omega
  | ⟨1, _⟩ => show win0_5.index t (1 : Fin 2) * 512 + 1 * q.val = Q.val; omega

/-- THE BLOCK A POINT STORES is its block of the layer's result. -/
theorem blk0_eq (c : Dev nD) (t : Fin cfg0.N) :
    k0_pay1 (iblk0 V c 3 t) (iblk0 V c 4 t) (iblk0 V c 0 t) (iblk0 V c 1 t) (iblk0 V c 2 t)
      = ((cfg0.win 5).blk t).view.read (Elt Ideal) (Y0 V c) := by
  funext j
  obtain ⟨p, q, rfl⟩ : ∃ (p : Fin 2048) (q : Fin 512), j = ix2 p q := ⟨j 0, j 1, eq_ix2 j⟩
  obtain ⟨-, -, -, -, -, -, -, -, -, -, -, -, b0, b1⟩ := idx_facts0 t
  have hP : win0_5.index t (0 : Fin 2) * 2048 + p.val < 16384 := by have := p.isLt; omega
  have hQ : win0_5.index t (1 : Fin 2) * 512 + q.val < 2048 := by have := q.isLt; omega
  refine (pay1_0 _ _ _ _ _ p q).trans ?_
  show _ = Y0 V c (((cfg0.win 5).blk t).view.emb (ix2 p q))
  rw [emb0_5 t p q ⟨_, hP⟩ ⟨_, hQ⟩ rfl rfl]
  unfold Y0
  rw [kerL_apply, read0_3 V c t, read0_4 V c t, read0_2 V c t q ⟨_, hQ⟩ rfl]
  refine congrArg (fun z => z * _ + _) (Finset.sum_congr rfl fun k _ => ?_)
  rw [read0_0 V c t p k ⟨_, hP⟩ rfl, read0_1 V c t q k ⟨_, hQ⟩ rfl]

/-- What point `t` writes back through the first output window. -/
theorem flushed0_5 (c : Dev nD) (t : Fin cfg0.N) :
    (dat0 V c).flushed 5 t = ((cfg0.win 5).blk t).view.read (Elt Ideal) (Y0 V c) := by
  show (cfg0.win 5).cut (grid0.coords t) ((dat0 V c).after 5 t) = _
  rw [after0_5]
  unfold out0_5
  rw [View.canon_unit_zero hz0]
  simp only [View.ld_unit_zero (S := S1x1) hz0, View.ld_unit_zero (S := S2048x512) hz0, View.ld_unit_zero (S := S512x512) hz0,
    View.ld_unit_zero (S := S1x512) hz0]
  exact blk0_eq V c t

/-! ## From blocks to the arrays -/

/-- An index of the first output array is in point `t`'s block iff each coordinate is in the block's range. -/
theorem mem_blk0_5 (t : Fin cfg0.N) (i : S16384x2048.Idx) :
    i ∈ ((cfg0.win 5).blk t).view.set ↔ ∀ a : Fin 2, win0_5.index t a * S2048x512.size a ≤ (i a).val ∧ (i a).val < win0_5.index t a * S2048x512.size a + S2048x512.size a := by
  show i ∈ ((View.whole main_v16_0).slice (win0_5.rect t)).set ↔ _
  rw [View.set_slice_whole, Rect.mem_set_unit]
  exact Iff.rfl

/-- Every index of the first output array is in some point's block. -/
theorem cover0_5' (i : S16384x2048.Idx) :
    ∃ t : Fin cfg0.N, (cfg0.win 5).flush t = true ∧ i ∈ ((cfg0.win 5).blk t).view.set := by
  have hi0 : (i 0).val < 16384 := (i 0).isLt
  have hi1 : (i 1).val < 2048 := (i 1).isLt
  obtain ⟨t, ht⟩ := idx_onto0 ⟨(i 0).val / 2048, by omega⟩ ⟨(i 1).val / 512, by omega⟩
  have q0 : win0_5.index t (0 : Fin 2) = (i 0).val / 2048 := congrFun ht 0
  have q1 : win0_5.index t (1 : Fin 2) = (i 1).val / 512 := congrFun ht 1
  refine ⟨t, flush0_5 t, ?_⟩
  rw [mem_blk0_5]
  intro a
  match a with
  | ⟨0, _⟩ => show win0_5.index t (0 : Fin 2) * 2048 ≤ (i 0).val ∧ (i 0).val < win0_5.index t (0 : Fin 2) * 2048 + 2048; omega
  | ⟨1, _⟩ => show win0_5.index t (1 : Fin 2) * 512 ≤ (i 1).val ∧ (i 1).val < win0_5.index t (1 : Fin 2) * 512 + 512; omega

/-- THE FIRST OUTPUT ARRAY after the region: the layer's result. -/
theorem final0_5 (c : Dev nD) : (dat0 V c).arrAt 5 cfg0.N = Y0 V c :=
  (dat0 V c).arrAt_eq_of_cover 5 (Y0 V c) (fun t _ => flushed0_5 V c t) (cover0_5' )

/-- The rows of the result that tile row `r` of the second output looks at, and the columns tile column `l` does. -/
def fr0 (r : Fin 64) (p : Fin 2048) : Fin 16384 := ⟨(r.val / 8) * 2048 + p.val, by have := r.isLt; have := p.isLt; omega⟩
def gc0 (l : Fin 512) (q : Fin 512) : Fin 2048 := ⟨(l.val / 128) * 512 + q.val, by have := l.isLt; have := q.isLt; omega⟩

/-- The second output array: each entry the greatest absolute value of its block of the result. -/
def T0 (c : Dev nD) : Arr 64 512 :=
  fun i => blockAbsMax (M := 2048) (N := 512) fun j => Y0 V c (ix2 (fr0 (i 0) (j 0)) (gc0 (i 1) (j 1)))

theorem T0_apply (c : Dev nD) (r : Fin 64) (l : Fin 512) :
    T0 V c (ix2 r l) = blockAbsMax (M := 2048) (N := 512) fun j => Y0 V c (ix2 (fr0 r (j 0)) (gc0 l (j 1))) := rfl

/-- What point `t` writes back through the second output window. -/
theorem flushed0_6 (c : Dev nD) (t : Fin cfg0.N) :
    (dat0 V c).flushed 6 t = ((cfg0.win 6).blk t).view.read (Elt Ideal) (T0 V c) := by
  show (cfg0.win 6).cut (grid0.coords t) ((dat0 V c).after 6 t) = _
  rw [after0_6]
  unfold out0_6
  rw [View.canon_unit_zero hz0]
  simp only [View.ld_unit_zero (S := S1x1) hz0, View.ld_unit_zero (S := S2048x512) hz0, View.ld_unit_zero (S := S512x512) hz0,
    View.ld_unit_zero (S := S1x512) hz0]
  funext j
  obtain ⟨r, l, rfl⟩ : ∃ (r : Fin 8) (l : Fin 128), j = ix2 r l := ⟨j 0, j 1, eq_ix2 j⟩
  obtain ⟨-, -, -, -, -, -, -, -, -, -, e10, e11, b0, b1⟩ := idx_facts0 t
  refine (pay2_0 _ _ _ _ _ r l).trans ?_
  rw [blk0_eq V c t]
  have hR : win0_6.index t (0 : Fin 2) * 8 + r.val < 64 := by have := r.isLt; omega
  have hL : win0_6.index t (1 : Fin 2) * 128 + l.val < 512 := by have := l.isLt; omega
  have hemb : ((cfg0.win 6).blk t).view.emb (ix2 r l) = ix2 (⟨_, hR⟩ : Fin 64) (⟨_, hL⟩ : Fin 512) := by
    funext a; apply Fin.ext
    match a with
    | ⟨0, _⟩ => show win0_6.index t (0 : Fin 2) * 8 + 1 * r.val = win0_6.index t (0 : Fin 2) * 8 + r.val; omega
    | ⟨1, _⟩ => show win0_6.index t (1 : Fin 2) * 128 + 1 * l.val = win0_6.index t (1 : Fin 2) * 128 + l.val; omega
  show _ = T0 V c (((cfg0.win 6).blk t).view.emb (ix2 r l))
  rw [hemb, T0_apply]
  refine blockAbsMax_congr _ _ fun p q => ?_
  show Y0 V c (((cfg0.win 5).blk t).view.emb (ix2 p q)) = Y0 V c (ix2 (fr0 ⟨_, hR⟩ p) (gc0 ⟨_, hL⟩ q))
  refine congrArg _ (emb0_5 t p q _ _ ?_ ?_)
  · show (win0_6.index t (0 : Fin 2) * 8 + r.val) / 8 * 2048 + p.val = _; have := r.isLt; omega
  · show (win0_6.index t (1 : Fin 2) * 128 + l.val) / 128 * 512 + q.val = _; have := l.isLt; omega

theorem idx_onto0_6 : ∀ (q0 : Fin 8) (q1 : Fin 4), ∃ t : Fin cfg0.N, win0_6.index t = ![q0.val, q1.val] :=
  (by decide +kernel : ∀ (q0 : Fin 8) (q1 : Fin 4), ∃ t : Fin grid0.N, win0_6.index t = ![q0.val, q1.val])

theorem mem_blk0_6 (t : Fin cfg0.N) (i : S64x512.Idx) :
    i ∈ ((cfg0.win 6).blk t).view.set ↔ ∀ a : Fin 2, win0_6.index t a * S8x128.size a ≤ (i a).val ∧ (i a).val < win0_6.index t a * S8x128.size a + S8x128.size a := by
  show i ∈ ((View.whole main_v16_1).slice (win0_6.rect t)).set ↔ _
  rw [View.set_slice_whole, Rect.mem_set_unit]
  exact Iff.rfl

theorem cover0_6' (i : S64x512.Idx) :
    ∃ t : Fin cfg0.N, (cfg0.win 6).flush t = true ∧ i ∈ ((cfg0.win 6).blk t).view.set := by
  have hi0 : (i 0).val < 64 := (i 0).isLt
  have hi1 : (i 1).val < 512 := (i 1).isLt
  obtain ⟨t, ht⟩ := idx_onto0_6 ⟨(i 0).val / 8, by omega⟩ ⟨(i 1).val / 128, by omega⟩
  have q0 : win0_6.index t (0 : Fin 2) = (i 0).val / 8 := congrFun ht 0
  have q1 : win0_6.index t (1 : Fin 2) = (i 1).val / 128 := congrFun ht 1
  refine ⟨t, flush0_6 t, ?_⟩
  rw [mem_blk0_6]
  intro a
  match a with
  | ⟨0, _⟩ => show win0_6.index t (0 : Fin 2) * 8 ≤ (i 0).val ∧ (i 0).val < win0_6.index t (0 : Fin 2) * 8 + 8; omega
  | ⟨1, _⟩ => show win0_6.index t (1 : Fin 2) * 128 ≤ (i 1).val ∧ (i 1).val < win0_6.index t (1 : Fin 2) * 128 + 128; omega

/-- THE SECOND OUTPUT ARRAY after the region. -/
theorem final0_6 (c : Dev nD) : (dat0 V c).arrAt 6 cfg0.N = T0 V c :=
  (dat0 V c).arrAt_eq_of_cover 6 (T0 V c) (fun t _ => flushed0_6 V c t) (cover0_6')

/-- The fold of `max` over the second output array is the result's greatest absolute value. -/
theorem T0_fold (c : Dev nD) :
    (Finset.univ : Finset (⟨2, ![64, 512]⟩ : Shape).Idx).fold max ninf (T0 V c) = absMax (Y0 V c) := by
  refine tiles_fold (Y0 V c) (T0 V c) fr0 gc0 (fun r l => T0_apply V c r l) (fun P Q => ?_)
  have hP := P.isLt
  have hQ := Q.isLt
  refine ⟨⟨8 * (P.val / 2048), by omega⟩, ⟨128 * (Q.val / 512), by omega⟩, ⟨P.val % 2048, by omega⟩, ⟨Q.val % 512, by omega⟩,
    Fin.ext ?_, Fin.ext ?_⟩
  · show 8 * (P.val / 2048) / 8 * 2048 + P.val % 2048 = P.val; omega
  · show 128 * (Q.val / 512) / 128 * 512 + Q.val % 512 = Q.val; omega

end Cert.KernelIdeal.KV

end
-- ==== Proof.KerR1.lean ====
/-
  Region 1 (the second layer), at the ideal values: what its two output arrays hold when the region ends, as functions
  of the arrays the region finds.

  The grid is 32 × 4. At point (i, j) the body holds rows 512·i … of the activations (all 2048 columns), rows 512·j … of
  the weight codes, columns 512·j … of the bias row and the two scales, stores block (i, j) (512 × 512) of the layer's
  output and fills tile (i, j) (8 × 128) of the second output with that block's greatest absolute value. The blocks tile
  the arrays, so the first output array ends as the layer's result (`kerL`) and every entry (r, l) of the second as the
  greatest absolute value of block (r / 8, l / 128) of that result.
-/
import proofs.«109104_j3513283248696_2_alg».proof.Proof.Gen.KernelIdeal.Frame
import proofs.«109104_j3513283248696_2_alg».proof.Proof.LibQuantBody

set_option maxRecDepth 16384

noncomputable section

open scoped BigOperators

namespace Cert.KernelIdeal.KV

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.QNet Cert.QBody

variable (V : (c : Dev nD) → (b : Ref sig .tc) → Buf (Elt Ideal) ((c : Thread nD τ).loc b))

theorem hz1 : (![0, 0] : Fin 2 → Nat) = fun _ => 0 := funext fun a => by fin_cases a <;> rfl

/-- The block the body stores, entry (p, q), from what it loads. -/
theorem pay1_1 (v0 v2 : Vec Ideal S1x1 .f32) (v4 : Vec Ideal S512x2048 .f32) (v14 : Vec Ideal S512x2048 .bf16) (v20 : Vec Ideal S1x512 .f32)
    (p : Fin 512) (q : Fin 512) :
    k1_pay1 v0 v2 v4 v14 v20 (ix2 p q)
      = (∑ k : Fin 2048, code (v4 (ix2 p k)) (v0 (ix2 (0 : Fin 1) (0 : Fin 1))) * v14 (ix2 q k))
          * (v0 (ix2 (0 : Fin 1) (0 : Fin 1)) * v2 (ix2 (0 : Fin 1) (0 : Fin 1))) + v20 (ix2 (0 : Fin 1) q) := by
  unfold k1_pay1
  rw [shapeCast_self v4, shapeCast_self v14, extract_unit v0, extract_unit v2]
  exact layer_entry _ v4 v14 v20 _ _ _ _ _ p q

/-- The tile the body stores: every entry is the stored block's greatest absolute value. -/
theorem pay2_1 (v0 v2 : Vec Ideal S1x1 .f32) (v4 : Vec Ideal S512x2048 .f32) (v14 : Vec Ideal S512x2048 .bf16) (v20 : Vec Ideal S1x512 .f32)
    (r : Fin 8) (l : Fin 128) :
    k1_pay2 v0 v2 v4 v14 v20 (ix2 r l) = blockAbsMax (k1_pay1 v0 v2 v4 v14 v20) := by
  unfold k1_pay2
  exact tile_entry _ _ _ _ _ _ _ _ _ _ _ r l

/-- The layer's result, from the arrays the region finds. -/
def Y1 (c : Dev nD) : Arr 16384 2048 :=
  kerL (V c main_v16_0) (V c main_v30) (fun q => V c main_v31 (ix2 (0 : Fin 1) q))
    (V c main_v20 (ix2 (0 : Fin 1) (0 : Fin 1))) (V c main_v25 (ix2 (0 : Fin 1) (0 : Fin 1)))

/-- The printed index maps over the grid: which block of each array a point holds. -/
theorem idx_facts1 : ∀ t : Fin cfg1.N, win1_0.index t (0 : Fin 2) = win1_5.index t (0 : Fin 2)
    ∧ win1_0.index t (1 : Fin 2) = 0
    ∧ win1_1.index t (0 : Fin 2) = win1_5.index t (1 : Fin 2)
    ∧ win1_1.index t (1 : Fin 2) = 0
    ∧ win1_2.index t (0 : Fin 2) = 0
    ∧ win1_2.index t (1 : Fin 2) = win1_5.index t (1 : Fin 2)
    ∧ win1_3.index t (0 : Fin 2) = 0 ∧ win1_3.index t (1 : Fin 2) = 0
    ∧ win1_4.index t (0 : Fin 2) = 0 ∧ win1_4.index t (1 : Fin 2) = 0
    ∧ win1_6.index t (0 : Fin 2) = win1_5.index t (0 : Fin 2)
    ∧ win1_6.index t (1 : Fin 2) = win1_5.index t (1 : Fin 2)
    ∧ win1_5.index t (0 : Fin 2) ≤ 31 ∧ win1_5.index t (1 : Fin 2) ≤ 3 :=
  (by decide +kernel : ∀ t : Fin grid1.N, _)

/-- Every block of the output is some point's. -/
theorem idx_onto1 : ∀ (q0 : Fin 32) (q1 : Fin 4), ∃ t : Fin cfg1.N, win1_5.index t = ![q0.val, q1.val] :=
  (by decide +kernel : ∀ (q0 : Fin 32) (q1 : Fin 4), ∃ t : Fin grid1.N, win1_5.index t = ![q0.val, q1.val])

/-! ## Each input block, read where the output block's rectangle says -/

theorem read1_0 (c : Dev nD) (t : Fin cfg1.N) (p : Fin 512) (k : Fin 2048) (P : Fin 16384)
    (hP : P.val = win1_5.index t (0 : Fin 2) * 512 + p.val) :
    iblk1 V c 0 t (ix2 p k) = V c main_v16_0 (ix2 P k) := by
  obtain ⟨e0, e1, -⟩ := idx_facts1 t
  show V c main_v16_0 (((cfg1.win 0).blk t).view.emb (ix2 p k)) = V c main_v16_0 (ix2 P k)
  refine congrArg _ (funext fun a => Fin.ext ?_)
  match a with
  | ⟨0, _⟩ => show win1_0.index t (0 : Fin 2) * 512 + 1 * p.val = P.val; omega
  | ⟨1, _⟩ => show win1_0.index t (1 : Fin 2) * 2048 + 1 * k.val = k.val; omega

theorem read1_1 (c : Dev nD) (t : Fin cfg1.N) (q : Fin 512) (k : Fin 2048) (Q : Fin 2048)
    (hQ : Q.val = win1_5.index t (1 : Fin 2) * 512 + q.val) :
    iblk1 V c 1 t (ix2 q k) = V c main_v30 (ix2 Q k) := by
  obtain ⟨-, -, e2, e3, -⟩ := idx_facts1 t
  show V c main_v30 (((cfg1.win 1).blk t).view.emb (ix2 q k)) = V c main_v30 (ix2 Q k)
  refine congrArg _ (funext fun a => Fin.ext ?_)
  match a with
  | ⟨0, _⟩ => show win1_1.index t (0 : Fin 2) * 512 + 1 * q.val = Q.val; omega
  | ⟨1, _⟩ => show win1_1.index t (1 : Fin 2) * 2048 + 1 * k.val = k.val; omega

theorem read1_2 (c : Dev nD) (t : Fin cfg1.N) (q : Fin 512) (Q : Fin 2048)
    (hQ : Q.val = win1_5.index t (1 : Fin 2) * 512 + q.val) :
    iblk1 V c 2 t (ix2 (0 : Fin 1) q) = V c main_v31 (ix2 (0 : Fin 1) Q) := by
  obtain ⟨-, -, -, -, e4, e5, -⟩ := idx_facts1 t
  show V c main_v31 (((cfg1.win 2).blk t).view.emb (ix2 (0 : Fin 1) q)) = V c main_v31 (ix2 (0 : Fin 1) Q)
  refine congrArg _ (funext fun a => Fin.ext ?_)
  match a with
  | ⟨0, _⟩ => show win1_2.index t (0 : Fin 2) * 1 + 1 * 0 = 0; omega
  | ⟨1, _⟩ => show win1_2.index t (1 : Fin 2) * 512 + 1 * q.val = Q.val; omega

theorem read1_3 (c : Dev nD) (t : Fin cfg1.N) :
    iblk1 V c 3 t (ix2 (0 : Fin 1) (0 : Fin 1)) = V c main_v20 (ix2 (0 : Fin 1) (0 : Fin 1)) := by
  obtain ⟨-, -, -, -, -, -, e6, e7, -⟩ := idx_facts1 t
  show V c main_v20 (((cfg1.win 3).blk t).view.emb (ix2 (0 : Fin 1) (0 : Fin 1))) = V c main_v20 (ix2 (0 : Fin 1) (0 : Fin 1))
  refine congrArg _ (funext fun a => Fin.ext ?_)
  match a with
  | ⟨0, _⟩ => show win1_3.index t (0 : Fin 2) * 1 + 1 * 0 = 0; omega
  | ⟨1, _⟩ => show win1_3.index t (1 : Fin 2) * 1 + 1 * 0 = 0; omega

theorem read1_4 (c : Dev nD) (t : Fin cfg1.N) :
    iblk1 V c 4 t (ix2 (0 : Fin 1) (0 : Fin 1)) = V c main_v25 (ix2 (0 : Fin 1) (0 : Fin 1)) := by
  obtain ⟨-, -, -, -, -, -, -, -, e8, e9, -⟩ := idx_facts1 t
  show V c main_v25 (((cfg1.win 4).blk t).view.emb (ix2 (0 : Fin 1) (0 : Fin 1))) = V c main_v25 (ix2 (0 : Fin 1) (0 : Fin 1))
  refine congrArg _ (funext fun a => Fin.ext ?_)
  match a with
  | ⟨0, _⟩ => show win1_4.index t (0 : Fin 2) * 1 + 1 * 0 = 0; omega
  | ⟨1, _⟩ => show win1_4.index t (1 : Fin 2) * 1 + 1 * 0 = 0; omega

/-- Where entry (p, q) of point `t`'s output block sits in the output array. -/
theorem emb1_5 (t : Fin cfg1.N) (p : Fin 512) (q : Fin 512) (P : Fin 16384) (Q : Fin 2048)
    (hP : P.val = win1_5.index t (0 : Fin 2) * 512 + p.val) (hQ : Q.val = win1_5.index t (1 : Fin 2) * 512 + q.val) :
    ((cfg1.win 5).blk t).view.emb (ix2 p q) = ix2 P Q := by
  funext a; apply Fin.ext
  match a with
  | ⟨0, _⟩ => show win1_5.index t (0 : Fin 2) * 512 + 1 * p.val = P.val; omega
  | ⟨1, _⟩ => show win1_5.index t (1 : Fin 2) * 512 + 1 * q.val = Q.val; omega

/-- THE BLOCK A POINT STORES is its block of the layer's result. -/
theorem blk1_eq (c : Dev nD) (t : Fin cfg1.N) :
    k1_pay1 (iblk1 V c 3 t) (iblk1 V c 4 t) (iblk1 V c 0 t) (iblk1 V c 1 t) (iblk1 V c 2 t)
      = ((cfg1.win 5).blk t).view.read (Elt Ideal) (Y1 V c) := by
  funext j
  obtain ⟨p, q, rfl⟩ : ∃ (p : Fin 512) (q : Fin 512), j = ix2 p q := ⟨j 0, j 1, eq_ix2 j⟩
  obtain ⟨-, -, -, -, -, -, -, -, -, -, -, -, b0, b1⟩ := idx_facts1 t
  have hP : win1_5.index t (0 : Fin 2) * 512 + p.val < 16384 := by have := p.isLt; omega
  have hQ : win1_5.index t (1 : Fin 2) * 512 + q.val < 2048 := by have := q.isLt; omega
  refine (pay1_1 _ _ _ _ _ p q).trans ?_
  show _ = Y1 V c (((cfg1.win 5).blk t).view.emb (ix2 p q))
  rw [emb1_5 t p q ⟨_, hP⟩ ⟨_, hQ⟩ rfl rfl]
  unfold Y1
  rw [kerL_apply, read1_3 V c t, read1_4 V c t, read1_2 V c t q ⟨_, hQ⟩ rfl]
  refine congrArg (fun z => z * _ + _) (Finset.sum_congr rfl fun k _ => ?_)
  rw [read1_0 V c t p k ⟨_, hP⟩ rfl, read1_1 V c t q k ⟨_, hQ⟩ rfl]

/-- What point `t` writes back through the first output window. -/
theorem flushed1_5 (c : Dev nD) (t : Fin cfg1.N) :
    (dat1 V c).flushed 5 t = ((cfg1.win 5).blk t).view.read (Elt Ideal) (Y1 V c) := by
  show (cfg1.win 5).cut (grid1.coords t) ((dat1 V c).after 5 t) = _
  rw [after1_5]
  unfold out1_5
  rw [View.canon_unit_zero hz1]
  simp only [View.ld_unit_zero (S := S1x1) hz1, View.ld_unit_zero (S := S512x2048) hz1, View.ld_unit_zero (S := S1x512) hz1]
  exact blk1_eq V c t

/-! ## From blocks to the arrays -/

/-- An index of the first output array is in point `t`'s block iff each coordinate is in the block's range. -/
theorem mem_blk1_5 (t : Fin cfg1.N) (i : S16384x2048.Idx) :
    i ∈ ((cfg1.win 5).blk t).view.set ↔ ∀ a : Fin 2, win1_5.index t a * S512x512.size a ≤ (i a).val ∧ (i a).val < win1_5.index t a * S512x512.size a + S512x512.size a := by
  show i ∈ ((View.whole main_v32_0).slice (win1_5.rect t)).set ↔ _
  rw [View.set_slice_whole, Rect.mem_set_unit]
  exact Iff.rfl

/-- Every index of the first output array is in some point's block. -/
theorem cover1_5' (i : S16384x2048.Idx) :
    ∃ t : Fin cfg1.N, (cfg1.win 5).flush t = true ∧ i ∈ ((cfg1.win 5).blk t).view.set := by
  have hi0 : (i 0).val < 16384 := (i 0).isLt
  have hi1 : (i 1).val < 2048 := (i 1).isLt
  obtain ⟨t, ht⟩ := idx_onto1 ⟨(i 0).val / 512, by omega⟩ ⟨(i 1).val / 512, by omega⟩
  have q0 : win1_5.index t (0 : Fin 2) = (i 0).val / 512 := congrFun ht 0
  have q1 : win1_5.index t (1 : Fin 2) = (i 1).val / 512 := congrFun ht 1
  refine ⟨t, flush1_5 t, ?_⟩
  rw [mem_blk1_5]
  intro a
  match a with
  | ⟨0, _⟩ => show win1_5.index t (0 : Fin 2) * 512 ≤ (i 0).val ∧ (i 0).val < win1_5.index t (0 : Fin 2) * 512 + 512; omega
  | ⟨1, _⟩ => show win1_5.index t (1 : Fin 2) * 512 ≤ (i 1).val ∧ (i 1).val < win1_5.index t (1 : Fin 2) * 512 + 512; omega

/-- THE FIRST OUTPUT ARRAY after the region: the layer's result. -/
theorem final1_5 (c : Dev nD) : (dat1 V c).arrAt 5 cfg1.N = Y1 V c :=
  (dat1 V c).arrAt_eq_of_cover 5 (Y1 V c) (fun t _ => flushed1_5 V c t) (cover1_5')

/-- The rows of the result that tile row `r` of the second output looks at, and the columns tile column `l` does. -/
def fr1 (r : Fin 256) (p : Fin 512) : Fin 16384 := ⟨(r.val / 8) * 512 + p.val, by have := r.isLt; have := p.isLt; omega⟩
def gc1 (l : Fin 512) (q : Fin 512) : Fin 2048 := ⟨(l.val / 128) * 512 + q.val, by have := l.isLt; have := q.isLt; omega⟩

/-- The second output array: each entry the greatest absolute value of its block of the result. -/
def T1 (c : Dev nD) : Arr 256 512 :=
  fun i => blockAbsMax (M := 512) (N := 512) fun j => Y1 V c (ix2 (fr1 (i 0) (j 0)) (gc1 (i 1) (j 1)))

theorem T1_apply (c : Dev nD) (r : Fin 256) (l : Fin 512) :
    T1 V c (ix2 r l) = blockAbsMax (M := 512) (N := 512) fun j => Y1 V c (ix2 (fr1 r (j 0)) (gc1 l (j 1))) := rfl

/-- What point `t` writes back through the second output window. -/
theorem flushed1_6 (c : Dev nD) (t : Fin cfg1.N) :
    (dat1 V c).flushed 6 t = ((cfg1.win 6).blk t).view.read (Elt Ideal) (T1 V c) := by
  show (cfg1.win 6).cut (grid1.coords t) ((dat1 V c).after 6 t) = _
  rw [after1_6]
  unfold out1_6
  rw [View.canon_unit_zero hz1]
  simp only [View.ld_unit_zero (S := S1x1) hz1, View.ld_unit_zero (S := S512x2048) hz1, View.ld_unit_zero (S := S1x512) hz1]
  funext j
  obtain ⟨r, l, rfl⟩ : ∃ (r : Fin 8) (l : Fin 128), j = ix2 r l := ⟨j 0, j 1, eq_ix2 j⟩
  obtain ⟨-, -, -, -, -, -, -, -, -, -, e10, e11, b0, b1⟩ := idx_facts1 t
  refine (pay2_1 _ _ _ _ _ r l).trans ?_
  rw [blk1_eq V c t]
  have hR : win1_6.index t (0 : Fin 2) * 8 + r.val < 256 := by have := r.isLt; omega
  have hL : win1_6.index t (1 : Fin 2) * 128 + l.val < 512 := by have := l.isLt; omega
  have hemb : ((cfg1.win 6).blk t).view.emb (ix2 r l) = ix2 (⟨_, hR⟩ : Fin 256) (⟨_, hL⟩ : Fin 512) := by
    funext a; apply Fin.ext
    match a with
    | ⟨0, _⟩ => show win1_6.index t (0 : Fin 2) * 8 + 1 * r.val = win1_6.index t (0 : Fin 2) * 8 + r.val; omega
    | ⟨1, _⟩ => show win1_6.index t (1 : Fin 2) * 128 + 1 * l.val = win1_6.index t (1 : Fin 2) * 128 + l.val; omega
  show _ = T1 V c (((cfg1.win 6).blk t).view.emb (ix2 r l))
  rw [hemb, T1_apply]
  refine blockAbsMax_congr _ _ fun p q => ?_
  show Y1 V c (((cfg1.win 5).blk t).view.emb (ix2 p q)) = Y1 V c (ix2 (fr1 ⟨_, hR⟩ p) (gc1 ⟨_, hL⟩ q))
  refine congrArg _ (emb1_5 t p q _ _ ?_ ?_)
  · show (win1_6.index t (0 : Fin 2) * 8 + r.val) / 8 * 512 + p.val = _; have := r.isLt; omega
  · show (win1_6.index t (1 : Fin 2) * 128 + l.val) / 128 * 512 + q.val = _; have := l.isLt; omega

theorem idx_onto1_6 : ∀ (q0 : Fin 32) (q1 : Fin 4), ∃ t : Fin cfg1.N, win1_6.index t = ![q0.val, q1.val] :=
  (by decide +kernel : ∀ (q0 : Fin 32) (q1 : Fin 4), ∃ t : Fin grid1.N, win1_6.index t = ![q0.val, q1.val])

theorem mem_blk1_6 (t : Fin cfg1.N) (i : S256x512.Idx) :
    i ∈ ((cfg1.win 6).blk t).view.set ↔ ∀ a : Fin 2, win1_6.index t a * S8x128.size a ≤ (i a).val ∧ (i a).val < win1_6.index t a * S8x128.size a + S8x128.size a := by
  show i ∈ ((View.whole main_v32_1).slice (win1_6.rect t)).set ↔ _
  rw [View.set_slice_whole, Rect.mem_set_unit]
  exact Iff.rfl

theorem cover1_6' (i : S256x512.Idx) :
    ∃ t : Fin cfg1.N, (cfg1.win 6).flush t = true ∧ i ∈ ((cfg1.win 6).blk t).view.set := by
  have hi0 : (i 0).val < 256 := (i 0).isLt
  have hi1 : (i 1).val < 512 := (i 1).isLt
  obtain ⟨t, ht⟩ := idx_onto1_6 ⟨(i 0).val / 8, by omega⟩ ⟨(i 1).val / 128, by omega⟩
  have q0 : win1_6.index t (0 : Fin 2) = (i 0).val / 8 := congrFun ht 0
  have q1 : win1_6.index t (1 : Fin 2) = (i 1).val / 128 := congrFun ht 1
  refine ⟨t, flush1_6 t, ?_⟩
  rw [mem_blk1_6]
  intro a
  match a with
  | ⟨0, _⟩ => show win1_6.index t (0 : Fin 2) * 8 ≤ (i 0).val ∧ (i 0).val < win1_6.index t (0 : Fin 2) * 8 + 8; omega
  | ⟨1, _⟩ => show win1_6.index t (1 : Fin 2) * 128 ≤ (i 1).val ∧ (i 1).val < win1_6.index t (1 : Fin 2) * 128 + 128; omega

/-- THE SECOND OUTPUT ARRAY after the region. -/
theorem final1_6 (c : Dev nD) : (dat1 V c).arrAt 6 cfg1.N = T1 V c :=
  (dat1 V c).arrAt_eq_of_cover 6 (T1 V c) (fun t _ => flushed1_6 V c t) (cover1_6')

/-- The fold of `max` over the second output array is the result's greatest absolute value. -/
theorem T1_fold (c : Dev nD) :
    (Finset.univ : Finset (⟨2, ![256, 512]⟩ : Shape).Idx).fold max ninf (T1 V c) = absMax (Y1 V c) := by
  refine tiles_fold (Y1 V c) (T1 V c) fr1 gc1 (fun r l => T1_apply V c r l) (fun P Q => ?_)
  have hP := P.isLt
  have hQ := Q.isLt
  refine ⟨⟨8 * (P.val / 512), by omega⟩, ⟨128 * (Q.val / 512), by omega⟩, ⟨P.val % 512, by omega⟩, ⟨Q.val % 512, by omega⟩,
    Fin.ext ?_, Fin.ext ?_⟩
  · show 8 * (P.val / 512) / 8 * 512 + P.val % 512 = P.val; omega
  · show 128 * (Q.val / 512) / 128 * 512 + Q.val % 512 = Q.val; omega

end Cert.KernelIdeal.KV

end
-- ==== Proof.KerR2.lean ====
/-
  Region 2 (the third layer), at the ideal values: what its first output array holds when the region ends, as a
  function of the arrays the region finds.

  The grid is 64 × 1. At point (i, 0) the body holds rows 256·i … of the activations (all 2048 columns), all 512 rows of
  the weight codes, the whole bias row and the two scales, and stores block (i, 0) (256 × 512) of the layer's output. The
  blocks tile the array, so it ends as the layer's result (`kerL`). (The second output, the tiles of greatest absolute
  values, is not read by anything after this region.)
-/
import proofs.«109104_j3513283248696_2_alg».proof.Proof.Gen.KernelIdeal.Frame
import proofs.«109104_j3513283248696_2_alg».proof.Proof.LibQuantBody

set_option maxRecDepth 16384

noncomputable section

open scoped BigOperators

namespace Cert.KernelIdeal.KV

open Cert.KernelIdeal Cert.KernelIdeal.Gen
open Idealize.ShloMosaic Idealize.ShloMosaic.TcCoe Idealize.ShloMosaic.ValueIdx Idealize.SL.Sem
open Idealize.ShloMosaic.Pipeline (Dat Cfg Window)
open Cert.QNet Cert.QBody

variable (V : (c : Dev nD) → (b : Ref sig .tc) → Buf (Elt Ideal) ((c : Thread nD τ).loc b))

theorem hz2 : (![0, 0] : Fin 2 → Nat) = fun _ => 0 := funext fun a => by fin_cases a <;> rfl

/-- The block the body stores, entry (p, q), from what it loads. -/
theorem pay1_2 (v0 v2 : Vec Ideal S1x1 .f32) (v4 : Vec Ideal S256x2048 .f32) (v14 : Vec Ideal S512x2048 .bf16) (v20 : Vec Ideal S1x512 .f32)
    (p : Fin 256) (q : Fin 512) :
    k2_pay1 v0 v2 v4 v14 v20 (ix2 p q)
      = (∑ k : Fin 2048, code (v4 (ix2 p k)) (v0 (ix2 (0 : Fin 1) (0 : Fin 1))) * v14 (ix2 q k))
          * (v0 (ix2 (0 : Fin 1) (0 : Fin 1)) * v2 (ix2 (0 : Fin 1) (0 : Fin 1))) + v20 (ix2 (0 : Fin 1) q) := by
  unfold k2_pay1
  rw [shapeCast_self v4, shapeCast_self v14, extract_unit v0, extract_unit v2]
  exact layer_entry _ v4 v14 v20 _ _ _ _ _ p q

/-- The layer's result, from the arrays the region finds. -/
def Y2 (c : Dev nD) : Arr 16384 512 :=
  kerL (V c main_v32_0) (V c main_v46) (fun q => V c main_v47 (ix2 (0 : Fin 1) q))
    (V c main_v36 (ix2 (0 : Fin 1) (0 : Fin 1))) (V c main_v41 (ix2 (0 : Fin 1) (0 : Fin 1)))

/-- The printed index maps over the grid: which block of each array a point holds. -/
theorem idx_facts2 : ∀ t : Fin cfg2.N, win2_0.index t (0 : Fin 2) = win2_5.index t (0 : Fin 2)
    ∧ win2_0.index t (1 : Fin 2) = 0
    ∧ win2_1.index t (0 : Fin 2) = win2_5.index t (1 : Fin 2)
    ∧ win2_1.index t (1 : Fin 2) = 0
    ∧ win2_2.index t (0 : Fin 2) = 0
    ∧ win2_2.index t (1 : Fin 2) = win2_5.index t (1 : Fin 2)
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) ≤ 63 ∧ win2_5.index t (1 : Fin 2) ≤ 0 :=
  (by decide +kernel : ∀ t : Fin grid2.N, _)

/-- Every block of the output is some point's. -/
theorem idx_onto2 : ∀ (q0 : Fin 64) (q1 : Fin 1), ∃ t : Fin cfg2.N, win2_5.index t = ![q0.val, q1.val] :=
  (by decide +kernel : ∀ (q0 : Fin 64) (q1 : Fin 1), ∃ t : Fin grid2.N, win2_5.index t = ![q0.val, q1.val])

/-! ## Each input block, read where the output block's rectangle says -/

theorem read2_0 (c : Dev nD) (t : Fin cfg2.N) (p : Fin 256) (k : Fin 2048) (P : Fin 16384)
    (hP : P.val = win2_5.index t (0 : Fin 2) * 256 + p.val) :
    iblk2 V c 0 t (ix2 p k) = V c main_v32_0 (ix2 P k) := by
  obtain ⟨e0, e1, -⟩ := idx_facts2 t
  show V c main_v32_0 (((cfg2.win 0).blk t).view.emb (ix2 p k)) = V c main_v32_0 (ix2 P k)
  refine congrArg _ (funext fun a => Fin.ext ?_)
  match a with
  | ⟨0, _⟩ => show win2_0.index t (0 : Fin 2) * 256 + 1 * p.val = P.val; omega
  | ⟨1, _⟩ => show win2_0.index t (1 : Fin 2) * 2048 + 1 * k.val = k.val; omega

theorem read2_1 (c : Dev nD) (t : Fin cfg2.N) (q : Fin 512) (k : Fin 2048) (Q : Fin 512)
    (hQ : Q.val = win2_5.index t (1 : Fin 2) * 512 + q.val) :
    iblk2 V c 1 t (ix2 q k) = V c main_v46 (ix2 Q k) := by
  obtain ⟨-, -, e2, e3, -⟩ := idx_facts2 t
  show V c main_v46 (((cfg2.win 1).blk t).view.emb (ix2 q k)) = V c main_v46 (ix2 Q k)
  refine congrArg _ (funext fun a => Fin.ext ?_)
  match a with
  | ⟨0, _⟩ => show win2_1.index t (0 : Fin 2) * 512 + 1 * q.val = Q.val; omega
  | ⟨1, _⟩ => show win2_1.index t (1 : Fin 2) * 2048 + 1 * k.val = k.val; omega

theorem read2_2 (c : Dev nD) (t : Fin cfg2.N) (q : Fin 512) (Q : Fin 512)
    (hQ : Q.val = win2_5.index t (1 : Fin 2) * 512 + q.val) :
    iblk2 V c 2 t (ix2 (0 : Fin 1) q) = V c main_v47 (ix2 (0 : Fin 1) Q) := by
  obtain ⟨-, -, -, -, e4, e5, -⟩ := idx_facts2 t
  show V c main_v47 (((cfg2.win 2).blk t).view.emb (ix2 (0 : Fin 1) q)) = V c main_v47 (ix2 (0 : Fin 1) Q)
  refine congrArg _ (funext fun a => Fin.ext ?_)
  match a with
  | ⟨0, _⟩ => show win2_2.index t (0 : Fin 2) * 1 + 1 * 0 = 0; omega
  | ⟨1, _⟩ => show win2_2.index t (1 : Fin 2) * 512 + 1 * q.val = Q.val; omega

theorem read2_3 (c : Dev nD) (t : Fin cfg2.N) :
    iblk2 V c 3 t (ix2 (0 : Fin 1) (0 : Fin 1)) = V c main_v36 (ix2 (0 : Fin 1) (0 : Fin 1)) := by
  obtain ⟨-, -, -, -, -, -, e6, e7, -⟩ := idx_facts2 t
  show V c main_v36 (((cfg2.win 3).blk t).view.emb (ix2 (0 : Fin 1) (0 : Fin 1))) = V c main_v36 (ix2 (0 : Fin 1) (0 : Fin 1))
  refine congrArg _ (funext fun a => Fin.ext ?_)
  match a with
  | ⟨0, _⟩ => show win2_3.index t (0 : Fin 2) * 1 + 1 * 0 = 0; omega
  | ⟨1, _⟩ => show win2_3.index t (1 : Fin 2) * 1 + 1 * 0 = 0; omega

theorem read2_4 (c : Dev nD) (t : Fin cfg2.N) :
    iblk2 V c 4 t (ix2 (0 : Fin 1) (0 : Fin 1)) = V c main_v41 (ix2 (0 : Fin 1) (0 : Fin 1)) := by
  obtain ⟨-, -, -, -, -, -, -, -, e8, e9, -⟩ := idx_facts2 t
  show V c main_v41 (((cfg2.win 4).blk t).view.emb (ix2 (0 : Fin 1) (0 : Fin 1))) = V c main_v41 (ix2 (0 : Fin 1) (0 : Fin 1))
  refine congrArg _ (funext fun a => Fin.ext ?_)
  match a with
  | ⟨0, _⟩ => show win2_4.index t (0 : Fin 2) * 1 + 1 * 0 = 0; omega
  | ⟨1, _⟩ => show win2_4.index t (1 : Fin 2) * 1 + 1 * 0 = 0; omega

/-- Where entry (p, q) of point `t`'s output block sits in the output array. -/
theorem emb2_5 (t : Fin cfg2.N) (p : Fin 256) (q : Fin 512) (P : Fin 16384) (Q : Fin 512)
    (hP : P.val = win2_5.index t (0 : Fin 2) * 256 + p.val) (hQ : Q.val = win2_5.index t (1 : Fin 2) * 512 + q.val) :
    ((cfg2.win 5).blk t).view.emb (ix2 p q) = ix2 P Q := by
  funext a; apply Fin.ext
  match a with
  | ⟨0, _⟩ => show win2_5.index t (0 : Fin 2) * 256 + 1 * p.val = P.val; omega
  | ⟨1, _⟩ => show win2_5.index t (1 : Fin 2) * 512 + 1 * q.val = Q.val; omega

/-- THE BLOCK A POINT STORES is its block of the layer's result. -/
theorem blk2_eq (c : Dev nD) (t : Fin cfg2.N) :
    k2_pay1 (iblk2 V c 3 t) (iblk2 V c 4 t) (iblk2 V c 0 t) (iblk2 V c 1 t) (iblk2 V c 2 t)
      = ((cfg2.win 5).blk t).view.read (Elt Ideal) (Y2 V c) := by
  funext j
  obtain ⟨p, q, rfl⟩ : ∃ (p : Fin 256) (q : Fin 512), j = ix2 p q := ⟨j 0, j 1, eq_ix2 j⟩
  obtain ⟨-, -, -, -, -, -, -, -, -, -, b0, b1⟩ := idx_facts2 t
  have hP : win2_5.index t (0 : Fin 2) * 256 + p.val < 16384 := by have := p.isLt; omega
  have hQ : win2_5.index t (1 : Fin 2) * 512 + q.val < 512 := by have := q.isLt; omega
  refine (pay1_2 _ _ _ _ _ p q).trans ?_
  show _ = Y2 V c (((cfg2.win 5).blk t).view.emb (ix2 p q))
  rw [emb2_5 t p q ⟨_, hP⟩ ⟨_, hQ⟩ rfl rfl]
  unfold Y2
  rw [kerL_apply, read2_3 V c t, read2_4 V c t, read2_2 V c t q ⟨_, hQ⟩ rfl]
  refine congrArg (fun z => z * _ + _) (Finset.sum_congr rfl fun k _ => ?_)
  rw [read2_0 V c t p k ⟨_, hP⟩ rfl, read2_1 V c t q k ⟨_, hQ⟩ rfl]

/-- What point `t` writes back through the first output window. -/
theorem flushed2_5 (c : Dev nD) (t : Fin cfg2.N) :
    (dat2 V c).flushed 5 t = ((cfg2.win 5).blk t).view.read (Elt Ideal) (Y2 V c) := by
  show (cfg2.win 5).cut (grid2.coords t) ((dat2 V c).after 5 t) = _
  rw [after2_5]
  unfold out2_5
  rw [View.canon_unit_zero hz2]
  simp only [View.ld_unit_zero (S := S1x1) hz2, View.ld_unit_zero (S := S256x2048) hz2, View.ld_unit_zero (S := S512x2048) hz2,
    View.ld_unit_zero (S := S1x512) hz2]
  exact blk2_eq V c t

/-! ## From blocks to the array -/

/-- An index of the output array is in point `t`'s block iff each coordinate is in the block's range. -/
theorem mem_blk2_5 (t : Fin cfg2.N) (i : S16384x512.Idx) :
    i ∈ ((cfg2.win 5).blk t).view.set ↔ ∀ a : Fin 2, win2_5.index t a * S256x512.size a ≤ (i a).val ∧ (i a).val < win2_5.index t a * S256x512.size a + S256x512.size a := by
  show i ∈ ((View.whole main_v48_0).slice (win2_5.rect t)).set ↔ _
  rw [View.set_slice_whole, Rect.mem_set_unit]
  exact Iff.rfl

/-- Every index of the output array is in some point's block. -/
theorem cover2_5' (i : S16384x512.Idx) :
    ∃ t : Fin cfg2.N, (cfg2.win 5).flush t = true ∧ i ∈ ((cfg2.win 5).blk t).view.set := by
  have hi0 : (i 0).val < 16384 := (i 0).isLt
  have hi1 : (i 1).val < 512 := (i 1).isLt
  obtain ⟨t, ht⟩ := idx_onto2 ⟨(i 0).val / 256, by omega⟩ ⟨(i 1).val / 512, by omega⟩
  have q0 : win2_5.index t (0 : Fin 2) = (i 0).val / 256 := congrFun ht 0
  have q1 : win2_5.index t (1 : Fin 2) = (i 1).val / 512 := congrFun ht 1
  refine ⟨t, flush2_5 t, ?_⟩
  rw [mem_blk2_5]
  intro a
  match a with
  | ⟨0, _⟩ => show win2_5.index t (0 : Fin 2) * 256 ≤ (i 0).val ∧ (i 0).val < win2_5.index t (0 : Fin 2) * 256 + 256; omega
  | ⟨1, _⟩ => show win2_5.index t (1 : Fin 2) * 512 ≤ (i 1).val ∧ (i 1).val < win2_5.index t (1 : Fin 2) * 512 + 512; omega

/-- THE OUTPUT ARRAY after the region: the layer's result. -/
theorem final2_5 (c : Dev nD) : (dat2 V c).arrAt 5 cfg2.N = Y2 V c :=
  (dat2 V c).arrAt_eq_of_cover 5 (Y2 V c) (fun t _ => flushed2_5 V c t) (cover2_5')

end Cert.KernelIdeal.KV

end
-- ==== Proof.LibSpread.lean ====
/-
  Spread and column forms of small arrays, read at an entry.

  * A scalar constant spread over any shape reads the constant's value (`splat_apply`).
  * A vector of length `M` made an `M × 1` column reads the vector (`col_apply`); spread further along `N` lanes it reads,
    at `(p, q)`, the vector at `p` (`colSpread_apply`).
  * An `M × 1` column, or a `1 × M` row, read back as a vector (`colVec_apply`, `rowVec_apply`).
  * Row 0 of a `2 × M` table of words, sliced off, read as a vector and made a column, is the column `srcCol` of the
    table's first row (`srcCol_eq`) — the index column of a scatter or gather keyed by an edge list's source row.
-/
import Idealize.ShloMosaic.Lib.ValueIdx
import Idealize.ShloMosaic.Lib.Pipeline.Value
import Idealize.ShloMosaic.PureOps.Ideal.Laws

noncomputable section

namespace Cert.Lib.Spread

open Idealize.ShloMosaic Idealize.ShloMosaic.ValueIdx

variable {α : Type} {M N : Nat}

/-- A scalar constant spread over any shape reads the constant's value. -/
theorem splat_apply {s : Shape} (h : (⟨0, ![]⟩ : Shape).BroadcastsInDim s (![] : Fin 0 → Fin s.rank))
    (w : BitVec 32) (i : s.Idx) :
    broadcastInDim s ![] h (constant (F := Ideal) ⟨0, ![]⟩ .f32 w) i = Ideal.ofBits .f32 w := by
  rw [broadcastInDim_apply _ h _ i (fun a => a.elim0) (fun a => a.elim0), constant_apply]

/-- A vector of length `M` made a column and spread along `N` lanes reads, at `(p, q)`, the vector at `p`. -/
theorem colSpread_apply (v : (⟨1, ![M]⟩ : Shape).Idx → α)
    (h1 : (⟨1, ![M]⟩ : Shape).BroadcastsInDim ⟨2, ![M, 1]⟩ (![0] : Fin 1 → Fin 2))
    (h2 : (⟨2, ![M, 1]⟩ : Shape).BroadcastsInDim ⟨2, ![M, N]⟩ (![0, 1] : Fin 2 → Fin 2)) (p : Fin M) (q : Fin N) :
    broadcastInDim ⟨2, ![M, N]⟩ ![0, 1] h2 (broadcastInDim ⟨2, ![M, 1]⟩ ![0] h1 v) (ix2 p q) = v (ix1 p) := by
  refine (broadcastInDim_apply _ h2 _ (ix2 p q) (ix2 p (0 : Fin 1)) (fun a => ?_)).trans ?_
  · match a with
    | ⟨0, _⟩ =>
      show p.val = if M = 1 then 0 else p.val
      split
      · have := p.isLt; omega
      · rfl
    | ⟨1, _⟩ => exact (if_pos rfl).symm
  · refine broadcastInDim_apply _ h1 v (ix2 p (0 : Fin 1)) (ix1 p) (fun a => ?_)
    match a with
    | ⟨0, _⟩ =>
      show p.val = if M = 1 then 0 else p.val
      split
      · have := p.isLt; omega
      · rfl

/-- A vector of length `M` made a column reads, at `(e, 0)`, the vector at `e`. -/
theorem col_apply (v : (⟨1, ![M]⟩ : Shape).Idx → α)
    (h1 : (⟨1, ![M]⟩ : Shape).BroadcastsInDim ⟨2, ![M, 1]⟩ (![0] : Fin 1 → Fin 2)) (e : Fin M) :
    broadcastInDim ⟨2, ![M, 1]⟩ ![0] h1 v (ix2 e (0 : Fin 1)) = v (ix1 e) := by
  refine broadcastInDim_apply _ h1 v (ix2 e (0 : Fin 1)) (ix1 e) (fun a => ?_)
  match a with
  | ⟨0, _⟩ =>
    show e.val = if M = 1 then 0 else e.val
    split
    · have := e.isLt; omega
    · rfl

/-- An `M × 1` column read back as a vector reads, at `p`, the column at `(p, 0)`. -/
theorem colVec_apply (v : (⟨2, ![M, 1]⟩ : Shape).Idx → α) (h : (⟨2, ![M, 1]⟩ : Shape).ShapeCasts ⟨1, ![M]⟩) (p : Fin M) :
    shapeCast ⟨1, ![M]⟩ v h (ix1 p) = v (ix2 p (0 : Fin 1)) :=
  shapeCast_apply v h (ix1 p) (ix2 p (0 : Fin 1)) (by
    rw [Shape.rowMajor_val_one, Shape.rowMajor_val_two]
    show p.val * 1 + 0 = p.val
    omega)

/-- A `1 × M` row read back as a vector reads, at `e`, the row at `(0, e)`. -/
theorem rowVec_apply (v : (⟨2, ![1, M]⟩ : Shape).Idx → α) (h : (⟨2, ![1, M]⟩ : Shape).ShapeCasts ⟨1, ![M]⟩) (e : Fin M) :
    shapeCast ⟨1, ![M]⟩ v h (ix1 e) = v (ix2 (0 : Fin 1) e) :=
  shapeCast_apply v h (ix1 e) (ix2 (0 : Fin 1) e) (by
    rw [Shape.rowMajor_val_one, Shape.rowMajor_val_two]
    show 0 * M + e.val = e.val
    omega)

/-- The column of source words: row 0 of the `2 × M` edge index, one word per edge. -/
def srcCol (EI : (⟨2, ![2, M]⟩ : Shape).Idx → BitVec 32) : (⟨2, ![M, 1]⟩ : Shape).Idx → BitVec 32 :=
  fun i => EI (ix2 (0 : Fin 2) ⟨(i 0).val, (i 0).isLt⟩)

/-- Slicing row 0 off the edge index, reading it as a vector and making that a column gives `srcCol`. -/
theorem srcCol_eq (EI : (⟨2, ![2, M]⟩ : Shape).Idx → BitVec 32)
    (hs : (⟨2, ![2, M]⟩ : Shape).Slices ![0, 0] ⟨2, ![1, M]⟩) (hc : (⟨2, ![1, M]⟩ : Shape).ShapeCasts ⟨1, ![M]⟩)
    (h1 : (⟨1, ![M]⟩ : Shape).BroadcastsInDim ⟨2, ![M, 1]⟩ (![0] : Fin 1 → Fin 2)) :
    broadcastInDim ⟨2, ![M, 1]⟩ ![0] h1 (shapeCast ⟨1, ![M]⟩ (extractStridedSlice ⟨2, ![1, M]⟩ ![0, 0] EI hs) hc)
      = srcCol EI := by
  funext i
  obtain ⟨e, z, rfl⟩ : ∃ (e : Fin M) (z : Fin 1), i = ix2 e z := ⟨i 0, i 1, eq_ix2 i⟩
  obtain rfl : z = 0 := Subsingleton.elim _ _
  rw [col_apply, rowVec_apply]
  exact extractStridedSlice_apply ![0, 0] EI hs (ix2 (0 : Fin 1) e) (ix2 (0 : Fin 2) e) (fun a => by
    match a with
    | ⟨0, _⟩ => rfl
    | ⟨1, _⟩ => show e.val = 0 + e.val; omega)

end Cert.Lib.Spread

end
-- ==== Proof.KerHost.lean ====
/-
  The host operations of the three-layer quantised program, between its three launched regions, read at the ideal
  instance.

  Before each region the host prepares four things. The scale of the activations: for the first layer, the greatest
  absolute value of the input over 127, against the smallest scale allowed; for the later layers the same from an array
  that already holds maxima of absolute values (no absolute value is taken again). The scale of the weights, likewise
  from the weight array. The weight codes: each weight over the weights' scale, rounded, held between −128 and 127 (a
  change of format afterwards is the identity on the extended reals). And the bias, laid out as one row.

  A maximum over every axis into a result with a single index folds `max` over all indices of the array. A scalar
  recast as a 1 × 1 array reads, at its one index, the scalar; a 1 × 1 array spread over an M × K array reads its one
  entry everywhere; a scalar constant spread over any shape reads the constant. With these the scale stages at index
  (0, 0) are the array's scale, and the code stages at an index are the entry's code at the array's scale.

  A buffer that no host operation of a stretch writes holds after the stretch what it held before.
-/
import proofs.«109104_j3513283248696_2_alg».proof.Proof.Gen.KernelIdeal.Frame
import proofs.«109104_j3513283248696_2_alg».proof.Proof.LibQuantNet
import proofs.«109104_j3513283248696_2_alg».proof.Proof.LibSpread

noncomputable section

open scoped BigOperators

namespace Cert.KernelIdeal.KH

open Cert.KernelIdeal Cert.KernelIdeal.Gen Idealize.ShloMosaic Idealize.ShloMosaic.TcCoe Idealize.ShloMosaic.ValueIdx Idealize.SL.Sem Idealize.ShloMosaic.StableHlo Cert.QNet

/-! ## The pieces that do not depend on the program -/

/-- The maximum over every axis, from the word of −∞, into a result with one index folds `max` over all indices. -/
theorem reduce_max {s t u : Shape} {axes : List (Fin s.rank)} [Subsingleton t.Idx]
    (X : FVec Ideal s .f32) (init : FVec Ideal u .f32) (hinit : ∀ i, init i = ninf)
    (h : s.ReducesTo axes t) (hu : 0 < u.numel) (j : t.Idx) :
    Host.reduce FloatOps.maximumf X init h hu j = (Finset.univ : Finset s.Idx).fold max ninf X := by
  rw [Host.reduce_eq_fold, hinit, Finset.filter_true_of_mem fun i _ => Subsingleton.elim _ _]
  rfl

/-- The shape with no axes has exactly one index. -/
instance subsingleton_scalar_idx : Subsingleton (⟨0, ![]⟩ : Shape).Idx :=
  ⟨fun a b => funext fun d => d.elim0⟩

/-- The scale stages from an array of maxima, recast as a 1 × 1 array and read at an index: the scale that goes with
    the greatest entry. -/
theorem scale11_of_max {s : Shape} {axes : List (Fin s.rank)} (X : FVec Ideal s .f32)
    (h : s.ReducesTo axes ⟨0, ![]⟩) (hu : 0 < (⟨0, ![]⟩ : Shape).numel)
    (hc : (⟨0, ![]⟩ : Shape).ShapeCasts ⟨2, ![1, 1]⟩) (j : (⟨2, ![1, 1]⟩ : Shape).Idx) :
    shapeCast ⟨2, ![1, 1]⟩
      (maximumf (F := Ideal)
        (Host.divf (Host.reduce FloatOps.maximumf X (constant ⟨0, ![]⟩ .f32 0xFF800000#32) h hu)
          (constant ⟨0, ![]⟩ .f32 0x42FE0000#32))
        (constant ⟨0, ![]⟩ .f32 0x322BCC77#32)) hc j
      = scaleOf ((Finset.univ : Finset s.Idx).fold max ninf X) := by
  unfold shapeCast
  show FloatOps.maximumf (FloatOps.hostDivf (Host.reduce FloatOps.maximumf X _ h hu _) _) _ = _
  rw [reduce_max X (constant ⟨0, ![]⟩ .f32 0xFF800000#32) (fun _ => rfl) h hu]
  rfl

/-- The same from an array's absolute values: the array's scale. -/
theorem scale11_of_abs {M K : ℕ} {axes : List (Fin 2)} (X : Arr M K)
    (h : (⟨2, ![M, K]⟩ : Shape).ReducesTo axes ⟨0, ![]⟩) (hu : 0 < (⟨0, ![]⟩ : Shape).numel)
    (hc : (⟨0, ![]⟩ : Shape).ShapeCasts ⟨2, ![1, 1]⟩) (j : (⟨2, ![1, 1]⟩ : Shape).Idx) :
    shapeCast ⟨2, ![1, 1]⟩
      (maximumf (F := Ideal)
        (Host.divf (Host.reduce FloatOps.maximumf (Host.absf (F := Ideal) (φ := .f32) X) (constant ⟨0, ![]⟩ .f32 0xFF800000#32) h hu)
          (constant ⟨0, ![]⟩ .f32 0x42FE0000#32))
        (constant ⟨0, ![]⟩ .f32 0x322BCC77#32)) hc j
      = scaleArr X :=
  scale11_of_max (Host.absf (F := Ideal) (φ := .f32) X) h hu hc j

/-- A 1 × 1 array spread over an M × K array reads its one entry everywhere. -/
theorem spread11_apply {α : Type} {M K : ℕ} (Y : (⟨2, ![1, 1]⟩ : Shape).Idx → α)
    (h : (⟨2, ![1, 1]⟩ : Shape).BroadcastsInDim ⟨2, ![M, K]⟩ (![0, 1] : Fin 2 → Fin 2)) (i : (⟨2, ![M, K]⟩ : Shape).Idx) :
    broadcastInDim ⟨2, ![M, K]⟩ ![0, 1] h Y i = Y (ix2 (0 : Fin 1) (0 : Fin 1)) :=
  broadcastInDim_apply _ h Y i (ix2 (0 : Fin 1) (0 : Fin 1)) (fun a => by
    match a with
    | ⟨0, _⟩ => exact (if_pos rfl).symm
    | ⟨1, _⟩ => exact (if_pos rfl).symm)

/-- The code stages at an index: the entry over the spread scale, rounded, held between −128 and 127. -/
theorem codes_apply {M K : ℕ} (W : Arr M K) (Y : (⟨2, ![1, 1]⟩ : Shape).Idx → EReal)
    (hhi hlo : (⟨0, ![]⟩ : Shape).BroadcastsInDim ⟨2, ![M, K]⟩ (![] : Fin 0 → Fin 2))
    (hs : (⟨2, ![1, 1]⟩ : Shape).BroadcastsInDim ⟨2, ![M, K]⟩ (![0, 1] : Fin 2 → Fin 2))
    (hY : Y (ix2 (0 : Fin 1) (0 : Fin 1)) = scaleArr W) (i : (⟨2, ![M, K]⟩ : Shape).Idx) :
    minimumf (F := Ideal) (φ := .f32)
      (broadcastInDim ⟨2, ![M, K]⟩ ![] hhi (constant (F := Ideal) ⟨0, ![]⟩ .f32 0x42FE0000#32))
      (maximumf (broadcastInDim ⟨2, ![M, K]⟩ ![] hlo (constant (F := Ideal) ⟨0, ![]⟩ .f32 0xC3000000#32))
        (Host.roundeven (F := Ideal) (φ := .f32)
          (Host.divf (F := Ideal) (φ := .f32) W (broadcastInDim ⟨2, ![M, K]⟩ ![0, 1] hs Y)))) i
      = code (W i) (scaleArr W) := by
  show FloatOps.minimumf (F := Ideal) (φ := .f32) (broadcastInDim _ _ hhi _ i)
      (FloatOps.maximumf (F := Ideal) (φ := .f32) (broadcastInDim _ _ hlo _ i)
        (FloatOps.hostUnary (F := Ideal) (φ := .f32) .roundeven
          (FloatOps.hostDivf (F := Ideal) (φ := .f32) (W i) (broadcastInDim _ _ hs Y i)))) = _
  rw [Cert.Lib.Spread.splat_apply, Cert.Lib.Spread.splat_apply, spread11_apply, hY]
  rfl

/-- The code stages at an index when the spread scale is the array's own scale stages. -/
theorem codes_of_abs {M K : ℕ} {axes : List (Fin 2)} (W : Arr M K)
    (hhi hlo : (⟨0, ![]⟩ : Shape).BroadcastsInDim ⟨2, ![M, K]⟩ (![] : Fin 0 → Fin 2))
    (hs : (⟨2, ![1, 1]⟩ : Shape).BroadcastsInDim ⟨2, ![M, K]⟩ (![0, 1] : Fin 2 → Fin 2))
    (h : (⟨2, ![M, K]⟩ : Shape).ReducesTo axes ⟨0, ![]⟩) (hu : 0 < (⟨0, ![]⟩ : Shape).numel)
    (hc : (⟨0, ![]⟩ : Shape).ShapeCasts ⟨2, ![1, 1]⟩) (i : (⟨2, ![M, K]⟩ : Shape).Idx) :
    minimumf (F := Ideal) (φ := .f32)
      (broadcastInDim ⟨2, ![M, K]⟩ ![] hhi (constant (F := Ideal) ⟨0, ![]⟩ .f32 0x42FE0000#32))
      (maximumf (broadcastInDim ⟨2, ![M, K]⟩ ![] hlo (constant (F := Ideal) ⟨0, ![]⟩ .f32 0xC3000000#32))
        (Host.roundeven (F := Ideal) (φ := .f32)
          (Host.divf (F := Ideal) (φ := .f32) W (broadcastInDim ⟨2, ![M, K]⟩ ![0, 1] hs fun i' =>
            shapeCast ⟨2, ![1, 1]⟩
              (maximumf (F := Ideal)
                (Host.divf (Host.reduce FloatOps.maximumf (Host.absf (F := Ideal) (φ := .f32) W)
                    (constant ⟨0, ![]⟩ .f32 0xFF800000#32) h hu)
                  (constant ⟨0, ![]⟩ .f32 0x42FE0000#32))
                (constant ⟨0, ![]⟩ .f32 0x322BCC77#32)) hc i')))) i
      = code (W i) (scaleArr W) :=
  codes_apply W _ hhi hlo hs (scale11_of_abs W h hu hc _) i

/-- A vector laid out as one row reads, at (0, q), the vector at q. -/
theorem row_apply {α : Type} {N : ℕ} (v : (⟨1, ![N]⟩ : Shape).Idx → α)
    (h : (⟨1, ![N]⟩ : Shape).ShapeCasts ⟨2, ![1, N]⟩) (q : Fin N) :
    shapeCast ⟨2, ![1, N]⟩ v h (ix2 (0 : Fin 1) q) = v (ix1 q) :=
  shapeCast_apply v h (ix2 (0 : Fin 1) q) (ix1 q) (by
    rw [Shape.rowMajor_val_one, Shape.rowMajor_val_two]
    show q.val = 0 * N + q.val
    omega)

/-! ## The stretch before the first region -/

/-- The buffers after the first stretch, from contents `U`. -/
abbrev A0 (U : Valuation τ sig (Elt Ideal)) : Valuation τ sig (Elt Ideal) :=
  StableHlo.after hostOps0_4 (StableHlo.after hostOps0_3 (StableHlo.after hostOps0_2 (StableHlo.after hostOps0_1
    (StableHlo.after hostOps0 U))))

theorem a0_v4 (U : Valuation τ sig (Elt Ideal)) :
    A0 U (Proc.devRef .tc main_v4) (ix2 (0 : Fin 1) (0 : Fin 1))
      = scaleArr (M := 16384) (K := 512) (U (Proc.devRef .tc main_arg0)) := by
  show StableHlo.after hostOps0_4 _ _ _ = _
  after_results
  exact scale11_of_abs (M := 16384) (K := 512) (U (Proc.devRef .tc main_arg0)) _ _ _ _

theorem a0_v9 (U : Valuation τ sig (Elt Ideal)) :
    A0 U (Proc.devRef .tc main_v9) (ix2 (0 : Fin 1) (0 : Fin 1))
      = scaleArr (M := 2048) (K := 512) (U (Proc.devRef .tc main_arg1)) := by
  show StableHlo.after hostOps0_4 _ _ _ = _
  after_results
  exact scale11_of_abs (M := 2048) (K := 512) (U (Proc.devRef .tc main_arg1)) _ _ _ _

theorem a0_v14 (U : Valuation τ sig (Elt Ideal)) :
    A0 U (Proc.devRef .tc main_v14) = codeArr (N := 2048) (K := 512) (U (Proc.devRef .tc main_arg1)) := by
  funext i
  show StableHlo.after hostOps0_4 _ _ _ = _
  after_results_simp
  exact codes_of_abs (M := 2048) (K := 512) (U (Proc.devRef .tc main_arg1)) bcast_S_S2048x512 bcast_S_S2048x512
    bcast_S1x1_S2048x512_0_1 reducesTo_S2048x512_S_d0_1 h_S_ shapeCasts_S_S1x1 i

theorem a0_v15 (U : Valuation τ sig (Elt Ideal)) (q : Fin 2048) :
    A0 U (Proc.devRef .tc main_v15) (ix2 (0 : Fin 1) q) = U (Proc.devRef .tc main_arg2) (ix1 q) := by
  show StableHlo.after hostOps0_4 _ _ _ = _
  after_results
  exact row_apply (N := 2048) (U (Proc.devRef .tc main_arg2)) _ q

theorem a0_arg0 (U : Valuation τ sig (Elt Ideal)) : A0 U (Proc.devRef .tc main_arg0) = U (Proc.devRef .tc main_arg0) := by
  show StableHlo.after hostOps0_4 _ _ = _
  after_results
theorem a0_arg3 (U : Valuation τ sig (Elt Ideal)) : A0 U (Proc.devRef .tc main_arg3) = U (Proc.devRef .tc main_arg3) := by
  show StableHlo.after hostOps0_4 _ _ = _
  after_results
theorem a0_arg4 (U : Valuation τ sig (Elt Ideal)) : A0 U (Proc.devRef .tc main_arg4) = U (Proc.devRef .tc main_arg4) := by
  show StableHlo.after hostOps0_4 _ _ = _
  after_results
theorem a0_arg5 (U : Valuation τ sig (Elt Ideal)) : A0 U (Proc.devRef .tc main_arg5) = U (Proc.devRef .tc main_arg5) := by
  show StableHlo.after hostOps0_4 _ _ = _
  after_results
theorem a0_arg6 (U : Valuation τ sig (Elt Ideal)) : A0 U (Proc.devRef .tc main_arg6) = U (Proc.devRef .tc main_arg6) := by
  show StableHlo.after hostOps0_4 _ _ = _
  after_results

section Run0
variable (m : (ℓ : Loc nD τ sig) → Buf (Elt Ideal) ℓ) (ρ : Dev nD → PrngReg) (c : Dev nD)

theorem W5_eq : W5 m ρ c = A0 (W0 m ρ c) := rfl

theorem h0_arg0 : W5 m ρ c (Proc.devRef .tc main_arg0) = m ((c : Thread nD τ).loc main_arg0) :=
  a0_arg0 (W0 m ρ c)
theorem h0_v14 : W5 m ρ c (Proc.devRef .tc main_v14) = codeArr (N := 2048) (K := 512) (m ((c : Thread nD τ).loc main_arg1)) :=
  a0_v14 (W0 m ρ c)
theorem h0_v15 (q : Fin 2048) :
    W5 m ρ c (Proc.devRef .tc main_v15) (ix2 (0 : Fin 1) q) = m ((c : Thread nD τ).loc main_arg2) (ix1 q) :=
  a0_v15 (W0 m ρ c) q
theorem h0_v4 : W5 m ρ c (Proc.devRef .tc main_v4) (ix2 (0 : Fin 1) (0 : Fin 1))
    = scaleArr (M := 16384) (K := 512) (m ((c : Thread nD τ).loc main_arg0)) :=
  a0_v4 (W0 m ρ c)
theorem h0_v9 : W5 m ρ c (Proc.devRef .tc main_v9) (ix2 (0 : Fin 1) (0 : Fin 1))
    = scaleArr (M := 2048) (K := 512) (m ((c : Thread nD τ).loc main_arg1)) :=
  a0_v9 (W0 m ρ c)

end Run0

/-! ## The stretch before the second region -/

/-- The buffers after the second stretch, from contents `U`. -/
abbrev A1 (U : Valuation τ sig (Elt Ideal)) : Valuation τ sig (Elt Ideal) :=
  StableHlo.after hostOps1_4 (StableHlo.after hostOps1_3 (StableHlo.after hostOps1_2 (StableHlo.after hostOps1_1
    (StableHlo.after hostOps1 U))))

theorem h1_keep (U : Valuation τ sig (Elt Ideal)) :
    A1 U (Proc.devRef .tc main_v16_0) = U (Proc.devRef .tc main_v16_0) := by
  show StableHlo.after hostOps1_4 _ _ = _
  after_results

theorem h1_v20 (U : Valuation τ sig (Elt Ideal)) :
    A1 U (Proc.devRef .tc main_v20) (ix2 (0 : Fin 1) (0 : Fin 1))
      = scaleOf ((Finset.univ : Finset S64x512.Idx).fold max ninf (U (Proc.devRef .tc main_v16_1))) := by
  show StableHlo.after hostOps1_4 _ _ _ = _
  after_results
  exact scale11_of_max (s := S64x512) (U (Proc.devRef .tc main_v16_1)) _ _ _ _

theorem h1_v25 (U : Valuation τ sig (Elt Ideal)) :
    A1 U (Proc.devRef .tc main_v25) (ix2 (0 : Fin 1) (0 : Fin 1))
      = scaleArr (M := 2048) (K := 2048) (U (Proc.devRef .tc main_arg3)) := by
  show StableHlo.after hostOps1_4 _ _ _ = _
  after_results
  exact scale11_of_abs (M := 2048) (K := 2048) (U (Proc.devRef .tc main_arg3)) _ _ _ _

theorem h1_v30 (U : Valuation τ sig (Elt Ideal)) :
    A1 U (Proc.devRef .tc main_v30) = codeArr (N := 2048) (K := 2048) (U (Proc.devRef .tc main_arg3)) := by
  funext i
  show StableHlo.after hostOps1_4 _ _ _ = _
  after_results_simp
  exact codes_of_abs (M := 2048) (K := 2048) (U (Proc.devRef .tc main_arg3)) bcast_S_S2048x2048 bcast_S_S2048x2048
    bcast_S1x1_S2048x2048_0_1 reducesTo_S2048x2048_S_d0_1 h_S_ shapeCasts_S_S1x1 i

theorem h1_v31 (U : Valuation τ sig (Elt Ideal)) (q : Fin 2048) :
    A1 U (Proc.devRef .tc main_v31) (ix2 (0 : Fin 1) q) = U (Proc.devRef .tc main_arg4) (ix1 q) := by
  show StableHlo.after hostOps1_4 _ _ _ = _
  after_results
  exact row_apply (N := 2048) (U (Proc.devRef .tc main_arg4)) _ q

theorem a1_arg5 (U : Valuation τ sig (Elt Ideal)) : A1 U (Proc.devRef .tc main_arg5) = U (Proc.devRef .tc main_arg5) := by
  show StableHlo.after hostOps1_4 _ _ = _
  after_results
theorem a1_arg6 (U : Valuation τ sig (Elt Ideal)) : A1 U (Proc.devRef .tc main_arg6) = U (Proc.devRef .tc main_arg6) := by
  show StableHlo.after hostOps1_4 _ _ = _
  after_results

/-! ## The stretch before the third region -/

/-- The buffers after the third stretch, from contents `U`. -/
abbrev A2 (U : Valuation τ sig (Elt Ideal)) : Valuation τ sig (Elt Ideal) :=
  StableHlo.after hostOps2_4 (StableHlo.after hostOps2_3 (StableHlo.after hostOps2_2 (StableHlo.after hostOps2_1
    (StableHlo.after hostOps2 U))))

theorem h2_keep (U : Valuation τ sig (Elt Ideal)) :
    A2 U (Proc.devRef .tc main_v32_0) = U (Proc.devRef .tc main_v32_0) := by
  show StableHlo.after hostOps2_4 _ _ = _
  after_results

theorem h2_v36 (U : Valuation τ sig (Elt Ideal)) :
    A2 U (Proc.devRef .tc main_v36) (ix2 (0 : Fin 1) (0 : Fin 1))
      = scaleOf ((Finset.univ : Finset S256x512.Idx).fold max ninf (U (Proc.devRef .tc main_v32_1))) := by
  show StableHlo.after hostOps2_4 _ _ _ = _
  after_results
  exact scale11_of_max (s := S256x512) (U (Proc.devRef .tc main_v32_1)) _ _ _ _

theorem h2_v41 (U : Valuation τ sig (Elt Ideal)) :
    A2 U (Proc.devRef .tc main_v41) (ix2 (0 : Fin 1) (0 : Fin 1))
      = scaleArr (M := 512) (K := 2048) (U (Proc.devRef .tc main_arg5)) := by
  show StableHlo.after hostOps2_4 _ _ _ = _
  after_results
  exact scale11_of_abs (M := 512) (K := 2048) (U (Proc.devRef .tc main_arg5)) _ _ _ _

theorem h2_v46 (U : Valuation τ sig (Elt Ideal)) :
    A2 U (Proc.devRef .tc main_v46) = codeArr (N := 512) (K := 2048) (U (Proc.devRef .tc main_arg5)) := by
  funext i
  show StableHlo.after hostOps2_4 _ _ _ = _
  after_results_simp
  exact codes_of_abs (M := 512) (K := 2048) (U (Proc.devRef .tc main_arg5)) bcast_S_S512x2048 bcast_S_S512x2048
    bcast_S1x1_S512x2048_0_1 reducesTo_S512x2048_S_d0_1 h_S_ shapeCasts_S_S1x1 i

theorem h2_v47 (U : Valuation τ sig (Elt Ideal)) (q : Fin 512) :
    A2 U (Proc.devRef .tc main_v47) (ix2 (0 : Fin 1) q) = U (Proc.devRef .tc main_arg6) (ix1 q) := by
  show StableHlo.after hostOps2_4 _ _ _ = _
  after_results
  exact row_apply (N := 512) (U (Proc.devRef .tc main_arg6)) _ q

/-! ## The fold through the regions, and the arguments read back through it -/

section Run
variable (m : (ℓ : Loc nD τ sig) → Buf (Elt Ideal) ℓ) (ρ : Dev nD → PrngReg) (c : Dev nD)

theorem W11_eq : W11 m ρ c = A1 (W6 m ρ c) := rfl
theorem W17_eq : W17 m ρ c = A2 (W12 m ρ c) := rfl

theorem W6_arg3 : W6 m ρ c (Proc.devRef .tc main_arg3) = m ((c : Thread nD τ).loc main_arg3) :=
  (W6_of_ne m ρ c main_arg3 (by decide)).trans (a0_arg3 (W0 m ρ c))
theorem W6_arg4 : W6 m ρ c (Proc.devRef .tc main_arg4) = m ((c : Thread nD τ).loc main_arg4) :=
  (W6_of_ne m ρ c main_arg4 (by decide)).trans (a0_arg4 (W0 m ρ c))
theorem W6_arg5 : W6 m ρ c (Proc.devRef .tc main_arg5) = m ((c : Thread nD τ).loc main_arg5) :=
  (W6_of_ne m ρ c main_arg5 (by decide)).trans (a0_arg5 (W0 m ρ c))
theorem W6_arg6 : W6 m ρ c (Proc.devRef .tc main_arg6) = m ((c : Thread nD τ).loc main_arg6) :=
  (W6_of_ne m ρ c main_arg6 (by decide)).trans (a0_arg6 (W0 m ρ c))
theorem W12_arg5 : W12 m ρ c (Proc.devRef .tc main_arg5) = m ((c : Thread nD τ).loc main_arg5) :=
  (W12_of_ne m ρ c main_arg5 (by decide)).trans ((a1_arg5 (W6 m ρ c)).trans (W6_arg5 m ρ c))
theorem W12_arg6 : W12 m ρ c (Proc.devRef .tc main_arg6) = m ((c : Thread nD τ).loc main_arg6) :=
  (W12_of_ne m ρ c main_arg6 (by decide)).trans ((a1_arg6 (W6 m ρ c)).trans (W6_arg6 m ρ c))

end Run

end Cert.KernelIdeal.KH

end
-- ==== Proof.KerNet.lean ====
/-
  The idealized kernel program's result array, as one function of its seven argument arrays: the three-layer quantised
  network in its second arrangement (`kerNet`).

  Region by region. The first region finds the input, the first weights' codes, the first bias as a row and the two
  scales, and leaves the first layer's activations and, tile by tile, their greatest absolute values. The host takes
  the greatest of those tile values — which is the greatest absolute value of the activations — to the activations'
  scale, prepares the second weights' codes and scale, and the second region computes the second layer the same way;
  then the third. The result array is written by the third region only.
-/
import proofs.«109104_j3513283248696_2_alg».proof.Proof.KerR0
import proofs.«109104_j3513283248696_2_alg».proof.Proof.KerR1
import proofs.«109104_j3513283248696_2_alg».proof.Proof.KerR2
import proofs.«109104_j3513283248696_2_alg».proof.Proof.KerHost

set_option maxRecDepth 16384

noncomputable section

namespace Cert.KernelIdeal.KV

open Cert.KernelIdeal Cert.KernelIdeal.Gen Cert.KernelIdeal.KH
open Idealize.ShloMosaic Idealize.ShloMosaic.TcCoe Idealize.ShloMosaic.ValueIdx Idealize.SL.Sem
open Cert.QNet Cert.QBody

variable (m : (ℓ : Loc nD τ sig) → Buf (Elt Ideal) ℓ) (ρ : Dev nD → PrngReg) (c : Dev nD)

/-- After the first region: the first layer's activations. -/
theorem layer1_eq :
    Y0 (V5 m ρ) c = kerY1 (m ((c : Thread nD τ).loc main_arg0)) (m ((c : Thread nD τ).loc main_arg1)) (m ((c : Thread nD τ).loc main_arg2)) := by
  have e0 : V5 m ρ c main_arg0 = m ((c : Thread nD τ).loc main_arg0) := h0_arg0 m ρ c
  have e1 : V5 m ρ c main_v14 = codeArr (N := 2048) (K := 512) (m ((c : Thread nD τ).loc main_arg1)) := h0_v14 m ρ c
  have e2 : (fun q : Fin 2048 => V5 m ρ c main_v15 (ix2 (0 : Fin 1) q))
      = fun q => m ((c : Thread nD τ).loc main_arg2) (ix1 q) := funext fun q => h0_v15 m ρ c q
  have e3 : V5 m ρ c main_v4 (ix2 (0 : Fin 1) (0 : Fin 1)) = scaleArr (M := 16384) (K := 512) (m ((c : Thread nD τ).loc main_arg0)) :=
    h0_v4 m ρ c
  have e4 : V5 m ρ c main_v9 (ix2 (0 : Fin 1) (0 : Fin 1)) = scaleArr (M := 2048) (K := 512) (m ((c : Thread nD τ).loc main_arg1)) :=
    h0_v9 m ρ c
  unfold Y0 kerY1
  rw [e0, e1, e2, e3, e4]

/-- After the second region: the second layer's activations. -/
theorem layer2_eq :
    Y1 (V11 m ρ) c = kerY2 (m ((c : Thread nD τ).loc main_arg0)) (m ((c : Thread nD τ).loc main_arg1)) (m ((c : Thread nD τ).loc main_arg2))
      (m ((c : Thread nD τ).loc main_arg3)) (m ((c : Thread nD τ).loc main_arg4)) := by
  have a5 : W6 m ρ c (Proc.devRef .tc main_v16_0) = Y0 (V5 m ρ) c := (W6_arr m ρ c 5).trans (final0_5 (V5 m ρ) c)
  have a6 : W6 m ρ c (Proc.devRef .tc main_v16_1) = T0 (V5 m ρ) c := (W6_arr m ρ c 6).trans (final0_6 (V5 m ρ) c)
  have e0 : V11 m ρ c main_v16_0 = kerY1 (m ((c : Thread nD τ).loc main_arg0)) (m ((c : Thread nD τ).loc main_arg1)) (m ((c : Thread nD τ).loc main_arg2)) := by
    show W11 m ρ c (Proc.devRef .tc main_v16_0) = _
    rw [W11_eq, h1_keep, a5, layer1_eq]
  have e1 : V11 m ρ c main_v30 = codeArr (N := 2048) (K := 2048) (m ((c : Thread nD τ).loc main_arg3)) := by
    show W11 m ρ c (Proc.devRef .tc main_v30) = _
    rw [W11_eq, h1_v30, W6_arg3]
  have e2 : (fun q : Fin 2048 => V11 m ρ c main_v31 (ix2 (0 : Fin 1) q))
      = fun q => m ((c : Thread nD τ).loc main_arg4) (ix1 q) := funext fun q => by
    show W11 m ρ c (Proc.devRef .tc main_v31) (ix2 (0 : Fin 1) q) = _
    rw [W11_eq, h1_v31, W6_arg4]
  have e3 : V11 m ρ c main_v20 (ix2 (0 : Fin 1) (0 : Fin 1))
      = scaleArr (kerY1 (m ((c : Thread nD τ).loc main_arg0)) (m ((c : Thread nD τ).loc main_arg1)) (m ((c : Thread nD τ).loc main_arg2))) := by
    show W11 m ρ c (Proc.devRef .tc main_v20) (ix2 (0 : Fin 1) (0 : Fin 1)) = _
    rw [W11_eq, h1_v20, a6]
    exact congrArg scaleOf ((T0_fold (V5 m ρ) c).trans (congrArg absMax (layer1_eq m ρ c)))
  have e4 : V11 m ρ c main_v25 (ix2 (0 : Fin 1) (0 : Fin 1)) = scaleArr (M := 2048) (K := 2048) (m ((c : Thread nD τ).loc main_arg3)) := by
    show W11 m ρ c (Proc.devRef .tc main_v25) (ix2 (0 : Fin 1) (0 : Fin 1)) = _
    rw [W11_eq, h1_v25, W6_arg3]
  unfold Y1 kerY2
  rw [e0, e1, e2, e3, e4]

/-- After the third region: the network's result. -/
theorem layer3_eq :
    Y2 (V17 m ρ) c = kerNet (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) := by
  have a5 : W12 m ρ c (Proc.devRef .tc main_v32_0) = Y1 (V11 m ρ) c := (W12_arr m ρ c 5).trans (final1_5 (V11 m ρ) c)
  have a6 : W12 m ρ c (Proc.devRef .tc main_v32_1) = T1 (V11 m ρ) c := (W12_arr m ρ c 6).trans (final1_6 (V11 m ρ) c)
  have e0 : V17 m ρ c main_v32_0 = kerY2 (m ((c : Thread nD τ).loc main_arg0)) (m ((c : Thread nD τ).loc main_arg1)) (m ((c : Thread nD τ).loc main_arg2))
      (m ((c : Thread nD τ).loc main_arg3)) (m ((c : Thread nD τ).loc main_arg4)) := by
    show W17 m ρ c (Proc.devRef .tc main_v32_0) = _
    rw [W17_eq, h2_keep, a5, layer2_eq]
  have e1 : V17 m ρ c main_v46 = codeArr (N := 512) (K := 2048) (m ((c : Thread nD τ).loc main_arg5)) := by
    show W17 m ρ c (Proc.devRef .tc main_v46) = _
    rw [W17_eq, h2_v46, W12_arg5]
  have e2 : (fun q : Fin 512 => V17 m ρ c main_v47 (ix2 (0 : Fin 1) q))
      = fun q => m ((c : Thread nD τ).loc main_arg6) (ix1 q) := funext fun q => by
    show W17 m ρ c (Proc.devRef .tc main_v47) (ix2 (0 : Fin 1) q) = _
    rw [W17_eq, h2_v47, W12_arg6]
  have e3 : V17 m ρ c main_v36 (ix2 (0 : Fin 1) (0 : Fin 1))
      = scaleArr (kerY2 (m ((c : Thread nD τ).loc main_arg0)) (m ((c : Thread nD τ).loc main_arg1)) (m ((c : Thread nD τ).loc main_arg2))
          (m ((c : Thread nD τ).loc main_arg3)) (m ((c : Thread nD τ).loc main_arg4))) := by
    show W17 m ρ c (Proc.devRef .tc main_v36) (ix2 (0 : Fin 1) (0 : Fin 1)) = _
    rw [W17_eq, h2_v36, a6]
    exact congrArg scaleOf ((T1_fold (V11 m ρ) c).trans (congrArg absMax (layer2_eq m ρ c)))
  have e4 : V17 m ρ c main_v41 (ix2 (0 : Fin 1) (0 : Fin 1)) = scaleArr (M := 512) (K := 2048) (m ((c : Thread nD τ).loc main_arg5)) := by
    show W17 m ρ c (Proc.devRef .tc main_v41) (ix2 (0 : Fin 1) (0 : Fin 1)) = _
    rw [W17_eq, h2_v41, W12_arg5]
  unfold Y2 kerNet
  rw [e0, e1, e2, e3, e4]

/-- THE RESULT ARRAY at the last boundary: the network. -/
theorem result_eq :
    W18 m ρ c (Proc.devRef .tc main_v48_0) = kerNet (m ((c : Thread nD τ).loc main_arg0)) (m ((c : Thread nD τ).loc main_arg1))
      (m ((c : Thread nD τ).loc main_arg2)) (m ((c : Thread nD τ).loc main_arg3)) (m ((c : Thread nD τ).loc main_arg4))
      (m ((c : Thread nD τ).loc main_arg5)) (m ((c : Thread nD τ).loc main_arg6)) :=
  ((W18_arr m ρ c 5).trans (final2_5 (V17 m ρ) c)).trans (layer3_eq m ρ c)

end Cert.KernelIdeal.KV

end
-- ==== Proof.RefSide.lean ====
/-
  The reference program is the three-layer network in its first arrangement.

  The reference quantises an array in nineteen elementwise and broadcast stages around one reduction: the absolute
  values, their maximum over every axis from the word of −∞, that maximum over 127 and then against the smallest scale
  allowed (the array's scale), the entries over the scale, rounded, held between −128 and 127 (the code), the code times
  the scale, minus the entry, plus the entry. Read at an index, the reduction is a fold of `max` over ALL indices, because
  the result has a single index and every index of the array drops to it: it is the greatest absolute value of the
  array. So the scale stage is the array's scale at its one index, and the last stage at an index `i` is
  `v + (code v s · s − v)` for the entry `v` at `i` and the array's scale `s`.

  A layer is two such quantisations (of the activations and of the weights), a contraction of the two results over
  their last axes, which at row `p` and column `q` is the sum over `k` of the products of the entries `(p, k)` and
  `(q, k)`, and the bias of column `q` added. That is the layer's first arrangement entry by entry; three layers, each
  taking the one before as its activations, are the network.
-/
import proofs.«109104_j3513283248696_2_alg».proof.Proof.Gen.ReferenceIdeal.Read
import proofs.«109104_j3513283248696_2_alg».proof.Proof.LibQuantNet

noncomputable section

open scoped BigOperators

namespace Cert.RefSide

open Idealize.ShloMosaic Idealize.ShloMosaic.ValueIdx Cert.ReferenceIdeal Cert.ReferenceIdeal.Read Cert.QNet

/-- The shape with no axes has exactly one index. -/
instance subsingleton_scalar_idx : Subsingleton Cert.ReferenceIdeal.S_.Idx :=
  ⟨fun a b => funext fun d => d.elim0⟩

/-! ## The pieces that do not depend on the program -/

/-- The maximum, over every axis and from the word of −∞, of the absolute values of an array is the greatest absolute
    value among its entries: the result has one index, so every index of the array is folded into it. -/
theorem reduce_absMax {s t u : Shape} {axes : List (Fin s.rank)} [Subsingleton t.Idx]
    (X : FVec Ideal s .f32) (init : FVec Ideal u .f32) (hinit : ∀ i, init i = ninf)
    (h : s.ReducesTo axes t) (hu : 0 < u.numel) (j : t.Idx) :
    Host.reduce FloatOps.maximumf (Host.absf X) init h hu j = absMax X := by
  rw [Host.reduce_eq_fold, hinit, Finset.filter_true_of_mem fun i _ => Subsingleton.elim _ _]
  rfl

/-- The scale stages on one value: the greatest absolute value over 127, against the smallest scale allowed. -/
theorem scaleChain (m : EReal) :
    FloatOps.maximumf (F := Ideal) (φ := .f32) (FloatOps.hostDivf m (FloatOps.ofBits .f32 0x42FE0000#32))
      (FloatOps.ofBits .f32 0x322BCC77#32) = scaleOf m := rfl

/-- The entry stages on one value `v` at scale `s`: divide, round, hold between −128 and 127, multiply back, subtract
    the value, add the value. -/
theorem fqChain (v s : EReal) :
    FloatOps.addf (F := Ideal) (φ := .f32) v
      (FloatOps.subf
        (FloatOps.mulf
          (FloatOps.minimumf (FloatOps.ofBits .f32 0x42FE0000#32)
            (FloatOps.maximumf (FloatOps.ofBits .f32 0xC3000000#32)
              (FloatOps.hostUnary .roundeven (FloatOps.hostDivf v s))))
          s)
        v) = fq v s := rfl

/-! ## The first layer's activations: the input `x0` -/

theorem scale_a (x0 : (⟨S16384x512, .f32⟩ : BufTy).Contents (Elt Ideal)) (j : S_.Idx) :
    val_main_v3 (F := Ideal) x0 j = scaleArr (M := 16384) (K := 512) x0 := by
  have h : val_main_v1 (F := Ideal) x0 j = absMax x0 := by
    unfold val_main_v1 val_main_v0
    exact reduce_absMax x0 _ (fun _ => rfl) _ _ j
  rw [val_main_v3_apply, val_main_v2_apply, val_main_cst_1_apply, val_main_cst_0_apply, h]
  exact scaleChain _

theorem fq_a (x0 : (⟨S16384x512, .f32⟩ : BufTy).Contents (Elt Ideal)) (i : S16384x512.Idx) :
    val_main_v11 (F := Ideal) x0 i = fq (x0 i) (scaleArr (M := 16384) (K := 512) x0) := by
  rw [val_main_v11_apply, val_main_v10_apply, val_main_v9_apply, val_main_v8_apply, val_main_v7_apply,
    val_main_call1_v4_apply, val_main_call1_v3_apply, val_main_cst_3_apply,
    val_main_call1_v2_apply, val_main_call1_v1_apply, val_main_call1_v0_apply, val_main_cst_2_apply,
    val_main_v6_apply, val_main_v5_apply, val_main_v4_apply]
  simp only [scale_a]
  exact fqChain _ _

/-! ## The first layer's weights `x1` -/

theorem scale_b (x1 : (⟨S2048x512, .f32⟩ : BufTy).Contents (Elt Ideal)) (j : S_.Idx) :
    val_main_v15 (F := Ideal) x1 j = scaleArr (M := 2048) (K := 512) x1 := by
  have h : val_main_v13 (F := Ideal) x1 j = absMax x1 := by
    unfold val_main_v13 val_main_v12
    exact reduce_absMax x1 _ (fun _ => rfl) _ _ j
  rw [val_main_v15_apply, val_main_v14_apply, val_main_cst_6_apply, val_main_cst_5_apply, h]
  exact scaleChain _

theorem fq_b (x1 : (⟨S2048x512, .f32⟩ : BufTy).Contents (Elt Ideal)) (i : S2048x512.Idx) :
    val_main_v23 (F := Ideal) x1 i = fq (x1 i) (scaleArr (M := 2048) (K := 512) x1) := by
  rw [val_main_v23_apply, val_main_v22_apply, val_main_v21_apply, val_main_v20_apply, val_main_v19_apply,
    val_main_call3_v4_apply, val_main_call3_v3_apply, val_main_cst_8_apply,
    val_main_call3_v2_apply, val_main_call3_v1_apply, val_main_call3_v0_apply, val_main_cst_7_apply,
    val_main_v18_apply, val_main_v17_apply, val_main_v16_apply]
  simp only [scale_b]
  exact fqChain _ _

/-- The first layer. -/
theorem layer1 (x0 : (⟨S16384x512, .f32⟩ : BufTy).Contents (Elt Ideal)) (x1 : (⟨S2048x512, .f32⟩ : BufTy).Contents (Elt Ideal)) (x2 : (⟨S2048, .f32⟩ : BufTy).Contents (Elt Ideal)) :
    val_main_v27 (F := Ideal) x0 x1 x2 = refL (M := 16384) (K := 512) (N := 2048) x0 x1 (fun q => x2 (ix1 q)) := by
  funext i
  obtain ⟨p, q, rfl⟩ : ∃ p q, i = ix2 p q := ⟨i 0, i 1, eq_ix2 i⟩
  have hb : idx_main_v25 (idx_main_v26 (ix2 p q)) = ix1 q :=
    funext fun a => Fin.ext (by match a with | ⟨0, _⟩ => rfl)
  have hl : ∀ k : Fin 512, lidx_main_v24 (ix2 p q) k = ix2 p k := fun k =>
    funext fun a => Fin.ext (by match a with | ⟨0, _⟩ => rfl | ⟨1, _⟩ => rfl)
  have hr : ∀ k : Fin 512, ridx_main_v24 (ix2 p q) k = ix2 q k := fun k =>
    funext fun a => Fin.ext (by match a with | ⟨0, _⟩ => rfl | ⟨1, _⟩ => rfl)
  rw [val_main_v27_apply, val_main_v26_apply, val_main_v25_apply, val_main_v24_apply, refL_apply, hb, Ideal.addf_def]
  refine congrArg (· + x2 (ix1 q)) (Finset.sum_congr rfl fun k _ => ?_)
  rw [hl k, hr k, fq_a, fq_b]

/-! ## The second layer's activations: the first layer's result -/

theorem scale_c (x0 : (⟨S16384x512, .f32⟩ : BufTy).Contents (Elt Ideal)) (x1 : (⟨S2048x512, .f32⟩ : BufTy).Contents (Elt Ideal)) (x2 : (⟨S2048, .f32⟩ : BufTy).Contents (Elt Ideal)) (j : S_.Idx) :
    val_main_v31 (F := Ideal) x0 x1 x2 j = scaleArr (M := 16384) (K := 2048) (val_main_v27 (F := Ideal) x0 x1 x2) := by
  have h : val_main_v29 (F := Ideal) x0 x1 x2 j = absMax (val_main_v27 (F := Ideal) x0 x1 x2) := by
    unfold val_main_v29 val_main_v28
    exact reduce_absMax _ _ (fun _ => rfl) _ _ j
  rw [val_main_v31_apply, val_main_v30_apply, val_main_cst_11_apply, val_main_cst_10_apply, h]
  exact scaleChain _

theorem fq_c (x0 : (⟨S16384x512, .f32⟩ : BufTy).Contents (Elt Ideal)) (x1 : (⟨S2048x512, .f32⟩ : BufTy).Contents (Elt Ideal)) (x2 : (⟨S2048, .f32⟩ : BufTy).Contents (Elt Ideal)) (i : S16384x2048.Idx) :
    val_main_v39 (F := Ideal) x0 x1 x2 i
      = fq (val_main_v27 (F := Ideal) x0 x1 x2 i) (scaleArr (M := 16384) (K := 2048) (val_main_v27 (F := Ideal) x0 x1 x2)) := by
  rw [val_main_v39_apply, val_main_v38_apply, val_main_v37_apply, val_main_v36_apply, val_main_v35_apply,
    val_main_call5_v4_apply, val_main_call5_v3_apply, val_main_cst_13_apply,
    val_main_call5_v2_apply, val_main_call5_v1_apply, val_main_call5_v0_apply, val_main_cst_12_apply,
    val_main_v34_apply, val_main_v33_apply, val_main_v32_apply]
  simp only [scale_c]
  exact fqChain _ _

/-! ## The second layer's weights `x3` -/

theorem scale_d (x3 : (⟨S2048x2048, .f32⟩ : BufTy).Contents (Elt Ideal)) (j : S_.Idx) :
    val_main_v43 (F := Ideal) x3 j = scaleArr (M := 2048) (K := 2048) x3 := by
  have h : val_main_v41 (F := Ideal) x3 j = absMax x3 := by
    unfold val_main_v41 val_main_v40
    exact reduce_absMax x3 _ (fun _ => rfl) _ _ j
  rw [val_main_v43_apply, val_main_v42_apply, val_main_cst_16_apply, val_main_cst_15_apply, h]
  exact scaleChain _

theorem fq_d (x3 : (⟨S2048x2048, .f32⟩ : BufTy).Contents (Elt Ideal)) (i : S2048x2048.Idx) :
    val_main_v51 (F := Ideal) x3 i = fq (x3 i) (scaleArr (M := 2048) (K := 2048) x3) := by
  rw [val_main_v51_apply, val_main_v50_apply, val_main_v49_apply, val_main_v48_apply, val_main_v47_apply,
    val_main_call7_v4_apply, val_main_call7_v3_apply, val_main_cst_18_apply,
    val_main_call7_v2_apply, val_main_call7_v1_apply, val_main_call7_v0_apply, val_main_cst_17_apply,
    val_main_v46_apply, val_main_v45_apply, val_main_v44_apply]
  simp only [scale_d]
  exact fqChain _ _

/-- The second layer, on the first layer's result. -/
theorem layer2 (x0 : (⟨S16384x512, .f32⟩ : BufTy).Contents (Elt Ideal)) (x1 : (⟨S2048x512, .f32⟩ : BufTy).Contents (Elt Ideal)) (x2 : (⟨S2048, .f32⟩ : BufTy).Contents (Elt Ideal)) (x3 : (⟨S2048x2048, .f32⟩ : BufTy).Contents (Elt Ideal)) (x4 : (⟨S2048, .f32⟩ : BufTy).Contents (Elt Ideal)) :
    val_main_v55 (F := Ideal) x0 x1 x2 x3 x4
      = refL (M := 16384) (K := 2048) (N := 2048) (val_main_v27 (F := Ideal) x0 x1 x2) x3 (fun q => x4 (ix1 q)) := by
  funext i
  obtain ⟨p, q, rfl⟩ : ∃ p q, i = ix2 p q := ⟨i 0, i 1, eq_ix2 i⟩
  have hb : idx_main_v53 (idx_main_v54 (ix2 p q)) = ix1 q :=
    funext fun a => Fin.ext (by match a with | ⟨0, _⟩ => rfl)
  have hl : ∀ k : Fin 2048, lidx_main_v52 (ix2 p q) k = ix2 p k := fun k =>
    funext fun a => Fin.ext (by match a with | ⟨0, _⟩ => rfl | ⟨1, _⟩ => rfl)
  have hr : ∀ k : Fin 2048, ridx_main_v52 (ix2 p q) k = ix2 q k := fun k =>
    funext fun a => Fin.ext (by match a with | ⟨0, _⟩ => rfl | ⟨1, _⟩ => rfl)
  rw [val_main_v55_apply, val_main_v54_apply, val_main_v53_apply, val_main_v52_apply, refL_apply, hb, Ideal.addf_def]
  refine congrArg (· + x4 (ix1 q)) (Finset.sum_congr rfl fun k _ => ?_)
  rw [hl k, hr k, fq_c, fq_d]

/-! ## The third layer's activations: the second layer's result -/

theorem scale_e (x0 : (⟨S16384x512, .f32⟩ : BufTy).Contents (Elt Ideal)) (x1 : (⟨S2048x512, .f32⟩ : BufTy).Contents (Elt Ideal)) (x2 : (⟨S2048, .f32⟩ : BufTy).Contents (Elt Ideal)) (x3 : (⟨S2048x2048, .f32⟩ : BufTy).Contents (Elt Ideal)) (x4 : (⟨S2048, .f32⟩ : BufTy).Contents (Elt Ideal)) (j : S_.Idx) :
    val_main_v59 (F := Ideal) x0 x1 x2 x3 x4 j
      = scaleArr (M := 16384) (K := 2048) (val_main_v55 (F := Ideal) x0 x1 x2 x3 x4) := by
  have h : val_main_v57 (F := Ideal) x0 x1 x2 x3 x4 j = absMax (val_main_v55 (F := Ideal) x0 x1 x2 x3 x4) := by
    unfold val_main_v57 val_main_v56
    exact reduce_absMax _ _ (fun _ => rfl) _ _ j
  rw [val_main_v59_apply, val_main_v58_apply, val_main_cst_21_apply, val_main_cst_20_apply, h]
  exact scaleChain _

theorem fq_e (x0 : (⟨S16384x512, .f32⟩ : BufTy).Contents (Elt Ideal)) (x1 : (⟨S2048x512, .f32⟩ : BufTy).Contents (Elt Ideal)) (x2 : (⟨S2048, .f32⟩ : BufTy).Contents (Elt Ideal)) (x3 : (⟨S2048x2048, .f32⟩ : BufTy).Contents (Elt Ideal)) (x4 : (⟨S2048, .f32⟩ : BufTy).Contents (Elt Ideal)) (i : S16384x2048.Idx) :
    val_main_v67 (F := Ideal) x0 x1 x2 x3 x4 i
      = fq (val_main_v55 (F := Ideal) x0 x1 x2 x3 x4 i)
          (scaleArr (M := 16384) (K := 2048) (val_main_v55 (F := Ideal) x0 x1 x2 x3 x4)) := by
  rw [val_main_v67_apply, val_main_v66_apply, val_main_v65_apply, val_main_v64_apply, val_main_v63_apply,
    val_main_call9_v4_apply, val_main_call9_v3_apply, val_main_cst_23_apply,
    val_main_call9_v2_apply, val_main_call9_v1_apply, val_main_call9_v0_apply, val_main_cst_22_apply,
    val_main_v62_apply, val_main_v61_apply, val_main_v60_apply]
  simp only [scale_e]
  exact fqChain _ _

/-! ## The third layer's weights `x5` -/

theorem scale_f (x5 : (⟨S512x2048, .f32⟩ : BufTy).Contents (Elt Ideal)) (j : S_.Idx) :
    val_main_v71 (F := Ideal) x5 j = scaleArr (M := 512) (K := 2048) x5 := by
  have h : val_main_v69 (F := Ideal) x5 j = absMax x5 := by
    unfold val_main_v69 val_main_v68
    exact reduce_absMax x5 _ (fun _ => rfl) _ _ j
  rw [val_main_v71_apply, val_main_v70_apply, val_main_cst_26_apply, val_main_cst_25_apply, h]
  exact scaleChain _

theorem fq_f (x5 : (⟨S512x2048, .f32⟩ : BufTy).Contents (Elt Ideal)) (i : S512x2048.Idx) :
    val_main_v79 (F := Ideal) x5 i = fq (x5 i) (scaleArr (M := 512) (K := 2048) x5) := by
  rw [val_main_v79_apply, val_main_v78_apply, val_main_v77_apply, val_main_v76_apply, val_main_v75_apply,
    val_main_call11_v4_apply, val_main_call11_v3_apply, val_main_cst_28_apply,
    val_main_call11_v2_apply, val_main_call11_v1_apply, val_main_call11_v0_apply, val_main_cst_27_apply,
    val_main_v74_apply, val_main_v73_apply, val_main_v72_apply]
  simp only [scale_f]
  exact fqChain _ _

/-- The third layer, on the second layer's result. -/
theorem layer3 (x0 : (⟨S16384x512, .f32⟩ : BufTy).Contents (Elt Ideal)) (x1 : (⟨S2048x512, .f32⟩ : BufTy).Contents (Elt Ideal)) (x2 : (⟨S2048, .f32⟩ : BufTy).Contents (Elt Ideal)) (x3 : (⟨S2048x2048, .f32⟩ : BufTy).Contents (Elt Ideal)) (x4 : (⟨S2048, .f32⟩ : BufTy).Contents (Elt Ideal)) (x5 : (⟨S512x2048, .f32⟩ : BufTy).Contents (Elt Ideal)) (x6 : (⟨S512, .f32⟩ : BufTy).Contents (Elt Ideal)) :
    val_main_v83 (F := Ideal) x0 x1 x2 x3 x4 x5 x6
      = refL (M := 16384) (K := 2048) (N := 512) (val_main_v55 (F := Ideal) x0 x1 x2 x3 x4) x5 (fun q => x6 (ix1 q)) := by
  funext i
  obtain ⟨p, q, rfl⟩ : ∃ p q, i = ix2 p q := ⟨i 0, i 1, eq_ix2 i⟩
  have hb : idx_main_v81 (idx_main_v82 (ix2 p q)) = ix1 q :=
    funext fun a => Fin.ext (by match a with | ⟨0, _⟩ => rfl)
  have hl : ∀ k : Fin 2048, lidx_main_v80 (ix2 p q) k = ix2 p k := fun k =>
    funext fun a => Fin.ext (by match a with | ⟨0, _⟩ => rfl | ⟨1, _⟩ => rfl)
  have hr : ∀ k : Fin 2048, ridx_main_v80 (ix2 p q) k = ix2 q k := fun k =>
    funext fun a => Fin.ext (by match a with | ⟨0, _⟩ => rfl | ⟨1, _⟩ => rfl)
  rw [val_main_v83_apply, val_main_v82_apply, val_main_v81_apply, val_main_v80_apply, refL_apply, hb, Ideal.addf_def]
  refine congrArg (· + x6 (ix1 q)) (Finset.sum_congr rfl fun k _ => ?_)
  rw [hl k, hr k, fq_e, fq_f]

/-! ## The network -/

/-- The reference's result is the network in its first arrangement. -/
theorem ref_eq (x0 : Cert.QNet.Arr 16384 512) (x1 : Cert.QNet.Arr 2048 512) (x2 : Cert.QNet.Row 2048) (x3 : Cert.QNet.Arr 2048 2048) (x4 : Cert.QNet.Row 2048) (x5 : Cert.QNet.Arr 512 2048) (x6 : Cert.QNet.Row 512) :
    Cert.ReferenceIdeal.Read.val_main_v83 (F := Ideal) x0 x1 x2 x3 x4 x5 x6 = Cert.QNet.refNet x0 x1 x2 x3 x4 x5 x6 := by
  unfold Cert.QNet.refNet
  rw [layer3, layer2, layer1]

end Cert.RefSide

end
-- ==== Proof.LibFiniteEntry.lean ====
/-
  Reading a precondition's conjuncts back, at the ideal instance.

  A precondition over float arrays is printed as a conjunction of `jnp.all` tests, each an elementwise comparison
  reduced by `and` over every axis. Two tests are read back here, for an array of ANY shape:
  * `jnp.all(jnp.abs(x) < inf)` — every entry's absolute value below the word `0x7F800000`, which at the ideal
    instance is `⊤` — says every entry of `x` is a REAL (`all_real_of_all_abs_lt_inf`; one value:
    `real_of_hostAbsf_olt_inf`): an extended real is `⊥`, a real or `⊤`, and `max x (−x) < ⊤` excludes both ends.
  * `jnp.all(x != 0)` — every entry unequal to the word `0x00000000`, the ideal `0` — says no entry is zero
    (`all_ne_zero_of_all_une_zero`; one value: `ne_zero_of_une_zero`).
  The conjunction itself is an `and` of one-bit words: it is 1 exactly when both sides are (`andi_eq_one`).
-/
import Idealize.ShloMosaic.PureOps.Ideal.Laws
import Idealize.ShloMosaic.Lib.ReduceAll

noncomputable section

namespace ProofLib.Finite

open Idealize.ShloMosaic

/-- The f32 word of `+∞` denotes the top of the extended reals. -/
theorem ofBits_inf_f32 : Ideal.ofBits .f32 0x7F800000#32 = ⊤ := by simp [Ideal.ofBits, Ideal.ieee]

/-- An extended real whose absolute value `max x (−x)` is below `⊤` is a real. -/
theorem exists_real_of_abs_lt_top (x : EReal) (hlt : max x (-x) < ⊤) : ∃ r : ℝ, x = (r : EReal) := by
  have hx_top : x ≠ ⊤ := fun e => by rw [e] at hlt; simp at hlt
  have hx_bot : x ≠ ⊥ := fun e => by rw [e] at hlt; simp at hlt
  exact ⟨x.toReal, (EReal.coe_toReal hx_top hx_bot).symm⟩

/-- One value: the host's `|x| < +∞`, true, says `x` is a real. -/
theorem real_of_hostAbsf_olt_inf (x : Ideal .f32)
    (h : FloatOps.cmpf .olt (FloatOps.hostAbsf x) (FloatOps.ofBits (F := Ideal) .f32 0x7F800000#32) = 1#1) :
    ∃ r : ℝ, (x : EReal) = (r : EReal) := by
  have h' : Ideal.cmp .olt (max (x : EReal) (-(x : EReal))) (Ideal.ofBits .f32 0x7F800000#32) = 1#1 := h
  rw [ofBits_inf_f32] at h'
  unfold Ideal.cmp at h'
  refine exists_real_of_abs_lt_top x ?_
  by_contra hn
  simp [hn] at h'

/-- One value: the host's `x != 0`, true, says `x` is not zero. -/
theorem ne_zero_of_une_zero (x : Ideal .f32)
    (h : FloatOps.cmpf .une x (FloatOps.ofBits (F := Ideal) .f32 0x00000000#32) = 1#1) : (x : EReal) ≠ 0 := by
  have h' : Ideal.cmp .une (x : EReal) (Ideal.ofBits .f32 0x00000000#32) = 1#1 := h
  rw [Ideal.ofBits_zero_f32] at h'
  unfold Ideal.cmp at h'
  intro hx
  simp [hx] at h'

variable {s t u : Shape} {axes : List (Fin s.rank)}

/-- `jnp.all(jnp.abs(x) < inf)`, true: every entry of `x` is a real. `bound` is the comparison's right operand, the
    `+∞` word at every index (a broadcast of the scalar constant). -/
theorem all_real_of_all_abs_lt_inf [Subsingleton t.Idx] (x bound : FVec Ideal s .f32)
    (hbound : ∀ i, bound i = FloatOps.ofBits (F := Ideal) .f32 0x7F800000#32)
    (init : u.Idx → BitVec 1) (h : s.ReducesTo axes t) (hu : 0 < u.numel) (j : t.Idx)
    (e : Host.reduce IntOp.andi (cmpf .olt (Host.absf x) bound) init h hu j = 1#1) (i : s.Idx) :
    ∃ r : ℝ, (x i : EReal) = (r : EReal) := by
  have hi : cmpf .olt (Host.absf x) bound i = 1#1 := Host.reduce_andi_all _ init h hu j e i
  refine real_of_hostAbsf_olt_inf (x i) ?_
  rw [← hbound i]
  exact hi

/-- `jnp.all(x != 0)`, true: no entry of `x` is zero. `zero` is the comparison's right operand, the zero word at every
    index. -/
theorem all_ne_zero_of_all_une_zero [Subsingleton t.Idx] (x zero : FVec Ideal s .f32)
    (hzero : ∀ i, zero i = FloatOps.ofBits (F := Ideal) .f32 0x00000000#32)
    (init : u.Idx → BitVec 1) (h : s.ReducesTo axes t) (hu : 0 < u.numel) (j : t.Idx)
    (e : Host.reduce IntOp.andi (cmpf .une x zero) init h hu j = 1#1) (i : s.Idx) : (x i : EReal) ≠ 0 := by
  have hi : cmpf .une x zero i = 1#1 := Host.reduce_andi_all _ init h hu j e i
  refine ne_zero_of_une_zero (x i) ?_
  rw [← hzero i]
  exact hi

/-- The conjunction of two one-bit flags is 1 exactly when both are. -/
theorem andi_eq_one (a b : BitVec 1) : a &&& b = 1#1 ↔ a = 1#1 ∧ b = 1#1 := by
  revert a b; decide

end ProofLib.Finite

end
-- ==== Proof.FiniteIn.lean ====
/-
  The precondition "every input is finite", read back at the ideal instance.

  The precondition is printed as a conjunction of seven tests, one per input array: the absolute value of every entry is
  compared with the word of +∞, and the comparisons are joined by `and` over every axis, down to a single one-bit word.
  At the ideal instance an entry is an extended real, its absolute value is `max x (−x)`, and the word of +∞ is the top
  element. The conjunction of one-bit words is 1 exactly when each conjunct is; a reduction by `and` that is 1 makes every
  element 1; and an extended real with `max x (−x) < ⊤` is neither end of the line, hence a real number. So the one
  hypothesis "the precondition evaluates to 1" gives, for each of the seven arrays, that every entry is a real.
-/
import proofs.«109104_j3513283248696_2_alg».proof.Pre_finite_inputs
import proofs.«109104_j3513283248696_2_alg».proof.Proof.LibFiniteEntry
import Idealize.ShloMosaic.Lib.ValueIdx

noncomputable section

namespace Cert.FiniteIn

open Idealize.ShloMosaic

/-- The shape with no axes has exactly one index. -/
instance subsingleton_scalar_idx : Subsingleton Cert.Pre_finite_inputs.S_.Idx :=
  ⟨fun a b => funext fun d => d.elim0⟩

/-- The precondition, true, says every entry of every input is a real number. -/
theorem all_real [Cert.Pre_finite_inputs.Facts] (a0 : FVec Ideal Cert.Pre_finite_inputs.S16384x512 .f32) (a1 : FVec Ideal Cert.Pre_finite_inputs.S2048x512 .f32) (a2 : FVec Ideal Cert.Pre_finite_inputs.S2048 .f32) (a3 : FVec Ideal Cert.Pre_finite_inputs.S2048x2048 .f32) (a4 : FVec Ideal Cert.Pre_finite_inputs.S2048 .f32) (a5 : FVec Ideal Cert.Pre_finite_inputs.S512x2048 .f32) (a6 : FVec Ideal Cert.Pre_finite_inputs.S512 .f32)
    (h : Cert.Pre_finite_inputs.fn (F := Ideal) a0 a1 a2 a3 a4 a5 a6 = fun _ => 1#1) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal)) ∧ (∀ i, ∃ r : ℝ, a4 i = (r : EReal)) ∧ (∀ i, ∃ r : ℝ, a5 i = (r : EReal)) ∧ (∀ i, ∃ r : ℝ, a6 i = (r : EReal)) := by
  have h0 := congrFun h ValueIdx.ix0
  dsimp only [Cert.Pre_finite_inputs.fn, Cert.Pre_finite_inputs.fn_part1] at h0
  -- the conjunction is nested to the left: peel the last test off six times
  obtain ⟨h0, e6⟩ := (ProofLib.Finite.andi_eq_one _ _).1 h0
  obtain ⟨h0, e5⟩ := (ProofLib.Finite.andi_eq_one _ _).1 h0
  obtain ⟨h0, e4⟩ := (ProofLib.Finite.andi_eq_one _ _).1 h0
  obtain ⟨h0, e3⟩ := (ProofLib.Finite.andi_eq_one _ _).1 h0
  obtain ⟨h0, e2⟩ := (ProofLib.Finite.andi_eq_one _ _).1 h0
  obtain ⟨e0, e1⟩ := (ProofLib.Finite.andi_eq_one _ _).1 h0
  exact ⟨ProofLib.Finite.all_real_of_all_abs_lt_inf a0 _ (fun _ => rfl) _ _ _ _ e0,
    ProofLib.Finite.all_real_of_all_abs_lt_inf a1 _ (fun _ => rfl) _ _ _ _ e1,
    ProofLib.Finite.all_real_of_all_abs_lt_inf a2 _ (fun _ => rfl) _ _ _ _ e2,
    ProofLib.Finite.all_real_of_all_abs_lt_inf a3 _ (fun _ => rfl) _ _ _ _ e3,
    ProofLib.Finite.all_real_of_all_abs_lt_inf a4 _ (fun _ => rfl) _ _ _ _ e4,
    ProofLib.Finite.all_real_of_all_abs_lt_inf a5 _ (fun _ => rfl) _ _ _ _ e5,
    ProofLib.Finite.all_real_of_all_abs_lt_inf a6 _ (fun _ => rfl) _ _ _ _ e6⟩

end Cert.FiniteIn

end
-- ==== Proof.lean ====
/-
  A three-layer eight-bit quantised network: the kernel program against its reference, on the extended reals.

  Reference: each layer replaces every activation and every weight `v` by `v + (c·s − v)`, where `c` is the value's
  code `min 127 (max (-128) (round (v / s)))` and `s = max (m / 127) eps` with `m` the array's greatest absolute
  value, and then takes the inner products of activation rows with weight rows, plus a bias. Kernel program: the host
  computes the weights' codes and the scales; each of three regions, block by block, codes its activations, takes the
  inner products of CODES, multiplies once by the product of the two scales, adds the bias, and also records each
  block's greatest absolute value, from which the host forms the next layer's activation scale.

  The two agree because, for real entries and real scales, `v + (c·s − v) = c·s` and
  `∑ (a·s)(b·t) = (∑ a·b)·(s·t)`; a code is always a real in [-128, 127]; the maximum of the blocks' maxima is the
  array's maximum; and every layer's result is real again. The inputs are real by the precondition. Exchanging a product
  and a sum fails at the infinities of the extended reals, so the precondition is used.

  The three frames are the generated ones (the reference's is its run with the result dropped); the kernel program
  rewrites nothing when idealized, so that conjunct is trivial.
-/
import proofs.«109104_j3513283248696_2_alg».proof.Defs
import proofs.«109104_j3513283248696_2_alg».proof.Proof.Gen.Kernel
import proofs.«109104_j3513283248696_2_alg».proof.Proof.Gen.Kernel.Skeleton
import proofs.«109104_j3513283248696_2_alg».proof.Proof.Gen.Kernel.Launch
import proofs.«109104_j3513283248696_2_alg».proof.Proof.Gen.Kernel.Points
import proofs.«109104_j3513283248696_2_alg».proof.Proof.Gen.Kernel.Frame
import proofs.«109104_j3513283248696_2_alg».proof.Proof.Gen.KernelIdeal
import proofs.«109104_j3513283248696_2_alg».proof.Proof.Gen.KernelIdeal.Skeleton
import proofs.«109104_j3513283248696_2_alg».proof.Proof.Gen.KernelIdeal.Launch
import proofs.«109104_j3513283248696_2_alg».proof.Proof.Gen.KernelIdeal.Points
import proofs.«109104_j3513283248696_2_alg».proof.Proof.Gen.KernelIdeal.Frame
import proofs.«109104_j3513283248696_2_alg».proof.Proof.Gen.ReferenceIdeal
import proofs.«109104_j3513283248696_2_alg».proof.Proof.Gen.Pre_finite_inputs
import proofs.«109104_j3513283248696_2_alg».proof.Proof.Gen.ReferenceIdeal.Run
import proofs.«109104_j3513283248696_2_alg».proof.Proof.Gen.ReferenceIdeal.Read
import proofs.«109104_j3513283248696_2_alg».proof.Proof.KerRun
import proofs.«109104_j3513283248696_2_alg».proof.Proof.KerNet
import proofs.«109104_j3513283248696_2_alg».proof.Proof.RefSide
import proofs.«109104_j3513283248696_2_alg».proof.Proof.FiniteIn
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the network's array: the kernel program by its regions, the reference by its run read
    operation by operation, and the two arrangements of the network agree on real inputs. -/
theorem algebraic : Cert.algebraic_KernelIdeal_ReferenceIdeal := by
  intro m ρ m' ρ' hpre hagree
  refine ⟨fun c => Cert.QNet.kerNet (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)), ?_, ?_⟩
  · exact (θ_run Cert.KernelIdeal.defs _ _).mono
      (fun r h c => ⟨(h c).1.trans (Cert.KernelIdeal.KV.result_eq m ρ c), (h c).2⟩) (Cert.KernelIdeal.KV.run_out m ρ)
  · refine (θ_run Cert.ReferenceIdeal.defs _ _).mono (fun r h c => ⟨(h c).1.trans ?_, (h c).2⟩)
      (Cert.ReferenceIdeal.Value.run (F := Ideal) m' ρ')
    obtain ⟨g0, g1, g2, g3, g4, g5, g6⟩ := hagree c
    obtain ⟨r0, r1, r2, r3, r4, r5, -⟩ := Cert.FiniteIn.all_real _ _ _ _ _ _ _ (hpre c)
    rw [Cert.ReferenceIdeal.Read.val_main_v83_eq, g0, g1, g2, g3, g4, g5, g6, Cert.RefSide.ref_eq]
    exact Cert.QNet.net_eq _ _ _ _ _ _ _ r0 r1 r2 r3 r4 r5

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
